-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S512x512 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x28x28 : Shape := ⟨4, ![64, 512, 28, 28]⟩
abbrev S200x262144 : Shape := ⟨2, ![200, 262144]⟩
abbrev S200 : Shape := ⟨1, ![200]⟩
abbrev S_ : Shape := ⟨0, ![]⟩

class Facts : Prop where
  bcast_S_S64x512x28x28 : S_.BroadcastsInDim S64x512x28x28 (![] : Fin 0 → Fin S64x512x28x28.rank)
  reducesTo_S64x512x28x28_S_d0_1_2_3 : S64x512x28x28.ReducesTo [0, 1, 2, 3] S_
  h_S_ : 0 < S_.numel
  bcast_S_S200x262144 : S_.BroadcastsInDim S200x262144 (![] : Fin 0 → Fin S200x262144.rank)
  reducesTo_S200x262144_S_d0_1 : S200x262144.ReducesTo [0, 1] S_
  bcast_S_S200 : S_.BroadcastsInDim S200 (![] : Fin 0 → Fin S200.rank)
  reducesTo_S200_S_d0 : S200.ReducesTo [0] S_

variable [Facts]

def fn {F : FTy → Type} [FloatOps F] (main_arg0 : FVec F S64x512x28x28 .f32) (main_arg1 : FVec F S200x262144 .f32) (main_arg2 : FVec F S200 .f32) : IVec S_ 1 :=
  let main_v0 : FVec F S64x512x28x28 .f32 := Host.absf main_arg0
  let main_cst : FVec F S_ .f32 := constant S_ .f32 0x7F800000#32
  let main_v1 : FVec F S64x512x28x28 .f32 := broadcastInDim S64x512x28x28 ![] bcast_S_S64x512x28x28 main_cst
  let main_v2 : IVec S64x512x28x28 1 := cmpf .olt main_v0 main_v1
  let main_c : IVec S_ 1 := constantI S_ 1 1#1
  let main_v3 : IVec S_ 1 := (fun x v => Host.reduce IntOp.andi x v reducesTo_S64x512x28x28_S_d0_1_2_3 h_S_) main_v2 main_c
  let main_v4 : FVec F S200x262144 .f32 := Host.absf main_arg1
  let main_cst_0 : FVec F S_ .f32 := constant S_ .f32 0x7F800000#32
  let main_v5 : FVec F S200x262144 .f32 := broadcastInDim S200x262144 ![] bcast_S_S200x262144 main_cst_0
  let main_v6 : IVec S200x262144 1 := cmpf .olt main_v4 main_v5
  let main_c_1 : IVec S_ 1 := constantI S_ 1 1#1
  let main_v7 : IVec S_ 1 := (fun x v => Host.reduce IntOp.andi x v reducesTo_S200x262144_S_d0_1 h_S_) main_v6 main_c_1
  let main_v8 : IVec S_ 1 := andi main_v3 main_v7
  let main_v9 : FVec F S200 .f32 := Host.absf main_arg2
  let main_cst_2 : FVec F S_ .f32 := constant S_ .f32 0x7F800000#32
  let main_v10 : FVec F S200 .f32 := broadcastInDim S200 ![] bcast_S_S200 main_cst_2
  let main_v11 : IVec S200 1 := cmpf .olt main_v9 main_v10
  let main_c_3 : IVec S_ 1 := constantI S_ 1 1#1
  let main_v12 : IVec S_ 1 := (fun x v => Host.reduce IntOp.andi x v reducesTo_S200_S_d0 h_S_) main_v11 main_c_3
  let main_v13 : IVec S_ 1 := andi main_v8 main_v12
  main_v13
-- ==== Kernel.lean ====
abbrev S64x512x28x28 : Shape := ⟨4, ![64, 512, 28, 28]⟩
abbrev S200x262144 : Shape := ⟨2, ![200, 262144]⟩
abbrev S200 : Shape := ⟨1, ![200]⟩
abbrev S64x512x784 : Shape := ⟨3, ![64, 512, 784]⟩
abbrev S64x512x512 : Shape := ⟨3, ![64, 512, 512]⟩
abbrev S1x512x784 : Shape := ⟨3, ![1, 512, 784]⟩
abbrev S1x512x512 : Shape := ⟨3, ![1, 512, 512]⟩
abbrev S512x784 : Shape := ⟨2, ![512, 784]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S64x262144 : Shape := ⟨2, ![64, 262144]⟩
abbrev S2x64x200 : Shape := ⟨3, ![2, 64, 200]⟩
abbrev S64x16384 : Shape := ⟨2, ![64, 16384]⟩
abbrev S200x16384 : Shape := ⟨2, ![200, 16384]⟩
abbrev S1x64x200 : Shape := ⟨3, ![1, 64, 200]⟩
abbrev S64x200 : Shape := ⟨2, ![64, 200]⟩
abbrev S1x200 : Shape := ⟨2, ![1, 200]⟩

abbrev nBuf : Space → Nat
  | .hbm => 15
  | .vmem => 11
  | .smem => 0
  | _ => 0

abbrev bufTy : (tb : Table) → Fin (tcTables nBuf tb) → BufTy
  | .hbm, ⟨0, _⟩ => ⟨S64x512x28x28, .f32⟩
  | .hbm, ⟨1, _⟩ => ⟨S200x262144, .f32⟩
  | .hbm, ⟨2, _⟩ => ⟨S200, .f32⟩
  | .hbm, ⟨3, _⟩ => ⟨S64x512x784, .f32⟩
  | .hbm, ⟨4, _⟩ => ⟨S64x512x512, .f32⟩
  | .hbm, ⟨5, _⟩ => ⟨S64x262144, .f32⟩
  | .hbm, ⟨6, _⟩ => ⟨S2x64x200, .f32⟩
  | .hbm, ⟨7, _⟩ => ⟨S1x64x200, .f32⟩
  | .hbm, ⟨8, _⟩ => ⟨S64x200, .f32⟩
  | .hbm, ⟨9, _⟩ => ⟨S1x64x200, .f32⟩
  | .hbm, ⟨10, _⟩ => ⟨S64x200, .f32⟩
  | .hbm, ⟨11, _⟩ => ⟨S64x200, .f32⟩
  | .hbm, ⟨12, _⟩ => ⟨S1x200, .f32⟩
  | .hbm, ⟨13, _⟩ => ⟨S64x200, .f32⟩
  | .hbm, ⟨14, _⟩ => ⟨S64x200, .f32⟩
  | .local _ .vmem, ⟨0, _⟩ => ⟨S1x512x784, .f32⟩
  | .local _ .vmem, ⟨1, _⟩ => ⟨S1x512x784, .f32⟩
  | .local _ .vmem, ⟨2, _⟩ => ⟨S1x512x512, .f32⟩
  | .local _ .vmem, ⟨3, _⟩ => ⟨S1x512x512, .f32⟩
  | .local _ .vmem, ⟨4, _⟩ => ⟨S64x16384, .f32⟩
  | .local _ .vmem, ⟨5, _⟩ => ⟨S64x16384, .f32⟩
  | .local _ .vmem, ⟨6, _⟩ => ⟨S200x16384, .f32⟩
  | .local _ .vmem, ⟨7, _⟩ => ⟨S200x16384, .f32⟩
  | .local _ .vmem, ⟨8, _⟩ => ⟨S1x64x200, .f32⟩
  | .local _ .vmem, ⟨9, _⟩ => ⟨S1x64x200, .f32⟩
  | .local _ .vmem, ⟨10, _⟩ => ⟨S64x200, .f32⟩
  | _, _ => ⟨S64x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [BitOps F]

abbrev grid0 : Pipeline.Grid := ⟨1, ![64], ![false]⟩

@[reducible] def k0_t1_loop : Scf.Loop 32 :=
  let c0_i32 : BitVec 32 := 0#32
  let c10_i32 : BitVec 32 := 10#32
  let v19 : BitVec 32 := Scalar.addi c0_i32 c10_i32
  let c1_i32 : BitVec 32 := 1#32
  ⟨c0_i32, v19, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi arg1 v0
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi arg1 v0
  let c0_i32 : BitVec 32 := 0#32
  let c0_i32_0 : BitVec 32 := 0#32
  ![c0_i32.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S200x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S64x512x28x28_S64x512x784 : S64x512x28x28.ShapeCasts S64x512x784
  inb_S1x512x784_S1x512x784_0_0_0 : ∀ a, (![0, 0, 0] : Fin 3 → Nat) a + S1x512x784.size a ≤ S1x512x784.size a
  h_S1x512x784 : 0 < S1x512x784.numel
  shapeCasts_S1x512x784_S512x784 : S1x512x784.ShapeCasts S512x784
  bitsLt_bf16_f32 : FTy.bits .bf16 < FTy.bits .f32
  iota_S512x512_d0_w32 : S512x512.Iotas .tc 32 [0]
  iota_S512x512_d1_w32 : S512x512.Iotas .tc 32 [1]
  natLt_1_32 : 1 < 32
  reduces_S512x512_S512 : S512x512.Reduces [1] S512
  shapeCasts_S512_S512x1 : S512.ShapeCasts S512x1
  reduces_S512x1_S1 : S512x1.Reduces [0] S1
  shapeCasts_S1_S1x1 : S1.ShapeCasts S1x1
  broadcasts_S1x1_S512x512 : S1x1.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  shapeCasts_S64x512x512_S64x262144 : S64x512x512.ShapeCasts S64x262144
  inb_S64x200_S64x200_0_0 : ∀ a, (![0, 0] : Fin 2 → Nat) a + S64x200.size a ≤ S64x200.size a
  h_S64x200 : 0 < S64x200.numel
  shapeCasts_S64x200_S64x200 : S64x200.ShapeCasts S64x200
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  inb_S200x16384_S200x16384_0_0 : ∀ a, (![0, 0] : Fin 2 → Nat) a + S200x16384.size a ≤ S200x16384.size a
  h_S200x16384 : 0 < S200x16384.numel
  inb_S1x64x200_S1x64x200_0_0_0 : ∀ a, (![0, 0, 0] : Fin 3 → Nat) a + S1x64x200.size a ≤ S1x64x200.size a
  h_S1x64x200 : 0 < S1x64x200.numel
  shapeCasts_S1x64x200_S64x200 : S1x64x200.ShapeCasts S64x200
  shapeCasts_S64x200_S1x64x200 : S64x200.ShapeCasts S1x64x200
  slices_S2x64x200_S1x64x200_0_0_0 : S2x64x200.Slices ![0, 0, 0] S1x64x200
  slices_S2x64x200_S1x64x200_1_0_0 : S2x64x200.Slices ![1, 0, 0] S1x64x200
  bcast_S200_S1x200_1 : S200.BroadcastsInDim S1x200 (![1] : Fin 1 → Fin S1x200.rank)
  bcast_S1x200_S64x200_0_1 : S1x200.BroadcastsInDim S64x200 (![0, 1] : Fin 2 → Fin S64x200.rank)
  dot_S512x784_S512x784_S512x512_1_1_0_0_n_n_wf : DotDims.WF S512x784 S512x784 S512x512 [1] [1] [0] [0] [] []
  dot_S512x512_S512x512_S512x512_1_0_0_1_n_n_wf : DotDims.WF S512x512 S512x512 S512x512 [1] [0] [0] [1] [] []
  dot_S64x16384_S200x16384_S64x200_1_1_0_0_n_n_wf : DotDims.WF S64x16384 S200x16384 S64x200 [1] [1] [0] [0] [] []
  hrank0 : 0 < grid0.rank
  k0_t1_ok : k0_t1_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x784.size a ≤ S64x512x784.size a
  hwx0_0 : ∀ i : grid0.Coords, EltTy.bits .f32 = 32 ∨ (Rect.block (s := S64x512x784) S1x512x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x16384.size a ≤ S64x262144.size a
  hwx1_0 : ∀ i : grid1.Coords, EltTy.bits .f32 = 32 ∨ (Rect.block (s := S64x262144) S64x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x16384.size a ≤ S200x262144.size a
  hwx1_1 : ∀ i : grid1.Coords, EltTy.bits .f32 = 32 ∨ (Rect.block (s := S200x262144) S200x16384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x200.size a ≤ S2x64x200.size a
  hwx1_2 : ∀ i : grid1.Coords, EltTy.bits .f32 = 32 ∨ (Rect.block (s := S2x64x200) S1x64x200.size (cc1_transform_2 i) (hinb1_2 i)).WholeWords (EltTy.packing .f32)

variable [Facts₀]

def dot_S512x784_S512x784_S512x512_1_1_0_0_n_n : DotDims S512x784 S512x784 S512x512 where
  lhsContracting := [1]
  rhsContracting := [1]
  lhsNonContracting := [0]
  rhsNonContracting := [0]
  lhsBatch := []
  rhsBatch := []
  wf := dot_S512x784_S512x784_S512x512_1_1_0_0_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S64x16384_S200x16384_S64x200_1_1_0_0_n_n : DotDims S64x16384 S200x16384 S64x200 where
  lhsContracting := [1]
  rhsContracting := [1]
  lhsNonContracting := [0]
  rhsNonContracting := [0]
  lhsBatch := []
  rhsBatch := []
  wf := dot_S64x16384_S200x16384_S64x200_1_1_0_0_n_n_wf

abbrev win0_0 : Pipeline.Window sig grid0 :=
  Pipeline.Window.ofSpec (Memref.whole main_v0) S1x512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S64x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x64x200.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S64x512x28x28 : Shape := ⟨4, ![64, 512, 28, 28]⟩
abbrev S200x262144 : Shape := ⟨2, ![200, 262144]⟩
abbrev S200 : Shape := ⟨1, ![200]⟩
abbrev S64x512x784 : Shape := ⟨3, ![64, 512, 784]⟩
abbrev S64x512x512 : Shape := ⟨3, ![64, 512, 512]⟩
abbrev S_ : Shape := ⟨0, ![]⟩
abbrev S64 : Shape := ⟨1, ![64]⟩
abbrev S64x1x1 : Shape := ⟨3, ![64, 1, 1]⟩
abbrev S512x512 : Shape := ⟨2, ![512, 512]⟩
abbrev S64x262144 : Shape := ⟨2, ![64, 262144]⟩
abbrev S64x1 : Shape := ⟨2, ![64, 1]⟩
abbrev S262144x200 : Shape := ⟨2, ![262144, 200]⟩
abbrev S64x200 : Shape := ⟨2, ![64, 200]⟩
abbrev S1x200 : Shape := ⟨2, ![1, 200]⟩

abbrev nBuf : Space → Nat
  | .hbm => 150
  | .vmem => 0
  | .smem => 0
  | _ => 0

abbrev hbmTy0_0 (i : Nat) : BufTy := match i % 128 with
  | 0 => ⟨S64x512x28x28, .f32⟩
  | 1 => ⟨S200x262144, .f32⟩
  | 2 => ⟨S200, .f32⟩
  | 3 => ⟨S64x512x784, .f32⟩
  | 4 => ⟨S64x512x512, .f32⟩
  | 5 => ⟨S_, .f32⟩
  | 6 => ⟨S64x512x512, .f32⟩
  | 7 => ⟨S64x512x512, .f32⟩
  | 8 => ⟨S64x512x512, .f32⟩
  | 9 => ⟨S_, .f32⟩
  | 10 => ⟨S64, .f32⟩
  | 11 => ⟨S64, .f32⟩
  | 12 => ⟨S64x1x1, .f32⟩
  | 13 => ⟨S64x512x512, .f32⟩
  | 14 => ⟨S64x512x512, .f32⟩
  | 15 => ⟨S512x512, .i32⟩
  | 16 => ⟨S512x512, .i32⟩
  | 17 => ⟨S_, .i32⟩
  | 18 => ⟨S512x512, .i32⟩
  | 19 => ⟨S512x512, .i32⟩
  | 20 => ⟨S512x512, .i1⟩
  | 21 => ⟨S512x512, .f32⟩
  | 22 => ⟨S64x512x512, .f32⟩
  | 23 => ⟨S_, .f32⟩
  | 24 => ⟨S64x512x512, .f32⟩
  | 25 => ⟨S64x512x512, .f32⟩
  | 26 => ⟨S64x512x512, .f32⟩
  | 27 => ⟨S64x512x512, .f32⟩
  | 28 => ⟨S_, .f32⟩
  | 29 => ⟨S64x512x512, .f32⟩
  | 30 => ⟨S64x512x512, .f32⟩
  | 31 => ⟨S64x512x512, .f32⟩
  | 32 => ⟨S64x512x512, .f32⟩
  | 33 => ⟨S_, .f32⟩
  | 34 => ⟨S64x512x512, .f32⟩
  | 35 => ⟨S64x512x512, .f32⟩
  | 36 => ⟨S64x512x512, .f32⟩
  | 37 => ⟨S64x512x512, .f32⟩
  | 38 => ⟨S_, .f32⟩
  | 39 => ⟨S64x512x512, .f32⟩
  | 40 => ⟨S64x512x512, .f32⟩
  | 41 => ⟨S64x512x512, .f32⟩
  | 42 => ⟨S64x512x512, .f32⟩
  | 43 => ⟨S_, .f32⟩
  | 44 => ⟨S64x512x512, .f32⟩
  | 45 => ⟨S64x512x512, .f32⟩
  | 46 => ⟨S64x512x512, .f32⟩
  | 47 => ⟨S64x512x512, .f32⟩
  | 48 => ⟨S_, .f32⟩
  | 49 => ⟨S64x512x512, .f32⟩
  | 50 => ⟨S64x512x512, .f32⟩
  | 51 => ⟨S64x512x512, .f32⟩
  | 52 => ⟨S64x512x512, .f32⟩
  | 53 => ⟨S_, .f32⟩
  | 54 => ⟨S64x512x512, .f32⟩
  | 55 => ⟨S64x512x512, .f32⟩
  | 56 => ⟨S64x512x512, .f32⟩
  | 57 => ⟨S64x512x512, .f32⟩
  | 58 => ⟨S_, .f32⟩
  | 59 => ⟨S64x512x512, .f32⟩
  | 60 => ⟨S64x512x512, .f32⟩
  | 61 => ⟨S64x512x512, .f32⟩
  | 62 => ⟨S64x512x512, .f32⟩
  | 63 => ⟨S_, .f32⟩
  | 64 => ⟨S64x512x512, .f32⟩
  | 65 => ⟨S64x512x512, .f32⟩
  | 66 => ⟨S64x512x512, .f32⟩
  | 67 => ⟨S64x512x512, .f32⟩
  | 68 => ⟨S_, .f32⟩
  | 69 => ⟨S64x512x512, .f32⟩
  | 70 => ⟨S64x512x512, .f32⟩
  | 71 => ⟨S64x512x512, .f32⟩
  | 72 => ⟨S64x512x512, .f32⟩
  | 73 => ⟨S_, .f32⟩
  | 74 => ⟨S64x512x512, .f32⟩
  | 75 => ⟨S64x512x512, .f32⟩
  | 76 => ⟨S64x512x512, .f32⟩
  | 77 => ⟨S64x512x512, .f32⟩
  | 78 => ⟨S_, .f32⟩
  | 79 => ⟨S64x512x512, .f32⟩
  | 80 => ⟨S64x512x512, .f32⟩
  | 81 => ⟨S64x512x512, .f32⟩
  | 82 => ⟨S64x512x512, .f32⟩
  | 83 => ⟨S_, .f32⟩
  | 84 => ⟨S64x512x512, .f32⟩
  | 85 => ⟨S64x512x512, .f32⟩
  | 86 => ⟨S64x512x512, .f32⟩
  | 87 => ⟨S64x512x512, .f32⟩
  | 88 => ⟨S_, .f32⟩
  | 89 => ⟨S64x512x512, .f32⟩
  | 90 => ⟨S64x512x512, .f32⟩
  | 91 => ⟨S64x512x512, .f32⟩
  | 92 => ⟨S64x512x512, .f32⟩
  | 93 => ⟨S_, .f32⟩
  | 94 => ⟨S64x512x512, .f32⟩
  | 95 => ⟨S64x512x512, .f32⟩
  | 96 => ⟨S64x512x512, .f32⟩
  | 97 => ⟨S64x512x512, .f32⟩
  | 98 => ⟨S_, .f32⟩
  | 99 => ⟨S64x512x512, .f32⟩
  | 100 => ⟨S64x512x512, .f32⟩
  | 101 => ⟨S64x512x512, .f32⟩
  | 102 => ⟨S64x512x512, .f32⟩
  | 103 => ⟨S_, .f32⟩
  | 104 => ⟨S64x512x512, .f32⟩
  | 105 => ⟨S64x512x512, .f32⟩
  | 106 => ⟨S64x512x512, .f32⟩
  | 107 => ⟨S64x512x512, .f32⟩
  | 108 => ⟨S_, .f32⟩
  | 109 => ⟨S64x512x512, .f32⟩
  | 110 => ⟨S64x512x512, .f32⟩
  | 111 => ⟨S64x512x512, .f32⟩
  | 112 => ⟨S64x512x512, .f32⟩
  | 113 => ⟨S_, .f32⟩
  | 114 => ⟨S64x512x512, .f32⟩
  | 115 => ⟨S64x512x512, .f32⟩
  | 116 => ⟨S64x512x512, .f32⟩
  | 117 => ⟨S64x512x512, .f32⟩
  | 118 => ⟨S_, .f32⟩
  | 119 => ⟨S64x512x512, .f32⟩
  | 120 => ⟨S64x512x512, .f32⟩
  | 121 => ⟨S64x512x512, .f32⟩
  | 122 => ⟨S64x512x512, .f32⟩
  | 123 => ⟨S64, .f32⟩
  | 124 => ⟨S64x1x1, .f32⟩
  | 125 => ⟨S64x512x512, .f32⟩
  | 126 => ⟨S64x512x512, .f32⟩
  | 127 => ⟨S64x262144, .f32⟩
  | _ => ⟨S64x512x28x28, .f32⟩

abbrev hbmTy0_1 (i : Nat) : BufTy := match i % 128 with
  | 0 => ⟨S64x262144, .f32⟩
  | 1 => ⟨S64x262144, .f32⟩
  | 2 => ⟨S_, .f32⟩
  | 3 => ⟨S64x262144, .f32⟩
  | 4 => ⟨S64x262144, .f32⟩
  | 5 => ⟨S64x262144, .f32⟩
  | 6 => ⟨S64x262144, .f32⟩
  | 7 => ⟨S64x262144, .f32⟩
  | 8 => ⟨S_, .f32⟩
  | 9 => ⟨S64, .f32⟩
  | 10 => ⟨S64x1, .f32⟩
  | 11 => ⟨S64x1, .f32⟩
  | 12 => ⟨S_, .f32⟩
  | 13 => ⟨S64x1, .f32⟩
  | 14 => ⟨S64x1, .f32⟩
  | 15 => ⟨S64x262144, .f32⟩
  | 16 => ⟨S64x262144, .f32⟩
  | 17 => ⟨S262144x200, .f32⟩
  | 18 => ⟨S64x200, .f32⟩
  | 19 => ⟨S1x200, .f32⟩
  | 20 => ⟨S64x200, .f32⟩
  | 21 => ⟨S64x200, .f32⟩
  | _ => ⟨S64x512x28x28, .f32⟩

abbrev hbmTy (i : Nat) : BufTy := match i / 128 with
  | 0 => hbmTy0_0 i
  | 1 => hbmTy0_1 i
  | _ => ⟨S64x512x28x28, .f32⟩

abbrev bufTy : (tb : Table) → Fin (tcTables nBuf tb) → BufTy
  | .hbm, ⟨i, _⟩ => hbmTy i
  | _, _ => ⟨S64x512x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_9 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_15 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_16 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_17 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_18 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_19 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_20 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_21 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_22 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_23 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩

abbrev nD : Nat := 1
abbrev τ : Topo := Topo.v7x

variable {F : FTy → Type} [FloatOps F]

class Facts₀ : Prop where
  shapeCasts_S64x512x28x28_S64x512x784 : S64x512x28x28.ShapeCasts S64x512x784
  bcast_S_S64x512x512 : S_.BroadcastsInDim S64x512x512 (![] : Fin 0 → Fin S64x512x512.rank)
  reducesTo_S64x512x512_S64_d1_2 : S64x512x512.ReducesTo [1, 2] S64
  h_S_ : 0 < S_.numel
  bcast_S64_S64x1x1_0 : S64.BroadcastsInDim S64x1x1 (![0] : Fin 1 → Fin S64x1x1.rank)
  bcast_S64x1x1_S64x512x512_0_1_2 : S64x1x1.BroadcastsInDim S64x512x512 (![0, 1, 2] : Fin 3 → Fin S64x512x512.rank)
  bcast_S_S512x512 : S_.BroadcastsInDim S512x512 (![] : Fin 0 → Fin S512x512.rank)
  bcast_S512x512_S64x512x512_1_2 : S512x512.BroadcastsInDim S64x512x512 (![1, 2] : Fin 2 → Fin S64x512x512.rank)
  shapeCasts_S64x512x512_S64x262144 : S64x512x512.ShapeCasts S64x262144
  bcast_S_S64x262144 : S_.BroadcastsInDim S64x262144 (![] : Fin 0 → Fin S64x262144.rank)
  reducesTo_S64x262144_S64_d1 : S64x262144.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x262144_0_1 : S64x1.BroadcastsInDim S64x262144 (![0, 1] : Fin 2 → Fin S64x262144.rank)
  transposes_S200x262144_S262144x200_1_0 : S200x262144.Transposes [1, 0] S262144x200
  bcast_S200_S1x200_1 : S200.BroadcastsInDim S1x200 (![1] : Fin 1 → Fin S1x200.rank)
  bcast_S1x200_S64x200_0_1 : S1x200.BroadcastsInDim S64x200 (![0, 1] : Fin 2 → Fin S64x200.rank)
  dot_S64x512x784_S64x512x784_S64x512x512_2_2_1_1_0_0_wf : DotDims.WF S64x512x784 S64x512x784 S64x512x512 [2] [2] [1] [1] [0] [0]
  dot_S64x512x512_S64x512x512_S64x512x512_2_1_1_2_0_0_wf : DotDims.WF S64x512x512 S64x512x512 S64x512x512 [2] [1] [1] [2] [0] [0]
  dot_S64x262144_S262144x200_S64x200_1_0_0_1_n_n_wf : DotDims.WF S64x262144 S262144x200 S64x200 [1] [0] [0] [1] [] []

variable [Facts₀]

def dot_S64x512x784_S64x512x784_S64x512x512_2_2_1_1_0_0 : DotDims S64x512x784 S64x512x784 S64x512x512 where
  lhsContracting := [2]
  rhsContracting := [2]
  lhsNonContracting := [1]
  rhsNonContracting := [1]
  lhsBatch := [0]
  rhsBatch := [0]
  wf := dot_S64x512x784_S64x512x784_S64x512x512_2_2_1_1_0_0_wf
def dot_S64x512x512_S64x512x512_S64x512x512_2_1_1_2_0_0 : DotDims S64x512x512 S64x512x512 S64x512x512 where
  lhsContracting := [2]
  rhsContracting := [1]
  lhsNonContracting := [1]
  rhsNonContracting := [2]
  lhsBatch := [0]
  rhsBatch := [0]
  wf := dot_S64x512x512_S64x512x512_S64x512x512_2_1_1_2_0_0_wf
def dot_S64x262144_S262144x200_S64x200_1_0_0_1_n_n : DotDims S64x262144 S262144x200 S64x200 where
  lhsContracting := [1]
  rhsContracting := [0]
  lhsNonContracting := [0]
  rhsNonContracting := [1]
  lhsBatch := []
  rhsBatch := []
  wf := dot_S64x262144_S262144x200_S64x200_1_0_0_1_n_n_wf

class Facts : Prop extends Facts₀ where

variable [Facts]
-- ==== Proof.KRun.lean ====
/-
  The kernel program's @main as five segments — a reshape, the pooling-and-square-root kernel over 64 batch
  blocks, a reshape, the projection kernel over a 2 × 8 grid of column tiles, and the host lines that add the two
  partial sums and the bias — run from the launch to the return, at any float instance.

  The buffer contents at each segment boundary are a fold from the launch memory: a host stretch applies its
  operations; a kernel region replaces its windows' arrays by what its write-backs leave (the proof data's
  array after the last grid point) and keeps every other buffer. The run's post names EVERY unscoped buffer at the
  last boundary's contents, so both "the arguments end unchanged" and "the result is this function of the
  arguments" are read off it.

  Stated over the two regions' proof data as PARAMETERS with the few facts the assembly needs of them (their arrays
  are the entry contents, full shares, nothing owed, the body obligation, and the region invariant entered from and
  left at the plain one), so that the bodies are proved elsewhere.
-/
import proofs.«120891_j70282844831999_2_alg».proof.Proof.Gen.Kernel.Launch
import proofs.«120891_j70282844831999_2_alg».proof.Proof.Gen.Kernel.Skeleton
import proofs.«120891_j70282844831999_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The TensorCore's buffer contents when a region is entered. -/
abbrev Entry (F : FTy → Type) [BitOps F] : Type :=
  (c : Dev nD) → (b : Ref sig .tc) → Buf (Elt F) ((c : Thread nD τ).loc b)

/-- What the assembly needs of the first region's proof data, at every entry contents. -/
structure Reg0 (dat0 : Entry F → (c : Dev nD) → Dat τ (Elt F) Unit ℕ (UR sig nD τ) ℕ cfg0 c) : Prop where
  A_eq : ∀ V c w, (dat0 V c).A w = V c (Pipeline.arrRef spec0 w)
  q_eq : ∀ V c w, (dat0 V c).q w = fullShare
  owed_eq : ∀ V c t, (dat0 V c).owed t = 0
  rec_eq : ∀ V c t, (dat0 V c).recorded t = Set.univ
  body : ∀ V c, BodyObligation (dat0 V c) (defs₀ (F := F)) Variants.none () Set.univ
  hin : ∀ V c, (Pipeline.ΦA spec0 c : sProp 𝕄) ⊢ (dat0 V c).Φ 0
  hout : ∀ V c, (dat0 V c).Φ (Fin.last cfg0.N) ⊢ (Pipeline.ΦA spec0 c : sProp 𝕄)

/-- The same of the second region's. -/
structure Reg1 (dat1 : Entry F → (c : Dev nD) → Dat τ (Elt F) Unit ℕ (UR sig nD τ) ℕ cfg1 c) : Prop where
  A_eq : ∀ V c w, (dat1 V c).A w = V c (Pipeline.arrRef spec1 w)
  q_eq : ∀ V c w, (dat1 V c).q w = fullShare
  owed_eq : ∀ V c t, (dat1 V c).owed t = 0
  rec_eq : ∀ V c t, (dat1 V c).recorded t = Set.univ
  body : ∀ V c, BodyObligation (dat1 V c) (defs₀ (F := F)) Variants.none () Set.univ
  hin : ∀ V c, (Pipeline.ΦA spec1 c : sProp 𝕄) ⊢ (dat1 V c).Φ 0
  hout : ∀ V c, (dat1 V c).Φ (Fin.last cfg1.N) ⊢ (Pipeline.ΦA spec1 c : sProp 𝕄)

variable (m : (ℓ : Loc nD τ sig) → Buf (Elt F) ℓ) (ρ : Dev nD → PrngReg)
variable (dat0 : Entry F → (c : Dev nD) → Dat τ (Elt F) Unit ℕ (UR sig nD τ) ℕ cfg0 c)
variable (dat1 : Entry F → (c : Dev nD) → Dat τ (Elt F) Unit ℕ (UR sig nD τ) ℕ cfg1 c)

/-! ## The buffer contents at each segment boundary -/

/-- Core `c`'s buffers at launch. -/
abbrev W0 : Dev nD → Valuation τ sig (Elt F) := fun c b => (s₀ m ρ).mem ((c : Dev nD), b)
/-- After the first reshape (the first region's entry). -/
abbrev W1 : Dev nD → Valuation τ sig (Elt F) := fun c => StableHlo.after hostOps0 (W0 m ρ c)
abbrev V1 : Entry F := fun c b => W1 m ρ c b
/-- At the first region's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ dat0 c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ dat0 c (Proc.devRef .tc b) = W1 m ρ c (Proc.devRef .tc b) := by
  unfold W2; exact Pipeline.withArrays_of_ne spec0 c _ _ b hb
abbrev V2 : Entry F := fun c b => W2 m ρ dat0 c b
theorem hF0 (c : Dev nD) (w : Fin cfg0.W) : (dat0 (V1 m ρ) c).arrAt w cfg0.N = V2 m ρ dat0 c (Pipeline.arrRef spec0 w) :=
  (W2_arr m ρ dat0 c w).symm
theorem hrest0 (c : Dev nD) : ∀ b, b ∉ Finset.univ.image (Pipeline.arrRef spec0) → V2 m ρ dat0 c b = V1 m ρ c b :=
  fun b hb => W2_of_ne m ρ dat0 c b fun w e => hb (Finset.mem_image.mpr ⟨w, Finset.mem_univ _, e⟩)

/-- After the second reshape (the second region's entry). -/
abbrev W3 : Dev nD → Valuation τ sig (Elt F) := fun c => StableHlo.after hostOps1 (W2 m ρ dat0 c)
abbrev V3 : Entry F := fun c b => W3 m ρ dat0 c b
/-- At the second region's exit. -/
def W4 (c : Dev nD) : Valuation τ sig (Elt F) :=
  Pipeline.withArrays spec1 c (W3 m ρ dat0 c) fun w => (dat1 (V3 m ρ dat0) c).arrAt w cfg1.N
theorem W4_arr (c : Dev nD) (w : Fin cfg1.W) :
    W4 m ρ dat0 dat1 c (Proc.devRef .tc (Pipeline.arrRef spec1 w)) = (dat1 (V3 m ρ dat0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ dat0 dat1 c (Proc.devRef .tc b) = W3 m ρ dat0 c (Proc.devRef .tc b) := by
  unfold W4; exact Pipeline.withArrays_of_ne spec1 c _ _ b hb
abbrev V4 : Entry F := fun c b => W4 m ρ dat0 dat1 c b
theorem hF1 (c : Dev nD) (w : Fin cfg1.W) : (dat1 (V3 m ρ dat0) c).arrAt w cfg1.N = V4 m ρ dat0 dat1 c (Pipeline.arrRef spec1 w) :=
  (W4_arr m ρ dat0 dat1 c w).symm
theorem hrest1 (c : Dev nD) : ∀ b, b ∉ Finset.univ.image (Pipeline.arrRef spec1) → V4 m ρ dat0 dat1 c b = V3 m ρ dat0 c b :=
  fun b hb => W4_of_ne m ρ dat0 dat1 c b fun w e => hb (Finset.mem_image.mpr ⟨w, Finset.mem_univ _, e⟩)

/-- After the closing host lines (what @main returns from). -/
abbrev W5 : Dev nD → Valuation τ sig (Elt F) := fun c => StableHlo.after hostOps2 (W4 m ρ dat0 dat1 c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ dat0) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 :=
  iprop(StableHlo.held (c : Thread nD τ) (Pipeline.ucRefs τ sig) (W5 m ρ dat0 dat1 c) ∗ ∃ r, prngReg c r)

/-! ## The regions as segments -/

variable (H0 : Reg0 dat0) (H1 : Reg1 dat1)

set_option backward.isDefEq.respectTransparency.types false in
/-- The first region over the thread state: entered from every unscoped buffer at `W1`, left at `W2`. -/
def reg0 : Pipeline.RegionSeg (pcfgs (F := F)) adm (pdats m ρ dat0 dat1) () defs₀ 𝒱₀ L lv 0 where
  win := launch0.win.to₀
  block_pos := launch0.block_pos
  stage_whole := launch0.stage_whole
  K := PEmpty
  osem k := k.elim
  ho := Pipeline.OwnSemFacts.none _
  hbody c := (H0.body (V1 m ρ) c).loose
  hwaits := Pipeline.hwaits_of_owed_zero _ _ _ _ L lv 0 fun c t => H0.owed_eq (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ dat0 c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ dat0 dat1) launch0.win launch0.arr_whole c
      ((pdats m ρ dat0 dat1 0 c).share_full fun w => H0.q_eq (V1 m ρ) c w) (V1 m ρ c) fun w => H0.A_eq (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ dat0 dat1 0 c).owed 0 = 0 from H0.owed_eq (V1 m ρ) c 0]
      icases HO with ⟨%W, HO⟩; iexists W; isplitr
      · ipureintro; exact fun x _ => Or.inl ((H0.rec_eq (V1 m ρ) c 0).symm ▸ Set.mem_univ x)
      iexact HO
    isplitl [Hp]; · iexact Hp
    iexact Hrest
  hin c := by
    rw [show (pdats m ρ dat0 dat1 0 c).Φ 0 = (dat0 (V1 m ρ) c).Φ 0 from rfl]
    iintro Hall
    iapply (H0.hin (V1 m ρ) c)
    unfold Pipeline.ΦA
    icases Hall with ⟨Hp, -, Hr⟩
    isplitl [Hr]; · iexact Hr
    iexact Hp
  hout c := by
    rw [Pipeline.ownSems0_none]
    rw [show (pdats m ρ dat0 dat1 0 c).Φ (Fin.last _) = (dat0 (V1 m ρ) c).Φ (Fin.last cfg0.N) from rfl]
    have hΦ := H0.hout (V1 m ρ) c
    iintro Hall
    ihave Hphi := hΦ $$ Hall
    unfold Pipeline.ΦA
    icases Hphi with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ dat0 dat1) ((pdats m ρ dat0 dat1 0 c).share_full fun w => H0.q_eq (V1 m ρ) c w)
      (V1 m ρ c) (V2 m ρ dat0 c) ((pdats m ρ dat0 dat1 0 c).arrAt · cfg0.N) (hF0 m ρ dat0 c) (hrest0 m ρ dat0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ dat0 dat1 0 c).owed (Fin.last _) = 0 from H0.owed_eq (V1 m ρ) c _]
    icases HO with ⟨%W, -, HO⟩; iexists W; iexact HO

set_option backward.isDefEq.respectTransparency.types false in
/-- The second region over the thread state: entered from every unscoped buffer at `W3`, left at `W4`. -/
def reg1 : Pipeline.RegionSeg (pcfgs (F := F)) adm (pdats m ρ dat0 dat1) () defs₀ 𝒱₀ L lv 1 where
  win := launch1.win.to₀
  block_pos := launch1.block_pos
  stage_whole := launch1.stage_whole
  K := PEmpty
  osem k := k.elim
  ho := Pipeline.OwnSemFacts.none _
  hbody c := (H1.body (V3 m ρ dat0) c).loose
  hwaits := Pipeline.hwaits_of_owed_zero _ _ _ _ L lv 1 fun c t => H1.owed_eq (V3 m ρ dat0) c t
  pre c := iprop(StableHlo.held (c : Thread nD τ) (Pipeline.ucRefs τ sig) (W3 m ρ dat0 c) ∗ R c)
  post c := iprop(StableHlo.held (c : Thread nD τ) (Pipeline.ucRefs τ sig) (W4 m ρ dat0 dat1 c) ∗ R c)
  X c := iprop(∃ r, prngReg c r)
  Y c := iprop(∃ r, prngReg c r)
  Z c := Pipeline.unscopedRest (Ix := Unit) (Name := ℕ) (U := UR sig nD τ) (Lvl := ℕ) spec1 c (V3 m ρ dat0 c)
  hentry c := by
    rw [Pipeline.ownSems0_none]
    have hsplit := Pipeline.arrays_of_unscopedBufs (p := 1) (pcfgs (F := F)) adm (pdats m ρ dat0 dat1) launch1.win launch1.arr_whole c
      ((pdats m ρ dat0 dat1 1 c).share_full fun w => H1.q_eq (V3 m ρ dat0) c w) (V3 m ρ dat0 c) fun w => H1.A_eq (V3 m ρ dat0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ dat0 dat1 1 c).owed 0 = 0 from H1.owed_eq (V3 m ρ dat0) c 0]
      icases HO with ⟨%W, HO⟩; iexists W; isplitr
      · ipureintro; exact fun x _ => Or.inl ((H1.rec_eq (V3 m ρ dat0) c 0).symm ▸ Set.mem_univ x)
      iexact HO
    isplitl [Hp]; · iexact Hp
    iexact Hrest
  hin c := by
    rw [show (pdats m ρ dat0 dat1 1 c).Φ 0 = (dat1 (V3 m ρ dat0) c).Φ 0 from rfl]
    iintro Hall
    iapply (H1.hin (V3 m ρ dat0) c)
    unfold Pipeline.ΦA
    icases Hall with ⟨Hp, -, Hr⟩
    isplitl [Hr]; · iexact Hr
    iexact Hp
  hout c := by
    rw [Pipeline.ownSems0_none]
    rw [show (pdats m ρ dat0 dat1 1 c).Φ (Fin.last _) = (dat1 (V3 m ρ dat0) c).Φ (Fin.last cfg1.N) from rfl]
    have hΦ := H1.hout (V3 m ρ dat0) c
    iintro Hall
    ihave Hphi := hΦ $$ Hall
    unfold Pipeline.ΦA
    icases Hphi with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ dat0 dat1) ((pdats m ρ dat0 dat1 1 c).share_full fun w => H1.q_eq (V3 m ρ dat0) c w)
      (V3 m ρ dat0 c) (V4 m ρ dat0 dat1 c) ((pdats m ρ dat0 dat1 1 c).arrAt · cfg1.N) (hF1 m ρ dat0 dat1 c) (hrest1 m ρ dat0 dat1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ dat0 dat1 1 c).owed (Fin.last _) = 0 from H1.owed_eq (V3 m ρ dat0) c _]
    icases HO with ⟨%W, -, HO⟩; iexists W; iexact HO

/-! ## @main as segments, and the run -/

/-- @main's five segments in order. -/
abbrev segs : List (Pipeline.Seg (pcfgs (F := F)) adm (pdats m ρ dat0 dat1) () defs₀ 𝒱₀ L lv) :=
  [ .host (hseg hostOps0 hostOps0_sub hostOps0_fresh (W0 m ρ)),
    .region (reg0 m ρ dat0 dat1 H0),
    .host (hseg hostOps1 hostOps1_sub hostOps1_fresh (W2 m ρ dat0)),
    .region (reg1 m ρ dat0 dat1 H1),
    .host (hseg hostOps2 hostOps2_sub hostOps2_fresh (W4 m ρ dat0 dat1)) ]
/-- @main IS the run of the segments. -/
theorem main_run (c : Dev nD) : main (F := F) c = Pipeline.Seg.run (segs m ρ dat0 dat1 H0 H1) := (main_chain c).trans (by chain_rfl)

include H0 H1 in
set_option backward.isDefEq.respectTransparency.types false in
/-- THE RUN: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ dat0 dat1 c b) :=
  Pipeline.θ_run_regions_kit (pcfgs (F := F)) adm (pdats m ρ dat0 dat1) () cellOf_inj emb₁ defs₀ 𝒱₀ L lv m ρ main (segs m ρ dat0 dat1 H0 H1)
    (fun c Q => by rw [main_run m ρ dat0 dat1 H0 H1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ dat0 dat1)
    (hch := ⟨fun _ => .rfl, fun _ => .rfl, fun _ => .rfl, fun _ => .rfl, fun _ => .rfl, fun c => by
      show (iprop(StableHlo.held (c : Thread nD τ) (Pipeline.ucRefs τ sig) (W5 m ρ dat0 dat1 c) ∗ R c) : sProp 𝕄)
        ⊢ iprop(Tₙ m ρ dat0 dat1 c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ dat0 dat1 c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ dat0 dat1 c) s')
      isplitl [Hh] <;> iassumption)
    (hQ := fun s h c => h c)

end Cert.Kernel.Hand

end
-- ==== Proof.KReg0.lean ====
import proofs.«120891_j70282844831999_2_alg».proof.Proof.Gen.Kernel.Launch
import proofs.«120891_j70282844831999_2_alg».proof.Proof.Gen.Kernel.Skeleton
import proofs.«120891_j70282844831999_2_alg».proof.Proof.Gen.Kernel.Points
import proofs.«120891_j70282844831999_2_alg».proof.Proof.Gen.Kernel.Loops
import Idealize.ShloMosaic.Lib.Pipeline.FrameBody
import Idealize.ShloMosaic.Lib.Pipeline.Value
import Idealize.ShloMosaic.Lib.Ring
import Idealize.ShloMosaic.Lib.Tactic

/-!
# The first region: the normalised second-moment matrix and its matrix square root

Each of the 64 grid points takes one 512 × 784 feature block x, forms the 512 × 512 second-moment matrix
A = x xᵀ / 784, divides it by its Frobenius norm, runs ten coupled Newton–Schulz trips (Y, Z) ↦ (Y T, T Z) with
T = (3 I − Z Y) / 2 from (A / ‖A‖, I), rescales Y by √‖A‖, applies the signed square root sign(y) √(|y| + ε)
entrywise and divides by the Frobenius norm of the result (floored at a small constant). The block's whole output
buffer is overwritten by that one matrix.

This module states what the body leaves in the output block as a function of the input block alone (body0), the
ten trips as a fold (trips0), the proof data of the region's pipeline over the buffer contents found when the
region is entered, and the body's obligation at every grid point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the buffer contents of each core when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not: the window is
    fetched at every point and its index never stands still. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two rectangles: each is its whole buffer -/

theorem zeros3 : (![0, 0, 0] : Fin 3 → Nat) = fun _ => 0 := funext fun a => by fin_cases a <;> rfl

abbrev rIn0 : Rect S1x512x784 := Rect.unit (s := S1x512x784) ![0, 0, 0] S1x512x784.size inb_S1x512x784_S1x512x784_0_0_0
abbrev rOut0 : Rect S1x512x512 := Rect.unit (s := S1x512x512) ![0, 0, 0] S1x512x512.size inb_S1x512x512_S1x512x512_0_0_0

/-! ## What the body computes -/

/-- The ten trips of the loop as a pure fold from the start values of the input block: the pair (Y, Z) after the
    trips (Y, Z) ↦ (Y T, T Z), T = (3 I − Z Y) / 2, from (A / ‖A‖, I). -/
def trips0 (x0 : Vec F S1x512x784 .f32) : FVec F S512x512 .f32 × FVec F S512x512 .f32 :=
  Scf.fold (n := k0_t1_loop.trips)
    (fun _ (acc : FVec F S512x512 .f32 × FVec F S512x512 .f32) => (k0_pay9 acc.1 acc.2, k0_pay10 acc.1 acc.2))
    (k0_pay5 x0, k0_pay3 (F := F))

/-- What the body leaves in the output window's staging buffer, from the input block: the signed square root of the
    rescaled Y, over its floored Frobenius norm. -/
def body0 (x0 : Vec F S1x512x784 .f32) : Vec F S1x512x512 .f32 :=
  k0_pay1 (k0_pay11 x0 (trips0 x0).1) (k0_pay12 x0 (trips0 x0).1)

theorem body0_eq (x0 : Vec F S1x512x784 .f32) :
    body0 x0 = k0_pay1 (k0_pay11 x0 (trips0 x0).1) (k0_pay12 x0 (trips0 x0).1) := rfl

/-! ## The body's triple -/

set_option maxHeartbeats 1000000 in
/-- The body on whole staging buffers, the input's at read contents x0 and the output's at anything, runs to the
    continuation holding the input's as it was and the output's at body0 x0: one whole load, the fold, one whole
    store. -/
theorem sound_kernel0 (c : Dev nD) (E : Set ℕ) (i : grid0.Coords) (arg1 : Memref sig .tc .vmem S1x512x784 .f32) (harg1 : arg1.IsWhole) (arg2 : Memref sig .tc .vmem S1x512x512 .f32) (harg2 : arg2.IsWhole)
    (x0 : Vec F S1x512x784 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (body0 x0)) -∗ K ⟨⟩))
      ⊢ wp frame (wpE (defs₀ (F := F)) Variants.none c none) E (cc0__bilinear_sqrt_kernel i arg1 harg1 arg2 harg2) K := by
  simp only [cc0__bilinear_sqrt_kernel_eq_skeleton]; unfold cc0__bilinear_sqrt_kernel_skel
  simp only [k0_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  sl_unfold_run_names
  -- the one store covers the buffer, so what is read back is its payload
  rw [View.read_writes_eq_canon _ _ _ (fun y => ⟨_, List.mem_singleton_self _,
        View.mem_set_unit_zero (S := S1x512x512) zeros3 inb_S1x512x512_S1x512x512_0_0_0 y⟩),
    View.canon_unit_zero (S := S1x512x512) zeros3 inb_S1x512x512_S1x512x512_0_0_0]
  -- the one load reads the whole input buffer
  have hld : View.readAt (Elt F) arg1.view rIn0.toLoadRect f0 = View.read (Elt F) arg1.view f0 :=
    View.ld_unit_zero (S := S1x512x784) zeros3 inb_S1x512x784_S1x512x784_0_0_0 _
  rw [hld]
  rfl

/-! ## The pipeline's proof data -/

/-- The proof data of the region's pipeline on core c: the arrays as the region finds them; after the body at point
    t the input's buffer still at its block and the output's at body0 of that block; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => body0 (iblk0 V c 0 t)
  Φ _ := Pipeline.ΦA spec0 c
  q _ := fullShare
  owed _ := 0

/-- The proof data's arrays are the contents at the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = body0 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t: the invariant, what the core owes, and the two current staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
import proofs.«120891_j70282844831999_2_alg».proof.Proof.Gen.Kernel.Launch
import proofs.«120891_j70282844831999_2_alg».proof.Proof.Gen.Kernel.Skeleton
import proofs.«120891_j70282844831999_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! The second pallas_call's region (the fully connected layer: a 64×200 accumulator over 8 blocks of the contracted axis,
per half of the batch), at the buffer contents `V` the region is entered with: per control case the body's triple on whole
memrefs, the accumulator's contents after each grid point by recursion on the point, the region invariant that carries
the accumulator from one point to the next, the proof data and the body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The body's two conditionals, in closed form over the grid -/

/-- The condition of the body's first conditional (the scratch is zeroed), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8): the first point of each row of the grid. -/
theorem hcond1_0 : ∀ t : Fin cfg1.N, cond1_0 (grid1.coords t) ↔ t.val % 8 = 0 :=
  (by decide +kernel : ∀ t : Fin grid1.N, cond1_0 (grid1.coords t) ↔ t.val % 8 = 0)
/-- The condition of the body's second conditional (the output block is stored). -/
abbrev cond1_1 (i : grid1.Coords) : Prop := k1_cond2 i = 1#1
/-- It holds at the points ≡ 7 (mod 8): the last point of each row of the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-- The zero offsets of a whole-rectangle access, as a constant function. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## The body on whole memrefs, case by case -/

set_option maxHeartbeats 1000000 in
/-- First point of a row (the scratch zeroed, then accumulated into; the output block not stored): the inputs and the
    output's buffer are handed back as found, the scratch — found at anything — holds the accumulate of the two
    input blocks onto the zero block. Each store is one whole-rectangle store, so it reads back as its payload. -/
theorem run1_Z (c : Dev nD) (i : grid1.Coords) (arg2 : Memref sig .tc .vmem S64x16384 .f32) (harg2 : arg2.IsWhole) (arg3 : Memref sig .tc .vmem S200x16384 .f32) (harg3 : arg3.IsWhole) (arg4 : Memref sig .tc .vmem S1x64x200 .f32) (harg4 : arg4.IsWhole) (arg5 : Memref sig .tc .vmem S64x200 .f32) (harg5 : arg5.IsWhole)
    (hc0 : cond1_0 i) (hc1 : ¬cond1_1 i)
    (x0 : Vec F S64x16384 .f32) (x1 : Vec F S200x16384 .f32) (xi2 : Vec F S1x64x200 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k1_pay2 x0 x1 (k1_pay1 (F := F)))) -∗ K ⟨⟩))
      ⊢ wp frame (wpE (defs₀ (F := F)) Variants.none c none) E (cc1__fc_kernel i arg2 harg2 arg3 harg3 arg4 harg4 arg5 harg5) K := by
  simp only [cc1__fc_kernel_eq_skeleton]; unfold cc1__fc_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  try sl_unfold_words
  rw [View.read_writes_eq_canon _ _ _ (fun y => ⟨_, List.mem_cons_self, View.mem_set_unit_zero hz2 inb_S64x200_S64x200_0_0 y⟩)]
  rw [View.canon_cons_unit_zero (S := S64x200) hz2]
  rw [View.readCov_unit_zero (S := S64x200) _ hz2]
  simp only [View.readAt_eq_ld, harg2.read_unread, harg3.read_unread, View.ld_unit_zero (S := S64x16384) hz2, View.ld_unit_zero (S := S200x16384) hz2]

set_option maxHeartbeats 1000000 in
/-- A middle point of a row (accumulated into; the output block not stored): as the first point's, the scratch found at
    `xs` and left at the accumulate of the two input blocks onto `xs`. -/
theorem run1_M (c : Dev nD) (i : grid1.Coords) (arg2 : Memref sig .tc .vmem S64x16384 .f32) (harg2 : arg2.IsWhole) (arg3 : Memref sig .tc .vmem S200x16384 .f32) (harg3 : arg3.IsWhole) (arg4 : Memref sig .tc .vmem S1x64x200 .f32) (harg4 : arg4.IsWhole) (arg5 : Memref sig .tc .vmem S64x200 .f32) (harg5 : arg5.IsWhole)
    (hc0 : ¬cond1_0 i) (hc1 : ¬cond1_1 i)
    (x0 : Vec F S64x16384 .f32) (x1 : Vec F S200x16384 .f32) (xi2 : Vec F S1x64x200 .f32) (xs : Vec F S64x200 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare (k1_pay2 x0 x1 xs)) -∗ K ⟨⟩))
      ⊢ wp frame (wpE (defs₀ (F := F)) Variants.none c none) E (cc1__fc_kernel i arg2 harg2 arg3 harg3 arg4 harg4 arg5 harg5) K := by
  simp only [cc1__fc_kernel_eq_skeleton]; unfold cc1__fc_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  try sl_unfold_words
  rw [View.read_writes_eq_canon _ _ _ (fun y => ⟨_, List.mem_cons_self, View.mem_set_unit_zero hz2 inb_S64x200_S64x200_0_0 y⟩)]
  rw [View.canon_cons_unit_zero (S := S64x200) hz2]
  simp only [View.readAt_eq_ld, harg2.read_unread, harg3.read_unread, harg5.read_unread, View.ld_unit_zero (S := S64x16384) hz2, View.ld_unit_zero (S := S200x16384) hz2, View.ld_unit_zero (S := S64x200) hz2]

set_option maxHeartbeats 1000000 in
/-- Last point of a row (accumulated into, then the output block stored): the scratch found at `xs` is left at the
    accumulate onto `xs`, and the output's buffer — found at anything — holds that accumulate cast to the block's shape. -/
theorem run1_L (c : Dev nD) (i : grid1.Coords) (arg2 : Memref sig .tc .vmem S64x16384 .f32) (harg2 : arg2.IsWhole) (arg3 : Memref sig .tc .vmem S200x16384 .f32) (harg3 : arg3.IsWhole) (arg4 : Memref sig .tc .vmem S1x64x200 .f32) (harg4 : arg4.IsWhole) (arg5 : Memref sig .tc .vmem S64x200 .f32) (harg5 : arg5.IsWhole)
    (hc0 : ¬cond1_0 i) (hc1 : cond1_1 i)
    (x0 : Vec F S64x16384 .f32) (x1 : Vec F S200x16384 .f32) (xs : Vec F S64x200 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay3 (k1_pay2 x0 x1 xs)) ∗ owns (c : Thread nD τ) arg5 fullShare (k1_pay2 x0 x1 xs)) -∗ K ⟨⟩))
      ⊢ wp frame (wpE (defs₀ (F := F)) Variants.none c none) E (cc1__fc_kernel i arg2 harg2 arg3 harg3 arg4 harg4 arg5 harg5) K := by
  simp only [cc1__fc_kernel_eq_skeleton]; unfold cc1__fc_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    try sl_unfold_words
    rw [View.read_writes_eq_canon _ _ _ (fun y => ⟨_, List.mem_cons_self, View.mem_set_unit_zero hz3 inb_S1x64x200_S1x64x200_0_0_0 y⟩)]
    rw [View.canon_cons_unit_zero (S := S1x64x200) hz3]
    rw [View.readCov_unit_zero (S := S64x200) _ hz2]
    simp only [View.readAt_eq_ld, harg2.read_unread, harg3.read_unread, harg5.read_unread, View.ld_unit_zero (S := S64x16384) hz2, View.ld_unit_zero (S := S200x16384) hz2, View.ld_unit_zero (S := S64x200) hz2]
  iexists _; isplitr
  swap; · iexact HS0
  ipureintro
  try sl_unfold_words
  rw [View.read_writes_eq_canon _ _ _ (fun y => ⟨_, List.mem_cons_self, View.mem_set_unit_zero hz2 inb_S64x200_S64x200_0_0 y⟩)]
  rw [View.canon_cons_unit_zero (S := S64x200) hz2]
  simp only [View.readAt_eq_ld, harg2.read_unread, harg3.read_unread, harg5.read_unread, View.ld_unit_zero (S := S64x16384) hz2, View.ld_unit_zero (S := S200x16384) hz2, View.ld_unit_zero (S := S64x200) hz2]

/-! ## The windows' blocks, at the contents `V` the region is entered with -/

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the second conditional fails the output window is idle, -/
theorem idleAt1_2 : ∀ t : Fin cfg1.N, ¬cond1_1 (grid1.coords t) → cfg1.idle 2 (grid1.coords t) = true := by decide +kernel
/-- and its block is not written back there; -/
theorem noFlush1_2 : ∀ t : Fin cfg1.N, ¬cond1_1 (grid1.coords t) → (cfg1.win 2).flush t = false := by decide +kernel
/-- where it holds the window is live. -/
theorem liveAt1_2 : ∀ t : Fin cfg1.N, cond1_1 (grid1.coords t) → cfg1.idle 2 (grid1.coords t) = false := by decide +kernel

/-! ## The staging memrefs at a point, and the scratch -/

abbrev ms1_0 (t : Fin cfg1.N) : Memref sig .tc .vmem S64x16384 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S200x16384 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64x200 .f32 := win1_2.stage (cfg1.slots t 2)
abbrev hs1_2 (t : Fin cfg1.N) : (ms1_2 t).IsWhole := hstage1_2 ((cfg1.slots t 2).cast nbuf1_2)
/-- The scratch operand: a whole scoped buffer of the kernel's own, which no window stages. -/
abbrev scM1 : Memref sig .tc .vmem S64x200 .f32 := Memref.whole cc1_scratch0

/-- The class invariant with the scratch as a memref owned at some contents, beside the other scoped buffers (the first
    region's staging buffers) at anything and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1 fullShare d)) ∗ (∃ r, prngReg c r)) := by
  unfold Pipeline.ΦA; rw [scopedRest1_eq]; simp only [scM1, owns_whole]; try rfl

/-! ## The accumulation -/

/-- the scratch's contents after the body at position n: the accumulate of this point's blocks onto zero at the first point of a row of the grid, onto the previous position's contents otherwise -/
def acc1 (c : Dev nD) : (n : ℕ) → n < cfg1.N → Vec F S64x200 .f32
  | 0, h => k1_pay2 (iblk1 V c 0 ⟨0, h⟩) (iblk1 V c 1 ⟨0, h⟩) (k1_pay1 (F := F))
  | n + 1, h => if (n + 1) % 8 = 0 then k1_pay2 (iblk1 V c 0 ⟨n + 1, h⟩) (iblk1 V c 1 ⟨n + 1, h⟩) (k1_pay1 (F := F))
                else k1_pay2 (iblk1 V c 0 ⟨n + 1, h⟩) (iblk1 V c 1 ⟨n + 1, h⟩) (acc1 c n (Nat.lt_of_succ_lt h))

/-- At the first point of a row: onto zero. -/
theorem acc1_Z (c : Dev nD) (t : Fin cfg1.N) (h0 : t.val % 8 = 0) :
    acc1 V c t.val t.isLt = k1_pay2 (iblk1 V c 0 t) (iblk1 V c 1 t) (k1_pay1 (F := F)) := by
  obtain ⟨n, hn⟩ := t
  cases n with
  | zero => rfl
  | succ n => exact if_pos h0

/-- At any other point: onto what the point before left. -/
theorem acc1_S (c : Dev nD) (t : Fin cfg1.N) (h0 : ¬t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact if_neg h0

/-- The region invariant before position `n`: before the first point the class's (every scoped buffer that is no staging
    buffer at anything, the generator register at some state); afterwards the same with the scratch at what the point
    before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare (acc1 V c (n - 1) (by omega))) ∗ (∃ r, prngReg c r)) := by
  cases n with
  | zero => exact absurd rfl hz
  | succ n => rfl

/-! ## The pipeline's proof data -/

/-- The proof data of the second pipeline on core `c`: the arrays as the region finds them; after the body at point `t`
    each input's buffer at its block and the output's at the accumulation cast to the block's shape (a placeholder at
    the points where the window is idle, which nothing consults); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the closed forms of the two conditions say which of
    the three cases the point is in; the invariant hands the body the scratch at what the point before left (at anything
    at the very first point) and takes it back at this point's accumulation; the other scoped buffers, the generator
    register and the core's debts pass through untouched; where the output window is idle its buffer is handed back as
    found, and at the last point of a row it holds the accumulation cast to the block's shape. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [acc1_Z V c t h0]
    by_cases hz : t.val = 0
    · rw [PhiS1_castSucc V c t, PhiS1_zero V c _ _ hz, PhiA1_eq]
      iintro ⟨⟨⟨HR0, HR1, HR2, HR3, HS0⟩, Hg⟩, Ho, ⟨%d0, H0⟩, ⟨%d1, H1⟩, ⟨%d2, H2⟩⟩
      iapply (run1_Z c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS0]; · iexact HS0
      iintro ⟨H0, H1, H2, HS0⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          iexact HS0
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HR0, HR1, HR2, HR3, HS0⟩, Hg⟩, Ho, ⟨%d0, H0⟩, ⟨%d1, H1⟩, ⟨%d2, H2⟩⟩
      iapply (run1_Z c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS0]; · iexists _; iexact HS0
      iintro ⟨H0, H1, H2, HS0⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          iexact HS0
        iexact Hg
      isplitl [Ho]; · iexact Ho
      isplitl [H0]; · iexact H0
      isplitl [H1]; · iexact H1
      iexists _; iexact H2
  · have hz : t.val ≠ 0 := fun h => h0 (by rw [h])
    rw [acc1_S V c t h0]
    rw [PhiS1_castSucc V c t, PhiS1_pos V c _ _ hz]
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2, acc1_S V c t h0]
      iintro ⟨⟨⟨HR0, HR1, HR2, HR3, HS0⟩, Hg⟩, Ho, ⟨%d0, H0⟩, ⟨%d1, H1⟩, ⟨%d2, H2⟩⟩
      iapply (run1_L c (grid1.coords t) _ _ _ _ _ _ _ _ (fun h => h0 ((hcond1_0 t).mp h)) ((hcond1_1 t).mpr h1) (iblk1 V c 0 t) (iblk1 V c 1 t) _ Set.univ _)
      isplitl [H0]; · iexact H0
      isplitl [H1]; · iexact H1
      isplitl [H2]; · iexists _; iexact H2
      isplitl [HS0]; · iexact HS0
      iintro ⟨H0, H1, H2, HS0⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          iexact HS0
        iexact Hg
      isplitl [Ho]; · iexact Ho
      isplitl [H0]; · iexact H0
      isplitl [H1]; · iexact H1
      iexact H2
    · rw [Dat.leavesExact_idle (dat1 V c) 2 t (idleAt1_2 t (fun h => h1 ((hcond1_1 t).mp h))) (noFlush1_2 t (fun h => h1 ((hcond1_1 t).mp h)))]
      iintro ⟨⟨⟨HR0, HR1, HR2, HR3, HS0⟩, Hg⟩, Ho, ⟨%d0, H0⟩, ⟨%d1, H1⟩, ⟨%d2, H2⟩⟩
      iapply (run1_M c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS0]; · iexact HS0
      iintro ⟨H0, H1, H2, HS0⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          iexact HS0
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HS0⟩, Hg⟩
  isplitl [HR0 HR1 HR2 HR3 HS0]
  · isplitl [HR0]; · iexact HR0
    isplitl [HR1]; · iexact HR1
    isplitl [HR2]; · iexact HR2
    isplitl [HR3]; · iexact HR3
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.Kernel.Hand

end
-- ==== Proof.KFrame.lean ====
/-
  The kernel program run with the two kernels' proof data in place: the frame (every argument array ends
  as launched) and the run whose post names every unscoped buffer at the last boundary's contents.
-/
import proofs.«120891_j70282844831999_2_alg».proof.Proof.KRun
import proofs.«120891_j70282844831999_2_alg».proof.Proof.KReg0
import proofs.«120891_j70282844831999_2_alg».proof.Proof.KReg1

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

/-- The first kernel's proof data has what the assembly asks: its invariant is the plain one throughout. -/
theorem reg0_facts : Reg0 (F := F) (fun V c => dat0 V c) where
  A_eq V c w := A_eq0 V c w
  q_eq V c w := rfl
  owed_eq V c t := rfl
  rec_eq V c t := rfl
  body V c := body_obligation0 V c
  hin V c := BI.Entails.refl _
  hout V c := BI.Entails.refl _

/-- The projection kernel's proof data has what the assembly asks: its invariant carries the scratch between points,
    entered from the plain one and giving it back. -/
theorem reg1_facts : Reg1 (F := F) (fun V c => dat1 V c) where
  A_eq V c w := A_eq1 V c w
  q_eq V c w := rfl
  owed_eq V c t := rfl
  rec_eq V c t := rfl
  body V c := body_obligation1 V c
  hin V c := hin1 V c
  hout V c := hout1 V c

variable (m : (ℓ : Loc nD τ sig) → Buf (Elt F) ℓ) (ρ : Dev nD → PrngReg)

/-- The run with every unscoped buffer named. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W5 m ρ (fun V c => dat0 V c) (fun V c => dat1 V c) c b) :=
  run_all m ρ _ _ reg0_facts reg1_facts

end Cert.Kernel.Hand

end
-- ==== Proof.KTail.lean ====
/-
  The boundary contents read at the buffers that matter.

  The first reshape puts the [64, 512, 28, 28] input into main_v0 as [64, 512, 784]; the second puts the first
  kernel's [64, 512, 512] output into main_v2 as [64, 262144]; the closing host lines add the projection's two
  partial sums (rows 0 and 1 of its [2, 64, 200] output) and the bias broadcast over the 64 rows. No host line and no
  kernel writes an argument array, so each reads its launch contents at every boundary.
-/
import proofs.«120891_j70282844831999_2_alg».proof.Proof.KRun
import Idealize.ShloMosaic.Lib.StableHlo.Run
import Idealize.ShloMosaic.Lib.Pipeline.Value

set_option maxRecDepth 16384

noncomputable section

namespace Cert.Kernel.Val

open Cert.Kernel Cert.Kernel.Gen Cert.Kernel.Hand
open Idealize.ShloMosaic Idealize.ShloMosaic.TcCoe Idealize.ShloMosaic.StableHlo
open Idealize.SL Idealize.SL.Sem
open Idealize.ShloMosaic.Pipeline (Dat Cfg Window)

variable {F : FTy → Type} [BitOps F]

/-- The closing host lines as one function of the projection's output and the bias. -/
def tail (v3 : (⟨S2x64x200, .f32⟩ : BufTy).Contents (Elt F)) (bias : (⟨S200, .f32⟩ : BufTy).Contents (Elt F)) : (⟨S64x200, .f32⟩ : BufTy).Contents (Elt F) :=
  addf (addf (shapeCast S64x200 (extractStridedSlice S1x64x200 ![0, 0, 0] v3 slices_S2x64x200_S1x64x200_0_0_0) shapeCasts_S1x64x200_S64x200)
             (shapeCast S64x200 (extractStridedSlice S1x64x200 ![1, 0, 0] v3 slices_S2x64x200_S1x64x200_1_0_0) shapeCasts_S1x64x200_S64x200))
       (broadcastInDim S64x200 ![0, 1] bcast_S1x200_S64x200_0_1 (broadcastInDim S1x200 ![1] bcast_S200_S1x200_1 bias))

variable (m : (ℓ : Loc nD τ sig) → Buf (Elt F) ℓ) (ρ : Dev nD → PrngReg)
variable (dat0 : Entry F → (c : Dev nD) → Dat τ (Elt F) Unit ℕ (UR sig nD τ) ℕ cfg0 c)
variable (dat1 : Entry F → (c : Dev nD) → Dat τ (Elt F) Unit ℕ (UR sig nD τ) ℕ cfg1 c)

/-- The result buffer at the return: the closing lines of the projection's output and the bias as the projection left them. -/
theorem W5_result (c : Dev nD) :
    W5 m ρ dat0 dat1 c (Proc.devRef .tc main_v11)
      = tail (W4 m ρ dat0 dat1 c (Proc.devRef .tc main_v3)) (W4 m ρ dat0 dat1 c (Proc.devRef .tc main_arg2)) := by
  show StableHlo.after hostOps2 (W4 m ρ dat0 dat1 c) (Proc.devRef .tc main_v11) = _
  after_results
  rfl

/-- The closing lines write no argument. -/
theorem W5_arg0 (c : Dev nD) : W5 m ρ dat0 dat1 c (Proc.devRef .tc main_arg0) = W4 m ρ dat0 dat1 c (Proc.devRef .tc main_arg0) := by
  show StableHlo.after hostOps2 (W4 m ρ dat0 dat1 c) (Proc.devRef .tc main_arg0) = _
  after_results
theorem W5_arg1 (c : Dev nD) : W5 m ρ dat0 dat1 c (Proc.devRef .tc main_arg1) = W4 m ρ dat0 dat1 c (Proc.devRef .tc main_arg1) := by
  show StableHlo.after hostOps2 (W4 m ρ dat0 dat1 c) (Proc.devRef .tc main_arg1) = _
  after_results
theorem W5_arg2 (c : Dev nD) : W5 m ρ dat0 dat1 c (Proc.devRef .tc main_arg2) = W4 m ρ dat0 dat1 c (Proc.devRef .tc main_arg2) := by
  show StableHlo.after hostOps2 (W4 m ρ dat0 dat1 c) (Proc.devRef .tc main_arg2) = _
  after_results

/-- The second reshape: main_v2 is the first kernel's output regrouped, the other buffers as the first kernel left them. -/
theorem W3_v2 (c : Dev nD) :
    W3 m ρ dat0 c (Proc.devRef .tc main_v2) = shapeCast S64x262144 (W2 m ρ dat0 c (Proc.devRef .tc main_v1)) shapeCasts_S64x512x512_S64x262144 := by
  show StableHlo.after hostOps1 (W2 m ρ dat0 c) (Proc.devRef .tc main_v2) = _
  after_results
  rfl
theorem W3_arg0 (c : Dev nD) : W3 m ρ dat0 c (Proc.devRef .tc main_arg0) = W2 m ρ dat0 c (Proc.devRef .tc main_arg0) := by
  show StableHlo.after hostOps1 (W2 m ρ dat0 c) (Proc.devRef .tc main_arg0) = _
  after_results
theorem W3_arg1 (c : Dev nD) : W3 m ρ dat0 c (Proc.devRef .tc main_arg1) = W2 m ρ dat0 c (Proc.devRef .tc main_arg1) := by
  show StableHlo.after hostOps1 (W2 m ρ dat0 c) (Proc.devRef .tc main_arg1) = _
  after_results
theorem W3_arg2 (c : Dev nD) : W3 m ρ dat0 c (Proc.devRef .tc main_arg2) = W2 m ρ dat0 c (Proc.devRef .tc main_arg2) := by
  show StableHlo.after hostOps1 (W2 m ρ dat0 c) (Proc.devRef .tc main_arg2) = _
  after_results

/-- The first reshape: main_v0 is the input regrouped, the arguments as launched. -/
theorem W1_v0 (c : Dev nD) :
    W1 m ρ c (Proc.devRef .tc main_v0) = shapeCast S64x512x784 (m ((c : Thread nD τ).loc main_arg0)) shapeCasts_S64x512x28x28_S64x512x784 := by
  show StableHlo.after hostOps0 (W0 m ρ c) (Proc.devRef .tc main_v0) = _
  after_results
  rfl
theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results

/-! ## The arguments through the kernels -/

/-- The first kernel's windows are main_v0 and main_v1: it changes no argument. -/
theorem W2_arg0 (c : Dev nD) : W2 m ρ dat0 c (Proc.devRef .tc main_arg0) = W1 m ρ c (Proc.devRef .tc main_arg0) :=
  W2_of_ne m ρ dat0 c main_arg0 (by decide)
theorem W2_arg1 (c : Dev nD) : W2 m ρ dat0 c (Proc.devRef .tc main_arg1) = W1 m ρ c (Proc.devRef .tc main_arg1) :=
  W2_of_ne m ρ dat0 c main_arg1 (by decide)
theorem W2_arg2 (c : Dev nD) : W2 m ρ dat0 c (Proc.devRef .tc main_arg2) = W1 m ρ c (Proc.devRef .tc main_arg2) :=
  W2_of_ne m ρ dat0 c main_arg2 (by decide)
/-- The projection's windows are main_v2, the weight argument (an input) and main_v3. -/
theorem W4_arg0 (c : Dev nD) : W4 m ρ dat0 dat1 c (Proc.devRef .tc main_arg0) = W3 m ρ dat0 c (Proc.devRef .tc main_arg0) :=
  W4_of_ne m ρ dat0 dat1 c main_arg0 (by decide)
theorem W4_arg2 (c : Dev nD) : W4 m ρ dat0 dat1 c (Proc.devRef .tc main_arg2) = W3 m ρ dat0 c (Proc.devRef .tc main_arg2) :=
  W4_of_ne m ρ dat0 dat1 c main_arg2 (by decide)
theorem W4_arg1 (hA : ∀ V c w, (dat1 V c).A w = V c (Pipeline.arrRef spec1 w)) (c : Dev nD) :
    W4 m ρ dat0 dat1 c (Proc.devRef .tc main_arg1) = W3 m ρ dat0 c (Proc.devRef .tc main_arg1) :=
  (W4_arr m ρ dat0 dat1 c 1).trans (((dat1 (V3 m ρ dat0) c).arrAt_in 1 rfl _).trans (hA (V3 m ρ dat0) c 1))

end Cert.Kernel.Val

end
-- ==== Proof.KArgs.lean ====
/-
  The frame of the kernel program: every weakly fair execution terminates, nothing faulting, and each
  argument array ends as launched — read off the run that names every unscoped buffer, each argument walked back
  through the five boundaries to the launch memory.
-/
import proofs.«120891_j70282844831999_2_alg».proof.Proof.KFrame
import proofs.«120891_j70282844831999_2_alg».proof.Proof.KTail

set_option maxRecDepth 16384

noncomputable section

namespace Cert.Kernel.Hand

open Cert.Kernel Cert.Kernel.Gen Cert.Kernel.Val
open Idealize.ShloMosaic Idealize.ShloMosaic.TcCoe
open Idealize.SL Idealize.SL.Sem
open Idealize.ShloMosaic.Pipeline (Dat)

variable {F : FTy → Type} [BitOps F]
variable (m : (ℓ : Loc nD τ sig) → Buf (Elt F) ℓ) (ρ : Dev nD → PrngReg)

theorem kept0 (c : Dev nD) : W5 m ρ (fun V c => dat0 V c) (fun V c => dat1 V c) c (Proc.devRef .tc main_arg0) = m ((c : Thread nD τ).loc main_arg0) := by
  rw [W5_arg0, W4_arg0, W3_arg0, W2_arg0, W1_arg0]
theorem kept1 (c : Dev nD) : W5 m ρ (fun V c => dat0 V c) (fun V c => dat1 V c) c (Proc.devRef .tc main_arg1) = m ((c : Thread nD τ).loc main_arg1) := by
  rw [W5_arg1, W4_arg1 m ρ _ _ (fun V c w => A_eq1 V c w), W3_arg1, W2_arg1, W1_arg1]
theorem kept2 (c : Dev nD) : W5 m ρ (fun V c => dat0 V c) (fun V c => dat1 V c) c (Proc.devRef .tc main_arg2) = m ((c : Thread nD τ).loc main_arg2) := by
  rw [W5_arg2, W4_arg2, W3_arg2, W2_arg2, W1_arg2]

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (kept0 m ρ c),
     (h c _ (mem_uc main_arg1 (by decide))).trans (kept1 m ρ c),
     (h c _ (mem_uc main_arg2 (by decide))).trans (kept2 m ρ c)⟩)
    (run_named m ρ)

end Cert.Kernel.Hand

end
-- ==== Proof.KIRun.lean ====
/-
  The idealized kernel program's @main as five segments — a reshape, the pooling-and-square-root kernel over 64 batch
  blocks, a reshape, the projection kernel over a 2 × 8 grid of column tiles, and the host lines that add the two
  partial sums and the bias — run from the launch to the return, at any float instance.

  The buffer contents at each segment boundary are a fold from the launch memory: a host stretch applies its
  operations; a kernel region replaces its windows' arrays by what its write-backs leave (the proof data's
  array after the last grid point) and keeps every other buffer. The run's post names EVERY unscoped buffer at the
  last boundary's contents, so both "the arguments end unchanged" and "the result is this function of the
  arguments" are read off it.

  Stated over the two regions' proof data as PARAMETERS with the few facts the assembly needs of them (their arrays
  are the entry contents, full shares, nothing owed, the body obligation, and the region invariant entered from and
  left at the plain one), so that the bodies are proved elsewhere.
-/
import proofs.«120891_j70282844831999_2_alg».proof.Proof.Gen.KernelIdeal.Launch
import proofs.«120891_j70282844831999_2_alg».proof.Proof.Gen.KernelIdeal.Skeleton
import proofs.«120891_j70282844831999_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents when a region is entered. -/
abbrev Entry (F : FTy → Type) [FloatOps F] : Type :=
  (c : Dev nD) → (b : Ref sig .tc) → Buf (Elt F) ((c : Thread nD τ).loc b)

/-- What the assembly needs of the first region's proof data, at every entry contents. -/
structure Reg0 (dat0 : Entry F → (c : Dev nD) → Dat τ (Elt F) Unit ℕ (UR sig nD τ) ℕ cfg0 c) : Prop where
  A_eq : ∀ V c w, (dat0 V c).A w = V c (Pipeline.arrRef spec0 w)
  q_eq : ∀ V c w, (dat0 V c).q w = fullShare
  owed_eq : ∀ V c t, (dat0 V c).owed t = 0
  rec_eq : ∀ V c t, (dat0 V c).recorded t = Set.univ
  body : ∀ V c, BodyObligation (dat0 V c) (defs₀ (F := F)) Variants.none () Set.univ
  hin : ∀ V c, (Pipeline.ΦA spec0 c : sProp 𝕄) ⊢ (dat0 V c).Φ 0
  hout : ∀ V c, (dat0 V c).Φ (Fin.last cfg0.N) ⊢ (Pipeline.ΦA spec0 c : sProp 𝕄)

/-- The same of the second region's. -/
structure Reg1 (dat1 : Entry F → (c : Dev nD) → Dat τ (Elt F) Unit ℕ (UR sig nD τ) ℕ cfg1 c) : Prop where
  A_eq : ∀ V c w, (dat1 V c).A w = V c (Pipeline.arrRef spec1 w)
  q_eq : ∀ V c w, (dat1 V c).q w = fullShare
  owed_eq : ∀ V c t, (dat1 V c).owed t = 0
  rec_eq : ∀ V c t, (dat1 V c).recorded t = Set.univ
  body : ∀ V c, BodyObligation (dat1 V c) (defs₀ (F := F)) Variants.none () Set.univ
  hin : ∀ V c, (Pipeline.ΦA spec1 c : sProp 𝕄) ⊢ (dat1 V c).Φ 0
  hout : ∀ V c, (dat1 V c).Φ (Fin.last cfg1.N) ⊢ (Pipeline.ΦA spec1 c : sProp 𝕄)

variable (m : (ℓ : Loc nD τ sig) → Buf (Elt F) ℓ) (ρ : Dev nD → PrngReg)
variable (dat0 : Entry F → (c : Dev nD) → Dat τ (Elt F) Unit ℕ (UR sig nD τ) ℕ cfg0 c)
variable (dat1 : Entry F → (c : Dev nD) → Dat τ (Elt F) Unit ℕ (UR sig nD τ) ℕ cfg1 c)

/-! ## The buffer contents at each segment boundary -/

/-- Core `c`'s buffers at launch. -/
abbrev W0 : Dev nD → Valuation τ sig (Elt F) := fun c b => (s₀ m ρ).mem ((c : Dev nD), b)
/-- After the first reshape (the first region's entry). -/
abbrev W1 : Dev nD → Valuation τ sig (Elt F) := fun c => StableHlo.after hostOps0 (W0 m ρ c)
abbrev V1 : Entry F := fun c b => W1 m ρ c b
/-- At the first region's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ dat0 c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ dat0 c (Proc.devRef .tc b) = W1 m ρ c (Proc.devRef .tc b) := by
  unfold W2; exact Pipeline.withArrays_of_ne spec0 c _ _ b hb
abbrev V2 : Entry F := fun c b => W2 m ρ dat0 c b
theorem hF0 (c : Dev nD) (w : Fin cfg0.W) : (dat0 (V1 m ρ) c).arrAt w cfg0.N = V2 m ρ dat0 c (Pipeline.arrRef spec0 w) :=
  (W2_arr m ρ dat0 c w).symm
theorem hrest0 (c : Dev nD) : ∀ b, b ∉ Finset.univ.image (Pipeline.arrRef spec0) → V2 m ρ dat0 c b = V1 m ρ c b :=
  fun b hb => W2_of_ne m ρ dat0 c b fun w e => hb (Finset.mem_image.mpr ⟨w, Finset.mem_univ _, e⟩)

/-- After the second reshape (the second region's entry). -/
abbrev W3 : Dev nD → Valuation τ sig (Elt F) := fun c => StableHlo.after hostOps1 (W2 m ρ dat0 c)
abbrev V3 : Entry F := fun c b => W3 m ρ dat0 c b
/-- At the second region's exit. -/
def W4 (c : Dev nD) : Valuation τ sig (Elt F) :=
  Pipeline.withArrays spec1 c (W3 m ρ dat0 c) fun w => (dat1 (V3 m ρ dat0) c).arrAt w cfg1.N
theorem W4_arr (c : Dev nD) (w : Fin cfg1.W) :
    W4 m ρ dat0 dat1 c (Proc.devRef .tc (Pipeline.arrRef spec1 w)) = (dat1 (V3 m ρ dat0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ dat0 dat1 c (Proc.devRef .tc b) = W3 m ρ dat0 c (Proc.devRef .tc b) := by
  unfold W4; exact Pipeline.withArrays_of_ne spec1 c _ _ b hb
abbrev V4 : Entry F := fun c b => W4 m ρ dat0 dat1 c b
theorem hF1 (c : Dev nD) (w : Fin cfg1.W) : (dat1 (V3 m ρ dat0) c).arrAt w cfg1.N = V4 m ρ dat0 dat1 c (Pipeline.arrRef spec1 w) :=
  (W4_arr m ρ dat0 dat1 c w).symm
theorem hrest1 (c : Dev nD) : ∀ b, b ∉ Finset.univ.image (Pipeline.arrRef spec1) → V4 m ρ dat0 dat1 c b = V3 m ρ dat0 c b :=
  fun b hb => W4_of_ne m ρ dat0 dat1 c b fun w e => hb (Finset.mem_image.mpr ⟨w, Finset.mem_univ _, e⟩)

/-- After the closing host lines (what @main returns from). -/
abbrev W5 : Dev nD → Valuation τ sig (Elt F) := fun c => StableHlo.after hostOps2 (W4 m ρ dat0 dat1 c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ dat0) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 :=
  iprop(StableHlo.held (c : Thread nD τ) (Pipeline.ucRefs τ sig) (W5 m ρ dat0 dat1 c) ∗ ∃ r, prngReg c r)

/-! ## The regions as segments -/

variable (H0 : Reg0 dat0) (H1 : Reg1 dat1)

set_option backward.isDefEq.respectTransparency.types false in
/-- The first region over the thread state: entered from every unscoped buffer at `W1`, left at `W2`. -/
def reg0 : Pipeline.RegionSeg (pcfgs (F := F)) adm (pdats m ρ dat0 dat1) () defs₀ 𝒱₀ L lv 0 where
  win := launch0.win.to₀
  block_pos := launch0.block_pos
  stage_whole := launch0.stage_whole
  K := PEmpty
  osem k := k.elim
  ho := Pipeline.OwnSemFacts.none _
  hbody c := (H0.body (V1 m ρ) c).loose
  hwaits := Pipeline.hwaits_of_owed_zero _ _ _ _ L lv 0 fun c t => H0.owed_eq (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ dat0 c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ dat0 dat1) launch0.win launch0.arr_whole c
      ((pdats m ρ dat0 dat1 0 c).share_full fun w => H0.q_eq (V1 m ρ) c w) (V1 m ρ c) fun w => H0.A_eq (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ dat0 dat1 0 c).owed 0 = 0 from H0.owed_eq (V1 m ρ) c 0]
      icases HO with ⟨%W, HO⟩; iexists W; isplitr
      · ipureintro; exact fun x _ => Or.inl ((H0.rec_eq (V1 m ρ) c 0).symm ▸ Set.mem_univ x)
      iexact HO
    isplitl [Hp]; · iexact Hp
    iexact Hrest
  hin c := by
    rw [show (pdats m ρ dat0 dat1 0 c).Φ 0 = (dat0 (V1 m ρ) c).Φ 0 from rfl]
    iintro Hall
    iapply (H0.hin (V1 m ρ) c)
    unfold Pipeline.ΦA
    icases Hall with ⟨Hp, -, Hr⟩
    isplitl [Hr]; · iexact Hr
    iexact Hp
  hout c := by
    rw [Pipeline.ownSems0_none]
    rw [show (pdats m ρ dat0 dat1 0 c).Φ (Fin.last _) = (dat0 (V1 m ρ) c).Φ (Fin.last cfg0.N) from rfl]
    have hΦ := H0.hout (V1 m ρ) c
    iintro Hall
    ihave Hphi := hΦ $$ Hall
    unfold Pipeline.ΦA
    icases Hphi with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ dat0 dat1) ((pdats m ρ dat0 dat1 0 c).share_full fun w => H0.q_eq (V1 m ρ) c w)
      (V1 m ρ c) (V2 m ρ dat0 c) ((pdats m ρ dat0 dat1 0 c).arrAt · cfg0.N) (hF0 m ρ dat0 c) (hrest0 m ρ dat0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ dat0 dat1 0 c).owed (Fin.last _) = 0 from H0.owed_eq (V1 m ρ) c _]
    icases HO with ⟨%W, -, HO⟩; iexists W; iexact HO

set_option backward.isDefEq.respectTransparency.types false in
/-- The second region over the thread state: entered from every unscoped buffer at `W3`, left at `W4`. -/
def reg1 : Pipeline.RegionSeg (pcfgs (F := F)) adm (pdats m ρ dat0 dat1) () defs₀ 𝒱₀ L lv 1 where
  win := launch1.win.to₀
  block_pos := launch1.block_pos
  stage_whole := launch1.stage_whole
  K := PEmpty
  osem k := k.elim
  ho := Pipeline.OwnSemFacts.none _
  hbody c := (H1.body (V3 m ρ dat0) c).loose
  hwaits := Pipeline.hwaits_of_owed_zero _ _ _ _ L lv 1 fun c t => H1.owed_eq (V3 m ρ dat0) c t
  pre c := iprop(StableHlo.held (c : Thread nD τ) (Pipeline.ucRefs τ sig) (W3 m ρ dat0 c) ∗ R c)
  post c := iprop(StableHlo.held (c : Thread nD τ) (Pipeline.ucRefs τ sig) (W4 m ρ dat0 dat1 c) ∗ R c)
  X c := iprop(∃ r, prngReg c r)
  Y c := iprop(∃ r, prngReg c r)
  Z c := Pipeline.unscopedRest (Ix := Unit) (Name := ℕ) (U := UR sig nD τ) (Lvl := ℕ) spec1 c (V3 m ρ dat0 c)
  hentry c := by
    rw [Pipeline.ownSems0_none]
    have hsplit := Pipeline.arrays_of_unscopedBufs (p := 1) (pcfgs (F := F)) adm (pdats m ρ dat0 dat1) launch1.win launch1.arr_whole c
      ((pdats m ρ dat0 dat1 1 c).share_full fun w => H1.q_eq (V3 m ρ dat0) c w) (V3 m ρ dat0 c) fun w => H1.A_eq (V3 m ρ dat0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ dat0 dat1 1 c).owed 0 = 0 from H1.owed_eq (V3 m ρ dat0) c 0]
      icases HO with ⟨%W, HO⟩; iexists W; isplitr
      · ipureintro; exact fun x _ => Or.inl ((H1.rec_eq (V3 m ρ dat0) c 0).symm ▸ Set.mem_univ x)
      iexact HO
    isplitl [Hp]; · iexact Hp
    iexact Hrest
  hin c := by
    rw [show (pdats m ρ dat0 dat1 1 c).Φ 0 = (dat1 (V3 m ρ dat0) c).Φ 0 from rfl]
    iintro Hall
    iapply (H1.hin (V3 m ρ dat0) c)
    unfold Pipeline.ΦA
    icases Hall with ⟨Hp, -, Hr⟩
    isplitl [Hr]; · iexact Hr
    iexact Hp
  hout c := by
    rw [Pipeline.ownSems0_none]
    rw [show (pdats m ρ dat0 dat1 1 c).Φ (Fin.last _) = (dat1 (V3 m ρ dat0) c).Φ (Fin.last cfg1.N) from rfl]
    have hΦ := H1.hout (V3 m ρ dat0) c
    iintro Hall
    ihave Hphi := hΦ $$ Hall
    unfold Pipeline.ΦA
    icases Hphi with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ dat0 dat1) ((pdats m ρ dat0 dat1 1 c).share_full fun w => H1.q_eq (V3 m ρ dat0) c w)
      (V3 m ρ dat0 c) (V4 m ρ dat0 dat1 c) ((pdats m ρ dat0 dat1 1 c).arrAt · cfg1.N) (hF1 m ρ dat0 dat1 c) (hrest1 m ρ dat0 dat1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ dat0 dat1 1 c).owed (Fin.last _) = 0 from H1.owed_eq (V3 m ρ dat0) c _]
    icases HO with ⟨%W, -, HO⟩; iexists W; iexact HO

/-! ## @main as segments, and the run -/

/-- @main's five segments in order. -/
abbrev segs : List (Pipeline.Seg (pcfgs (F := F)) adm (pdats m ρ dat0 dat1) () defs₀ 𝒱₀ L lv) :=
  [ .host (hseg hostOps0 hostOps0_sub hostOps0_fresh (W0 m ρ)),
    .region (reg0 m ρ dat0 dat1 H0),
    .host (hseg hostOps1 hostOps1_sub hostOps1_fresh (W2 m ρ dat0)),
    .region (reg1 m ρ dat0 dat1 H1),
    .host (hseg hostOps2 hostOps2_sub hostOps2_fresh (W4 m ρ dat0 dat1)) ]
/-- @main IS the run of the segments. -/
theorem main_run (c : Dev nD) : main (F := F) c = Pipeline.Seg.run (segs m ρ dat0 dat1 H0 H1) := (main_chain c).trans (by chain_rfl)

include H0 H1 in
set_option backward.isDefEq.respectTransparency.types false in
/-- THE RUN: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ dat0 dat1 c b) :=
  Pipeline.θ_run_regions_kit (pcfgs (F := F)) adm (pdats m ρ dat0 dat1) () cellOf_inj emb₁ defs₀ 𝒱₀ L lv m ρ main (segs m ρ dat0 dat1 H0 H1)
    (fun c Q => by rw [main_run m ρ dat0 dat1 H0 H1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ dat0 dat1)
    (hch := ⟨fun _ => .rfl, fun _ => .rfl, fun _ => .rfl, fun _ => .rfl, fun _ => .rfl, fun c => by
      show (iprop(StableHlo.held (c : Thread nD τ) (Pipeline.ucRefs τ sig) (W5 m ρ dat0 dat1 c) ∗ R c) : sProp 𝕄)
        ⊢ iprop(Tₙ m ρ dat0 dat1 c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ dat0 dat1 c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ dat0 dat1 c) s')
      isplitl [Hh] <;> iassumption)
    (hQ := fun s h c => h c)

end Cert.KernelIdeal.Hand

end
-- ==== Proof.KIReg0.lean ====
import proofs.«120891_j70282844831999_2_alg».proof.Proof.Gen.KernelIdeal.Launch
import proofs.«120891_j70282844831999_2_alg».proof.Proof.Gen.KernelIdeal.Skeleton
import proofs.«120891_j70282844831999_2_alg».proof.Proof.Gen.KernelIdeal.Points
import proofs.«120891_j70282844831999_2_alg».proof.Proof.Gen.KernelIdeal.Loops
import Idealize.ShloMosaic.Lib.Pipeline.FrameBody
import Idealize.ShloMosaic.Lib.Pipeline.Value
import Idealize.ShloMosaic.Lib.Ring
import Idealize.ShloMosaic.Lib.Tactic

/-!
# The first region: the normalised second-moment matrix and its matrix square root

Each of the 64 grid points takes one 512 × 784 feature block x, forms the 512 × 512 second-moment matrix
A = x xᵀ / 784, divides it by its Frobenius norm, runs ten coupled Newton–Schulz trips (Y, Z) ↦ (Y T, T Z) with
T = (3 I − Z Y) / 2 from (A / ‖A‖, I), rescales Y by √‖A‖, applies the signed square root sign(y) √(|y| + ε)
entrywise and divides by the Frobenius norm of the result (floored at a small constant). The block's whole output
buffer is overwritten by that one matrix.

This module states what the body leaves in the output block as a function of the input block alone (body0), the
ten trips as a fold (trips0), the proof data of the region's pipeline over the buffer contents found when the
region is entered, and the body's obligation at every grid point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not: the window is
    fetched at every point and its index never stands still. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two rectangles: each is its whole buffer -/

theorem zeros3 : (![0, 0, 0] : Fin 3 → Nat) = fun _ => 0 := funext fun a => by fin_cases a <;> rfl

abbrev rIn0 : Rect S1x512x784 := Rect.unit (s := S1x512x784) ![0, 0, 0] S1x512x784.size inb_S1x512x784_S1x512x784_0_0_0
abbrev rOut0 : Rect S1x512x512 := Rect.unit (s := S1x512x512) ![0, 0, 0] S1x512x512.size inb_S1x512x512_S1x512x512_0_0_0

/-! ## What the body computes -/

/-- The ten trips of the loop as a pure fold from the start values of the input block: the pair (Y, Z) after the
    trips (Y, Z) ↦ (Y T, T Z), T = (3 I − Z Y) / 2, from (A / ‖A‖, I). -/
def trips0 (x0 : Vec F S1x512x784 .f32) : FVec F S512x512 .f32 × FVec F S512x512 .f32 :=
  Scf.fold (n := k0_t1_loop.trips)
    (fun _ (acc : FVec F S512x512 .f32 × FVec F S512x512 .f32) => (k0_pay9 acc.1 acc.2, k0_pay10 acc.1 acc.2))
    (k0_pay5 x0, k0_pay3 (F := F))

/-- What the body leaves in the output window's staging buffer, from the input block: the signed square root of the
    rescaled Y, over its floored Frobenius norm. -/
def body0 (x0 : Vec F S1x512x784 .f32) : Vec F S1x512x512 .f32 :=
  k0_pay1 (k0_pay11 x0 (trips0 x0).1) (k0_pay12 x0 (trips0 x0).1) (Scalar.ofBits .f32 0x2B8CBCCC#32)

theorem body0_eq (x0 : Vec F S1x512x784 .f32) :
    body0 x0 = k0_pay1 (k0_pay11 x0 (trips0 x0).1) (k0_pay12 x0 (trips0 x0).1) (Scalar.ofBits .f32 0x2B8CBCCC#32) := rfl

/-! ## The body's triple -/

set_option maxHeartbeats 1000000 in
/-- The body on whole staging buffers, the input's at read contents x0 and the output's at anything, runs to the
    continuation holding the input's as it was and the output's at body0 x0: one whole load, the fold, one whole
    store. -/
theorem sound_kernel0 (c : Dev nD) (E : Set ℕ) (i : grid0.Coords) (arg1 : Memref sig .tc .vmem S1x512x784 .f32) (harg1 : arg1.IsWhole) (arg2 : Memref sig .tc .vmem S1x512x512 .f32) (harg2 : arg2.IsWhole)
    (x0 : Vec F S1x512x784 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (body0 x0)) -∗ K ⟨⟩))
      ⊢ wp frame (wpE (defs₀ (F := F)) Variants.none c none) E (cc0__bilinear_sqrt_kernel i arg1 harg1 arg2 harg2) K := by
  simp only [cc0__bilinear_sqrt_kernel_eq_skeleton]; unfold cc0__bilinear_sqrt_kernel_skel
  simp only [k0_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  sl_unfold_run_names
  -- the one store covers the buffer, so what is read back is its payload
  rw [View.read_writes_eq_canon _ _ _ (fun y => ⟨_, List.mem_singleton_self _,
        View.mem_set_unit_zero (S := S1x512x512) zeros3 inb_S1x512x512_S1x512x512_0_0_0 y⟩),
    View.canon_unit_zero (S := S1x512x512) zeros3 inb_S1x512x512_S1x512x512_0_0_0]
  -- the one load reads the whole input buffer
  have hld : View.readAt (Elt F) arg1.view rIn0.toLoadRect f0 = View.read (Elt F) arg1.view f0 :=
    View.ld_unit_zero (S := S1x512x784) zeros3 inb_S1x512x784_S1x512x784_0_0_0 _
  rw [hld]
  rfl

/-! ## The pipeline's proof data -/

/-- The proof data of the region's pipeline on core c: the arrays as the region finds them; after the body at point
    t the input's buffer still at its block and the output's at body0 of that block; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => body0 (iblk0 V c 0 t)
  Φ _ := Pipeline.ΦA spec0 c
  q _ := fullShare
  owed _ := 0

/-- The proof data's arrays are the contents at the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = body0 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t: the invariant, what the core owes, and the two current staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
import proofs.«120891_j70282844831999_2_alg».proof.Proof.Gen.KernelIdeal.Launch
import proofs.«120891_j70282844831999_2_alg».proof.Proof.Gen.KernelIdeal.Skeleton
import proofs.«120891_j70282844831999_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! The second pallas_call's region (the fully connected layer: a 64×200 accumulator over 8 blocks of the contracted axis,
per half of the batch), at the buffer contents `V` the region is entered with: per control case the body's triple on whole
memrefs, the accumulator's contents after each grid point by recursion on the point, the region invariant that carries
the accumulator from one point to the next, the proof data and the body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, in closed form over the grid -/

/-- The condition of the body's first conditional (the scratch is zeroed), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8): the first point of each row of the grid. -/
theorem hcond1_0 : ∀ t : Fin cfg1.N, cond1_0 (grid1.coords t) ↔ t.val % 8 = 0 :=
  (by decide +kernel : ∀ t : Fin grid1.N, cond1_0 (grid1.coords t) ↔ t.val % 8 = 0)
/-- The condition of the body's second conditional (the output block is stored). -/
abbrev cond1_1 (i : grid1.Coords) : Prop := k1_cond2 i = 1#1
/-- It holds at the points ≡ 7 (mod 8): the last point of each row of the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-- The zero offsets of a whole-rectangle access, as a constant function. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## The body on whole memrefs, case by case -/

set_option maxHeartbeats 1000000 in
/-- First point of a row (the scratch zeroed, then accumulated into; the output block not stored): the inputs and the
    output's buffer are handed back as found, the scratch — found at anything — holds the accumulate of the two
    input blocks onto the zero block. Each store is one whole-rectangle store, so it reads back as its payload. -/
theorem run1_Z (c : Dev nD) (i : grid1.Coords) (arg2 : Memref sig .tc .vmem S64x16384 .f32) (harg2 : arg2.IsWhole) (arg3 : Memref sig .tc .vmem S200x16384 .f32) (harg3 : arg3.IsWhole) (arg4 : Memref sig .tc .vmem S1x64x200 .f32) (harg4 : arg4.IsWhole) (arg5 : Memref sig .tc .vmem S64x200 .f32) (harg5 : arg5.IsWhole)
    (hc0 : cond1_0 i) (hc1 : ¬cond1_1 i)
    (x0 : Vec F S64x16384 .f32) (x1 : Vec F S200x16384 .f32) (xi2 : Vec F S1x64x200 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k1_pay2 x0 x1 (k1_pay1 (F := F)))) -∗ K ⟨⟩))
      ⊢ wp frame (wpE (defs₀ (F := F)) Variants.none c none) E (cc1__fc_kernel i arg2 harg2 arg3 harg3 arg4 harg4 arg5 harg5) K := by
  simp only [cc1__fc_kernel_eq_skeleton]; unfold cc1__fc_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  try sl_unfold_words
  rw [View.read_writes_eq_canon _ _ _ (fun y => ⟨_, List.mem_cons_self, View.mem_set_unit_zero hz2 inb_S64x200_S64x200_0_0 y⟩)]
  rw [View.canon_cons_unit_zero (S := S64x200) hz2]
  rw [View.readCov_unit_zero (S := S64x200) _ hz2]
  simp only [View.readAt_eq_ld, harg2.read_unread, harg3.read_unread, View.ld_unit_zero (S := S64x16384) hz2, View.ld_unit_zero (S := S200x16384) hz2]

set_option maxHeartbeats 1000000 in
/-- A middle point of a row (accumulated into; the output block not stored): as the first point's, the scratch found at
    `xs` and left at the accumulate of the two input blocks onto `xs`. -/
theorem run1_M (c : Dev nD) (i : grid1.Coords) (arg2 : Memref sig .tc .vmem S64x16384 .f32) (harg2 : arg2.IsWhole) (arg3 : Memref sig .tc .vmem S200x16384 .f32) (harg3 : arg3.IsWhole) (arg4 : Memref sig .tc .vmem S1x64x200 .f32) (harg4 : arg4.IsWhole) (arg5 : Memref sig .tc .vmem S64x200 .f32) (harg5 : arg5.IsWhole)
    (hc0 : ¬cond1_0 i) (hc1 : ¬cond1_1 i)
    (x0 : Vec F S64x16384 .f32) (x1 : Vec F S200x16384 .f32) (xi2 : Vec F S1x64x200 .f32) (xs : Vec F S64x200 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare (k1_pay2 x0 x1 xs)) -∗ K ⟨⟩))
      ⊢ wp frame (wpE (defs₀ (F := F)) Variants.none c none) E (cc1__fc_kernel i arg2 harg2 arg3 harg3 arg4 harg4 arg5 harg5) K := by
  simp only [cc1__fc_kernel_eq_skeleton]; unfold cc1__fc_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  try sl_unfold_words
  rw [View.read_writes_eq_canon _ _ _ (fun y => ⟨_, List.mem_cons_self, View.mem_set_unit_zero hz2 inb_S64x200_S64x200_0_0 y⟩)]
  rw [View.canon_cons_unit_zero (S := S64x200) hz2]
  simp only [View.readAt_eq_ld, harg2.read_unread, harg3.read_unread, harg5.read_unread, View.ld_unit_zero (S := S64x16384) hz2, View.ld_unit_zero (S := S200x16384) hz2, View.ld_unit_zero (S := S64x200) hz2]

set_option maxHeartbeats 1000000 in
/-- Last point of a row (accumulated into, then the output block stored): the scratch found at `xs` is left at the
    accumulate onto `xs`, and the output's buffer — found at anything — holds that accumulate cast to the block's shape. -/
theorem run1_L (c : Dev nD) (i : grid1.Coords) (arg2 : Memref sig .tc .vmem S64x16384 .f32) (harg2 : arg2.IsWhole) (arg3 : Memref sig .tc .vmem S200x16384 .f32) (harg3 : arg3.IsWhole) (arg4 : Memref sig .tc .vmem S1x64x200 .f32) (harg4 : arg4.IsWhole) (arg5 : Memref sig .tc .vmem S64x200 .f32) (harg5 : arg5.IsWhole)
    (hc0 : ¬cond1_0 i) (hc1 : cond1_1 i)
    (x0 : Vec F S64x16384 .f32) (x1 : Vec F S200x16384 .f32) (xs : Vec F S64x200 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay3 (k1_pay2 x0 x1 xs)) ∗ owns (c : Thread nD τ) arg5 fullShare (k1_pay2 x0 x1 xs)) -∗ K ⟨⟩))
      ⊢ wp frame (wpE (defs₀ (F := F)) Variants.none c none) E (cc1__fc_kernel i arg2 harg2 arg3 harg3 arg4 harg4 arg5 harg5) K := by
  simp only [cc1__fc_kernel_eq_skeleton]; unfold cc1__fc_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    try sl_unfold_words
    rw [View.read_writes_eq_canon _ _ _ (fun y => ⟨_, List.mem_cons_self, View.mem_set_unit_zero hz3 inb_S1x64x200_S1x64x200_0_0_0 y⟩)]
    rw [View.canon_cons_unit_zero (S := S1x64x200) hz3]
    rw [View.readCov_unit_zero (S := S64x200) _ hz2]
    simp only [View.readAt_eq_ld, harg2.read_unread, harg3.read_unread, harg5.read_unread, View.ld_unit_zero (S := S64x16384) hz2, View.ld_unit_zero (S := S200x16384) hz2, View.ld_unit_zero (S := S64x200) hz2]
  iexists _; isplitr
  swap; · iexact HS0
  ipureintro
  try sl_unfold_words
  rw [View.read_writes_eq_canon _ _ _ (fun y => ⟨_, List.mem_cons_self, View.mem_set_unit_zero hz2 inb_S64x200_S64x200_0_0 y⟩)]
  rw [View.canon_cons_unit_zero (S := S64x200) hz2]
  simp only [View.readAt_eq_ld, harg2.read_unread, harg3.read_unread, harg5.read_unread, View.ld_unit_zero (S := S64x16384) hz2, View.ld_unit_zero (S := S200x16384) hz2, View.ld_unit_zero (S := S64x200) hz2]

/-! ## The windows' blocks, at the contents `V` the region is entered with -/

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the second conditional fails the output window is idle, -/
theorem idleAt1_2 : ∀ t : Fin cfg1.N, ¬cond1_1 (grid1.coords t) → cfg1.idle 2 (grid1.coords t) = true := by decide +kernel
/-- and its block is not written back there; -/
theorem noFlush1_2 : ∀ t : Fin cfg1.N, ¬cond1_1 (grid1.coords t) → (cfg1.win 2).flush t = false := by decide +kernel
/-- where it holds the window is live. -/
theorem liveAt1_2 : ∀ t : Fin cfg1.N, cond1_1 (grid1.coords t) → cfg1.idle 2 (grid1.coords t) = false := by decide +kernel

/-! ## The staging memrefs at a point, and the scratch -/

abbrev ms1_0 (t : Fin cfg1.N) : Memref sig .tc .vmem S64x16384 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S200x16384 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64x200 .f32 := win1_2.stage (cfg1.slots t 2)
abbrev hs1_2 (t : Fin cfg1.N) : (ms1_2 t).IsWhole := hstage1_2 ((cfg1.slots t 2).cast nbuf1_2)
/-- The scratch operand: a whole scoped buffer of the kernel's own, which no window stages. -/
abbrev scM1 : Memref sig .tc .vmem S64x200 .f32 := Memref.whole cc1_scratch0

/-- The class invariant with the scratch as a memref owned at some contents, beside the other scoped buffers (the first
    region's staging buffers) at anything and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1 fullShare d)) ∗ (∃ r, prngReg c r)) := by
  unfold Pipeline.ΦA; rw [scopedRest1_eq]; simp only [scM1, owns_whole]; try rfl

/-! ## The accumulation -/

/-- the scratch's contents after the body at position n: the accumulate of this point's blocks onto zero at the first point of a row of the grid, onto the previous position's contents otherwise -/
def acc1 (c : Dev nD) : (n : ℕ) → n < cfg1.N → Vec F S64x200 .f32
  | 0, h => k1_pay2 (iblk1 V c 0 ⟨0, h⟩) (iblk1 V c 1 ⟨0, h⟩) (k1_pay1 (F := F))
  | n + 1, h => if (n + 1) % 8 = 0 then k1_pay2 (iblk1 V c 0 ⟨n + 1, h⟩) (iblk1 V c 1 ⟨n + 1, h⟩) (k1_pay1 (F := F))
                else k1_pay2 (iblk1 V c 0 ⟨n + 1, h⟩) (iblk1 V c 1 ⟨n + 1, h⟩) (acc1 c n (Nat.lt_of_succ_lt h))

/-- At the first point of a row: onto zero. -/
theorem acc1_Z (c : Dev nD) (t : Fin cfg1.N) (h0 : t.val % 8 = 0) :
    acc1 V c t.val t.isLt = k1_pay2 (iblk1 V c 0 t) (iblk1 V c 1 t) (k1_pay1 (F := F)) := by
  obtain ⟨n, hn⟩ := t
  cases n with
  | zero => rfl
  | succ n => exact if_pos h0

/-- At any other point: onto what the point before left. -/
theorem acc1_S (c : Dev nD) (t : Fin cfg1.N) (h0 : ¬t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact if_neg h0

/-- The region invariant before position `n`: before the first point the class's (every scoped buffer that is no staging
    buffer at anything, the generator register at some state); afterwards the same with the scratch at what the point
    before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare (acc1 V c (n - 1) (by omega))) ∗ (∃ r, prngReg c r)) := by
  cases n with
  | zero => exact absurd rfl hz
  | succ n => rfl

/-! ## The pipeline's proof data -/

/-- The proof data of the second pipeline on core `c`: the arrays as the region finds them; after the body at point `t`
    each input's buffer at its block and the output's at the accumulation cast to the block's shape (a placeholder at
    the points where the window is idle, which nothing consults); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the closed forms of the two conditions say which of
    the three cases the point is in; the invariant hands the body the scratch at what the point before left (at anything
    at the very first point) and takes it back at this point's accumulation; the other scoped buffers, the generator
    register and the core's debts pass through untouched; where the output window is idle its buffer is handed back as
    found, and at the last point of a row it holds the accumulation cast to the block's shape. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [acc1_Z V c t h0]
    by_cases hz : t.val = 0
    · rw [PhiS1_castSucc V c t, PhiS1_zero V c _ _ hz, PhiA1_eq]
      iintro ⟨⟨⟨HR0, HR1, HR2, HR3, HS0⟩, Hg⟩, Ho, ⟨%d0, H0⟩, ⟨%d1, H1⟩, ⟨%d2, H2⟩⟩
      iapply (run1_Z c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS0]; · iexact HS0
      iintro ⟨H0, H1, H2, HS0⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          iexact HS0
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HR0, HR1, HR2, HR3, HS0⟩, Hg⟩, Ho, ⟨%d0, H0⟩, ⟨%d1, H1⟩, ⟨%d2, H2⟩⟩
      iapply (run1_Z c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS0]; · iexists _; iexact HS0
      iintro ⟨H0, H1, H2, HS0⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          iexact HS0
        iexact Hg
      isplitl [Ho]; · iexact Ho
      isplitl [H0]; · iexact H0
      isplitl [H1]; · iexact H1
      iexists _; iexact H2
  · have hz : t.val ≠ 0 := fun h => h0 (by rw [h])
    rw [acc1_S V c t h0]
    rw [PhiS1_castSucc V c t, PhiS1_pos V c _ _ hz]
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2, acc1_S V c t h0]
      iintro ⟨⟨⟨HR0, HR1, HR2, HR3, HS0⟩, Hg⟩, Ho, ⟨%d0, H0⟩, ⟨%d1, H1⟩, ⟨%d2, H2⟩⟩
      iapply (run1_L c (grid1.coords t) _ _ _ _ _ _ _ _ (fun h => h0 ((hcond1_0 t).mp h)) ((hcond1_1 t).mpr h1) (iblk1 V c 0 t) (iblk1 V c 1 t) _ Set.univ _)
      isplitl [H0]; · iexact H0
      isplitl [H1]; · iexact H1
      isplitl [H2]; · iexists _; iexact H2
      isplitl [HS0]; · iexact HS0
      iintro ⟨H0, H1, H2, HS0⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          iexact HS0
        iexact Hg
      isplitl [Ho]; · iexact Ho
      isplitl [H0]; · iexact H0
      isplitl [H1]; · iexact H1
      iexact H2
    · rw [Dat.leavesExact_idle (dat1 V c) 2 t (idleAt1_2 t (fun h => h1 ((hcond1_1 t).mp h))) (noFlush1_2 t (fun h => h1 ((hcond1_1 t).mp h)))]
      iintro ⟨⟨⟨HR0, HR1, HR2, HR3, HS0⟩, Hg⟩, Ho, ⟨%d0, H0⟩, ⟨%d1, H1⟩, ⟨%d2, H2⟩⟩
      iapply (run1_M c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS0]; · iexact HS0
      iintro ⟨H0, H1, H2, HS0⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          iexact HS0
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HS0⟩, Hg⟩
  isplitl [HR0 HR1 HR2 HR3 HS0]
  · isplitl [HR0]; · iexact HR0
    isplitl [HR1]; · iexact HR1
    isplitl [HR2]; · iexact HR2
    isplitl [HR3]; · iexact HR3
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.KIFrame.lean ====
/-
  The idealized kernel program run with the two kernels' proof data in place: the frame (every argument array ends
  as launched) and the run whose post names every unscoped buffer at the last boundary's contents.
-/
import proofs.«120891_j70282844831999_2_alg».proof.Proof.KIRun
import proofs.«120891_j70282844831999_2_alg».proof.Proof.KIReg0
import proofs.«120891_j70282844831999_2_alg».proof.Proof.KIReg1

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The first kernel's proof data has what the assembly asks: its invariant is the plain one throughout. -/
theorem reg0_facts : Reg0 (F := F) (fun V c => dat0 V c) where
  A_eq V c w := A_eq0 V c w
  q_eq V c w := rfl
  owed_eq V c t := rfl
  rec_eq V c t := rfl
  body V c := body_obligation0 V c
  hin V c := BI.Entails.refl _
  hout V c := BI.Entails.refl _

/-- The projection kernel's proof data has what the assembly asks: its invariant carries the scratch between points,
    entered from the plain one and giving it back. -/
theorem reg1_facts : Reg1 (F := F) (fun V c => dat1 V c) where
  A_eq V c w := A_eq1 V c w
  q_eq V c w := rfl
  owed_eq V c t := rfl
  rec_eq V c t := rfl
  body V c := body_obligation1 V c
  hin V c := hin1 V c
  hout V c := hout1 V c

variable (m : (ℓ : Loc nD τ sig) → Buf (Elt F) ℓ) (ρ : Dev nD → PrngReg)

/-- The run with every unscoped buffer named. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W5 m ρ (fun V c => dat0 V c) (fun V c => dat1 V c) c b) :=
  run_all m ρ _ _ reg0_facts reg1_facts

end Cert.KernelIdeal.Hand

end
-- ==== Proof.KITail.lean ====
/-
  The boundary contents read at the buffers that matter.

  The first reshape puts the [64, 512, 28, 28] input into main_v0 as [64, 512, 784]; the second puts the first
  kernel's [64, 512, 512] output into main_v2 as [64, 262144]; the closing host lines add the projection's two
  partial sums (rows 0 and 1 of its [2, 64, 200] output) and the bias broadcast over the 64 rows. No host line and no
  kernel writes an argument array, so each reads its launch contents at every boundary.
-/
import proofs.«120891_j70282844831999_2_alg».proof.Proof.KIRun
import Idealize.ShloMosaic.Lib.StableHlo.Run
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.StableHlo
open Idealize.SL Idealize.SL.Sem
open Idealize.ShloMosaic.Pipeline (Dat Cfg Window)

variable {F : FTy → Type} [FloatOps F]

/-- The closing host lines as one function of the projection's output and the bias. -/
def tail (v3 : (⟨S2x64x200, .f32⟩ : BufTy).Contents (Elt F)) (bias : (⟨S200, .f32⟩ : BufTy).Contents (Elt F)) : (⟨S64x200, .f32⟩ : BufTy).Contents (Elt F) :=
  addf (addf (shapeCast S64x200 (extractStridedSlice S1x64x200 ![0, 0, 0] v3 slices_S2x64x200_S1x64x200_0_0_0) shapeCasts_S1x64x200_S64x200)
             (shapeCast S64x200 (extractStridedSlice S1x64x200 ![1, 0, 0] v3 slices_S2x64x200_S1x64x200_1_0_0) shapeCasts_S1x64x200_S64x200))
       (broadcastInDim S64x200 ![0, 1] bcast_S1x200_S64x200_0_1 (broadcastInDim S1x200 ![1] bcast_S200_S1x200_1 bias))

variable (m : (ℓ : Loc nD τ sig) → Buf (Elt F) ℓ) (ρ : Dev nD → PrngReg)
variable (dat0 : Entry F → (c : Dev nD) → Dat τ (Elt F) Unit ℕ (UR sig nD τ) ℕ cfg0 c)
variable (dat1 : Entry F → (c : Dev nD) → Dat τ (Elt F) Unit ℕ (UR sig nD τ) ℕ cfg1 c)

/-- The result buffer at the return: the closing lines of the projection's output and the bias as the projection left them. -/
theorem W5_result (c : Dev nD) :
    W5 m ρ dat0 dat1 c (Proc.devRef .tc main_v11)
      = tail (W4 m ρ dat0 dat1 c (Proc.devRef .tc main_v3)) (W4 m ρ dat0 dat1 c (Proc.devRef .tc main_arg2)) := by
  show StableHlo.after hostOps2 (W4 m ρ dat0 dat1 c) (Proc.devRef .tc main_v11) = _
  after_results
  rfl

/-- The closing lines write no argument. -/
theorem W5_arg0 (c : Dev nD) : W5 m ρ dat0 dat1 c (Proc.devRef .tc main_arg0) = W4 m ρ dat0 dat1 c (Proc.devRef .tc main_arg0) := by
  show StableHlo.after hostOps2 (W4 m ρ dat0 dat1 c) (Proc.devRef .tc main_arg0) = _
  after_results
theorem W5_arg1 (c : Dev nD) : W5 m ρ dat0 dat1 c (Proc.devRef .tc main_arg1) = W4 m ρ dat0 dat1 c (Proc.devRef .tc main_arg1) := by
  show StableHlo.after hostOps2 (W4 m ρ dat0 dat1 c) (Proc.devRef .tc main_arg1) = _
  after_results
theorem W5_arg2 (c : Dev nD) : W5 m ρ dat0 dat1 c (Proc.devRef .tc main_arg2) = W4 m ρ dat0 dat1 c (Proc.devRef .tc main_arg2) := by
  show StableHlo.after hostOps2 (W4 m ρ dat0 dat1 c) (Proc.devRef .tc main_arg2) = _
  after_results

/-- The second reshape: main_v2 is the first kernel's output regrouped, the other buffers as the first kernel left them. -/
theorem W3_v2 (c : Dev nD) :
    W3 m ρ dat0 c (Proc.devRef .tc main_v2) = shapeCast S64x262144 (W2 m ρ dat0 c (Proc.devRef .tc main_v1)) shapeCasts_S64x512x512_S64x262144 := by
  show StableHlo.after hostOps1 (W2 m ρ dat0 c) (Proc.devRef .tc main_v2) = _
  after_results
  rfl
theorem W3_arg0 (c : Dev nD) : W3 m ρ dat0 c (Proc.devRef .tc main_arg0) = W2 m ρ dat0 c (Proc.devRef .tc main_arg0) := by
  show StableHlo.after hostOps1 (W2 m ρ dat0 c) (Proc.devRef .tc main_arg0) = _
  after_results
theorem W3_arg1 (c : Dev nD) : W3 m ρ dat0 c (Proc.devRef .tc main_arg1) = W2 m ρ dat0 c (Proc.devRef .tc main_arg1) := by
  show StableHlo.after hostOps1 (W2 m ρ dat0 c) (Proc.devRef .tc main_arg1) = _
  after_results
theorem W3_arg2 (c : Dev nD) : W3 m ρ dat0 c (Proc.devRef .tc main_arg2) = W2 m ρ dat0 c (Proc.devRef .tc main_arg2) := by
  show StableHlo.after hostOps1 (W2 m ρ dat0 c) (Proc.devRef .tc main_arg2) = _
  after_results

/-- The first reshape: main_v0 is the input regrouped, the arguments as launched. -/
theorem W1_v0 (c : Dev nD) :
    W1 m ρ c (Proc.devRef .tc main_v0) = shapeCast S64x512x784 (m ((c : Thread nD τ).loc main_arg0)) shapeCasts_S64x512x28x28_S64x512x784 := by
  show StableHlo.after hostOps0 (W0 m ρ c) (Proc.devRef .tc main_v0) = _
  after_results
  rfl
theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results

/-! ## The arguments through the kernels -/

/-- The first kernel's windows are main_v0 and main_v1: it changes no argument. -/
theorem W2_arg0 (c : Dev nD) : W2 m ρ dat0 c (Proc.devRef .tc main_arg0) = W1 m ρ c (Proc.devRef .tc main_arg0) :=
  W2_of_ne m ρ dat0 c main_arg0 (by decide)
theorem W2_arg1 (c : Dev nD) : W2 m ρ dat0 c (Proc.devRef .tc main_arg1) = W1 m ρ c (Proc.devRef .tc main_arg1) :=
  W2_of_ne m ρ dat0 c main_arg1 (by decide)
theorem W2_arg2 (c : Dev nD) : W2 m ρ dat0 c (Proc.devRef .tc main_arg2) = W1 m ρ c (Proc.devRef .tc main_arg2) :=
  W2_of_ne m ρ dat0 c main_arg2 (by decide)
/-- The projection's windows are main_v2, the weight argument (an input) and main_v3. -/
theorem W4_arg0 (c : Dev nD) : W4 m ρ dat0 dat1 c (Proc.devRef .tc main_arg0) = W3 m ρ dat0 c (Proc.devRef .tc main_arg0) :=
  W4_of_ne m ρ dat0 dat1 c main_arg0 (by decide)
theorem W4_arg2 (c : Dev nD) : W4 m ρ dat0 dat1 c (Proc.devRef .tc main_arg2) = W3 m ρ dat0 c (Proc.devRef .tc main_arg2) :=
  W4_of_ne m ρ dat0 dat1 c main_arg2 (by decide)
theorem W4_arg1 (hA : ∀ V c w, (dat1 V c).A w = V c (Pipeline.arrRef spec1 w)) (c : Dev nD) :
    W4 m ρ dat0 dat1 c (Proc.devRef .tc main_arg1) = W3 m ρ dat0 c (Proc.devRef .tc main_arg1) :=
  (W4_arr m ρ dat0 dat1 c 1).trans (((dat1 (V3 m ρ dat0) c).arrAt_in 1 rfl _).trans (hA (V3 m ρ dat0) c 1))

end Cert.KernelIdeal.Val

end
-- ==== Proof.KIArgs.lean ====
/-
  The frame of the idealized kernel program: every weakly fair execution terminates, nothing faulting, and each
  argument array ends as launched — read off the run that names every unscoped buffer, each argument walked back
  through the five boundaries to the launch memory.
-/
import proofs.«120891_j70282844831999_2_alg».proof.Proof.KIFrame
import proofs.«120891_j70282844831999_2_alg».proof.Proof.KITail

set_option maxRecDepth 16384

noncomputable section

namespace Cert.KernelIdeal.Hand

open Cert.KernelIdeal Cert.KernelIdeal.Gen Cert.KernelIdeal.Val
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

theorem kept0 (c : Dev nD) : W5 m ρ (fun V c => dat0 V c) (fun V c => dat1 V c) c (Proc.devRef .tc main_arg0) = m ((c : Thread nD τ).loc main_arg0) := by
  rw [W5_arg0, W4_arg0, W3_arg0, W2_arg0, W1_arg0]
theorem kept1 (c : Dev nD) : W5 m ρ (fun V c => dat0 V c) (fun V c => dat1 V c) c (Proc.devRef .tc main_arg1) = m ((c : Thread nD τ).loc main_arg1) := by
  rw [W5_arg1, W4_arg1 m ρ _ _ (fun V c w => A_eq1 V c w), W3_arg1, W2_arg1, W1_arg1]
theorem kept2 (c : Dev nD) : W5 m ρ (fun V c => dat0 V c) (fun V c => dat1 V c) c (Proc.devRef .tc main_arg2) = m ((c : Thread nD τ).loc main_arg2) := by
  rw [W5_arg2, W4_arg2, W3_arg2, W2_arg2, W1_arg2]

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (kept0 m ρ c),
     (h c _ (mem_uc main_arg1 (by decide))).trans (kept1 m ρ c),
     (h c _ (mem_uc main_arg2 (by decide))).trans (kept2 m ρ c)⟩)
    (run_named m ρ)

end Cert.KernelIdeal.Hand

end
-- ==== Proof.KIVal0.lean ====
/-
  The first kernel's output array after its 64 grid points, as ONE function of its input array.

  Grid point t stages batch t's [1, 512, 784] block of the input and writes back batch t's [1, 512, 512] block of the
  output; the body's result depends on its input block alone. So the output array at (b, i, j) is the body's result
  for batch b's block, read at (0, i, j): every output index lies in exactly the block of the point that is its batch
  coordinate, and what that point writes back is that block of this function.

  Stated over the body's result as a function `body0` of the input block and over any proof data whose output
  window holds `body0` of the input window's block after each point.
-/
import proofs.«120891_j70282844831999_2_alg».proof.Proof.KIRun
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- Window `w`'s block of the first kernel at point `t`, read off its array as the region finds it. -/
def blk0 (V : Entry F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Batch `b`'s [1, 512, 784] block of a [64, 512, 784] array. -/
def batchBlock (X : S64x512x784.Idx → Elt F .f32) (b : Fin 64) : Vec F S1x512x784 .f32 :=
  fun y => X (ix3 b (y 1) (y 2))

/-- The output array: at (b, i, j) the body's result for batch b's block, at (0, i, j). -/
def G0 (body0 : Vec F S1x512x784 .f32 → Vec F S1x512x512 .f32) (X : S64x512x784.Idx → Elt F .f32) : S64x512x512.Idx → Elt F .f32 :=
  fun i => body0 (batchBlock X (i 0)) (ix3 (0 : Fin 1) (i 1) (i 2))

/-- The printed index maps over the grid: point t's blocks, of the input and of the output, are batch t's. -/
theorem idx_facts0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- An index of the output array is in point `t`'s block iff each coordinate is in the block's range on its axis. -/
theorem mem_blk0 (t : Fin cfg0.N) (i : S64x512x512.Idx) :
    i ∈ ((cfg0.win 1).blk t).view.set ↔ ∀ a : Fin 3, win0_1.index t a * S1x512x512.size a ≤ (i a).val ∧ (i a).val < win0_1.index t a * S1x512x512.size a + S1x512x512.size a := by
  show i ∈ ((View.whole main_v1).slice (win0_1.rect t)).set ↔ _
  rw [View.set_slice_whole, Rect.mem_set_unit]
  exact Iff.rfl

variable (V : Entry F) (c : Dev nD) (body0 : Vec F S1x512x784 .f32 → Vec F S1x512x512 .f32)
  (dat : Dat τ (Elt F) Unit ℕ (UR sig nD τ) ℕ cfg0 c)

/-- What point `t` writes back is block `t` of `G0` of the input array. -/
theorem flushed0 (hafter : ∀ t, dat.after 1 t = body0 (blk0 V c 0 t)) (t : Fin cfg0.N) :
    dat.flushed 1 t = ((cfg0.win 1).blk t).view.read (Elt F) (G0 body0 (V c main_v0)) := by
  show (cfg0.win 1).cut (grid0.coords t) (dat.after 1 t) = _
  rw [hafter]
  obtain ⟨e0, e1, e2, e3, e4, e5⟩ := idx_facts0 t
  funext j
  show body0 (blk0 V c 0 t) j = body0 (batchBlock (V c main_v0) ((((cfg0.win 1).blk t).view.emb j) 0)) (ix3 (0 : Fin 1) ((((cfg0.win 1).blk t).view.emb j) 1) ((((cfg0.win 1).blk t).view.emb j) 2))
  have hj0 : (j 0).val < 1 := (j 0).isLt
  have hb : blk0 V c 0 t = batchBlock (V c main_v0) ((((cfg0.win 1).blk t).view.emb j) 0) := by
    funext y
    show V c main_v0 (((cfg0.win 0).blk t).view.emb y) = V c main_v0 (ix3 ((((cfg0.win 1).blk t).view.emb j) 0) (y 1) (y 2))
    refine congrArg (V c main_v0) ?_
    funext a; apply Fin.ext
    have hy0 : (y 0).val < 1 := (y 0).isLt
    match a with
    | ⟨0, _⟩ => show win0_0.index t (0 : Fin 3) * 1 + 1 * (y 0).val = win0_1.index t (0 : Fin 3) * 1 + 1 * (j 0).val; omega
    | ⟨1, _⟩ => show win0_0.index t (1 : Fin 3) * 512 + 1 * (y 1).val = (y 1).val; omega
    | ⟨2, _⟩ => show win0_0.index t (2 : Fin 3) * 784 + 1 * (y 2).val = (y 2).val; omega
  have hjj : j = ix3 (0 : Fin 1) ((((cfg0.win 1).blk t).view.emb j) 1) ((((cfg0.win 1).blk t).view.emb j) 2) := by
    funext a; apply Fin.ext
    match a with
    | ⟨0, _⟩ => show (j 0).val = 0; omega
    | ⟨1, _⟩ => show (j 1).val = win0_1.index t (1 : Fin 3) * 512 + 1 * (j 1).val; omega
    | ⟨2, _⟩ => show (j 2).val = win0_1.index t (2 : Fin 3) * 512 + 1 * (j 2).val; omega
  rw [← hb]
  exact congrArg (body0 (blk0 V c 0 t)) hjj

/-- Every index of the output array is in the block of the point that is its batch coordinate. -/
theorem cover0 (i : S64x512x512.Idx) : ∃ t : Fin cfg0.N, (cfg0.win 1).flush t = true ∧ i ∈ ((cfg0.win 1).blk t).view.set := by
  have hi0 : (i 0).val < 64 := (i 0).isLt
  have hi1 : (i 1).val < 512 := (i 1).isLt
  have hi2 : (i 2).val < 512 := (i 2).isLt
  have hN : (i 0).val < cfg0.N := by rw [show cfg0.N = 64 from N_0]; exact hi0
  obtain ⟨e0, e1, e2, e3, e4, e5⟩ := idx_facts0 ⟨(i 0).val, hN⟩
  have e3' : win0_1.index ⟨(i 0).val, hN⟩ (0 : Fin 3) = (i 0).val := e3
  refine ⟨⟨(i 0).val, hN⟩, flush0_1 _, ?_⟩
  rw [mem_blk0]
  intro a
  match a with
  | ⟨0, _⟩ => show win0_1.index ⟨(i 0).val, hN⟩ (0 : Fin 3) * 1 ≤ (i 0).val ∧ (i 0).val < win0_1.index ⟨(i 0).val, hN⟩ (0 : Fin 3) * 1 + 1; omega
  | ⟨1, _⟩ => show win0_1.index ⟨(i 0).val, hN⟩ (1 : Fin 3) * 512 ≤ (i 1).val ∧ (i 1).val < win0_1.index ⟨(i 0).val, hN⟩ (1 : Fin 3) * 512 + 512; omega
  | ⟨2, _⟩ => show win0_1.index ⟨(i 0).val, hN⟩ (2 : Fin 3) * 512 ≤ (i 2).val ∧ (i 2).val < win0_1.index ⟨(i 0).val, hN⟩ (2 : Fin 3) * 512 + 512; omega

/-- THE OUTPUT ARRAY after the run of the first kernel. -/
theorem final0 (hafter : ∀ t, dat.after 1 t = body0 (blk0 V c 0 t)) :
    dat.arrAt 1 cfg0.N = G0 body0 (V c main_v0) :=
  dat.arrAt_eq_of_cover 1 (G0 body0 (V c main_v0)) (fun t _ => flushed0 V c body0 dat hafter t) cover0

end Cert.KernelIdeal.Val

end
-- ==== Proof.KIVal1.lean ====
/-
  The projection kernel's output array after its 2 × 8 grid points, as one function of the scratch accumulator.

  Grid point t = 8·c + k stages column tile t of the feature matrix ([64, 16384]) and of the weight matrix
  ([200, 16384]); the body zeroes the scratch when k = 0, adds the tile's product into it at every point, and at k = 7
  copies it into the output window's [1, 64, 200] block, which is written back there as row c of the [2, 64, 200]
  output. So the output at (c, r, o) is the scratch after position 8·c + 7, at (r, o).

  Stated over any proof data whose output window holds the cast scratch after each point.
-/
import proofs.«120891_j70282844831999_2_alg».proof.Proof.KIRun
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- Window `w`'s block of the projection kernel at point `t`, read off its array as the region finds it. -/
def blk1 (V : Entry F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch after the body at position `n`: this point's tile product added onto zero at the first point of a
    grid row, onto what the position before left otherwise. -/
def accS (V : Entry F) (c : Dev nD) : (n : ℕ) → n < cfg1.N → Vec F S64x200 .f32
  | 0, h => k1_pay2 (blk1 V c 0 ⟨0, h⟩) (blk1 V c 1 ⟨0, h⟩) k1_pay1
  | n + 1, h =>
    if (n + 1) % 8 = 0 then k1_pay2 (blk1 V c 0 ⟨n + 1, h⟩) (blk1 V c 1 ⟨n + 1, h⟩) k1_pay1
    else k1_pay2 (blk1 V c 0 ⟨n + 1, h⟩) (blk1 V c 1 ⟨n + 1, h⟩) (accS V c n (Nat.lt_of_succ_lt h))

/-- The same position named by an equal number. -/
theorem accS_congr (V : Entry F) (c : Dev nD) (u t : ℕ) (hu : u < cfg1.N) (ht : t < cfg1.N) (e : u = t) : accS V c u hu = accS V c t ht := by
  subst e; rfl

/-- The output array: at (c, r, o) the scratch after position 8·c + 7, cast to the output block, at (0, r, o). -/
def G1 (V : Entry F) (c : Dev nD) : S2x64x200.Idx → Elt F .f32 := fun i =>
  k1_pay3 (accS V c (8 * (i 0).val + 7) (by have h2 : (i 0).val < 2 := (i 0).isLt; rw [show cfg1.N = 16 from N_1]; omega)) (ix3 (0 : Fin 1) (i 1) (i 2))

/-- The printed index maps over the grid: the output's block at point t is row t / 8. -/
theorem idx_facts1 : ∀ t : Fin cfg1.N,
    win1_2.index t (0 : Fin 3) = t.val / 8 ∧ win1_2.index t (1 : Fin 3) = 0 ∧ win1_2.index t (2 : Fin 3) = 0 :=
  (by decide +kernel : ∀ t : Fin grid1.N, _)

/-- An index of the output array is in point `t`'s block iff each coordinate is in the block's range on its axis. -/
theorem mem_blk1 (t : Fin cfg1.N) (i : S2x64x200.Idx) :
    i ∈ ((cfg1.win 2).blk t).view.set ↔ ∀ a : Fin 3, win1_2.index t a * S1x64x200.size a ≤ (i a).val ∧ (i a).val < win1_2.index t a * S1x64x200.size a + S1x64x200.size a := by
  show i ∈ ((View.whole main_v3).slice (win1_2.rect t)).set ↔ _
  rw [View.set_slice_whole, Rect.mem_set_unit]
  exact Iff.rfl

variable (V : Entry F) (c : Dev nD) (dat : Dat τ (Elt F) Unit ℕ (UR sig nD τ) ℕ cfg1 c)

/-- What a flushing point `t` writes back is block `t` of `G1`. -/
theorem flushed1 (hafter : ∀ t, dat.after 2 t = k1_pay3 (accS V c t.val t.isLt)) (t : Fin cfg1.N) (hf : (cfg1.win 2).flush t = true) :
    dat.flushed 2 t = ((cfg1.win 2).blk t).view.read (Elt F) (G1 V c) := by
  show (cfg1.win 2).cut (grid1.coords t) (dat.after 2 t) = _
  rw [hafter]
  obtain ⟨e0, e1, e2⟩ := idx_facts1 t
  have ht7 : t.val % 8 = 7 := (flush1_2 t).mp hf
  funext j
  have hj0 : (j 0).val < 1 := (j 0).isLt
  have hN : 8 * ((((cfg1.win 2).blk t).view.emb j) 0).val + 7 < cfg1.N := by
    have h2 : ((((cfg1.win 2).blk t).view.emb j) 0).val < 2 := ((((cfg1.win 2).blk t).view.emb j) 0).isLt
    rw [show cfg1.N = 16 from N_1]; omega
  show k1_pay3 (accS V c t.val t.isLt) j
    = k1_pay3 (accS V c (8 * ((((cfg1.win 2).blk t).view.emb j) 0).val + 7) hN) (ix3 (0 : Fin 1) ((((cfg1.win 2).blk t).view.emb j) 1) ((((cfg1.win 2).blk t).view.emb j) 2))
  have he : 8 * ((((cfg1.win 2).blk t).view.emb j) 0).val + 7 = t.val := by
    have : ((((cfg1.win 2).blk t).view.emb j) 0).val = win1_2.index t (0 : Fin 3) * 1 + 1 * (j 0).val := rfl
    omega
  rw [accS_congr V c _ t.val hN t.isLt he]
  have hjj : j = ix3 (0 : Fin 1) ((((cfg1.win 2).blk t).view.emb j) 1) ((((cfg1.win 2).blk t).view.emb j) 2) := by
    funext a; apply Fin.ext
    match a with
    | ⟨0, _⟩ => show (j 0).val = 0; omega
    | ⟨1, _⟩ => show (j 1).val = win1_2.index t (1 : Fin 3) * 64 + 1 * (j 1).val; omega
    | ⟨2, _⟩ => show (j 2).val = win1_2.index t (2 : Fin 3) * 200 + 1 * (j 2).val; omega
  exact congrArg (k1_pay3 (accS V c t.val t.isLt)) hjj

/-- Every index of the output array is in the block of the last point of its row of the grid. -/
theorem cover1 (i : S2x64x200.Idx) : ∃ t : Fin cfg1.N, (cfg1.win 2).flush t = true ∧ i ∈ ((cfg1.win 2).blk t).view.set := by
  have hi0 : (i 0).val < 2 := (i 0).isLt
  have hi1 : (i 1).val < 64 := (i 1).isLt
  have hi2 : (i 2).val < 200 := (i 2).isLt
  have hN : 8 * (i 0).val + 7 < cfg1.N := by rw [show cfg1.N = 16 from N_1]; omega
  obtain ⟨e0, e1, e2⟩ := idx_facts1 ⟨8 * (i 0).val + 7, hN⟩
  have e0' : win1_2.index ⟨8 * (i 0).val + 7, hN⟩ (0 : Fin 3) = (8 * (i 0).val + 7) / 8 := e0
  refine ⟨⟨8 * (i 0).val + 7, hN⟩, (flush1_2 _).mpr (show (8 * (i 0).val + 7) % 8 = 7 by omega), ?_⟩
  rw [mem_blk1]
  intro a
  match a with
  | ⟨0, _⟩ => show win1_2.index ⟨8 * (i 0).val + 7, hN⟩ (0 : Fin 3) * 1 ≤ (i 0).val ∧ (i 0).val < win1_2.index ⟨8 * (i 0).val + 7, hN⟩ (0 : Fin 3) * 1 + 1; omega
  | ⟨1, _⟩ => show win1_2.index ⟨8 * (i 0).val + 7, hN⟩ (1 : Fin 3) * 64 ≤ (i 1).val ∧ (i 1).val < win1_2.index ⟨8 * (i 0).val + 7, hN⟩ (1 : Fin 3) * 64 + 64; omega
  | ⟨2, _⟩ => show win1_2.index ⟨8 * (i 0).val + 7, hN⟩ (2 : Fin 3) * 200 ≤ (i 2).val ∧ (i 2).val < win1_2.index ⟨8 * (i 0).val + 7, hN⟩ (2 : Fin 3) * 200 + 200; omega

/-- THE OUTPUT ARRAY after the run of the projection kernel. -/
theorem final1 (hafter : ∀ t, dat.after 2 t = k1_pay3 (accS V c t.val t.isLt)) :
    dat.arrAt 2 cfg1.N = G1 V c :=
  dat.arrAt_eq_of_cover 2 (G1 V c) (fun t hf => flushed1 V c dat hafter t hf) cover1

end Cert.KernelIdeal.Val

end
-- ==== Proof.KIVal1I.lean ====
/-
  The projection kernel's scratch, at the extended reals, as an explicit sum.

  One accumulate step adds to the scratch entry (r, o) the tile product Σ_k x(r, k) · w(o, k) over the tile's 16384
  columns; the zero block reads 0; the cast to the output block reads the scratch. Column tile n of the feature matrix
  and of the weight matrix holds columns n·16384 … n·16384 + 16383. So after the last point of grid row q the scratch
  entry (r, o) is 0 plus, over the row's eight tiles n = 8q … 8q + 7, the sum over the tile's columns K of
  feature(r, K) · weight(o, K).
-/
import proofs.«120891_j70282844831999_2_alg».proof.Proof.KIVal1
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open scoped BigOperators

abbrev DT := dot_S64x16384_S200x16384_S64x200_1_1_0_0_n_n

/-- A tile's product into the zero accumulator, at (r, o): the sum over the tile's columns. -/
theorem tile_mm (x : FVec Ideal S64x16384 .bf16) (w : FVec Ideal S200x16384 .bf16) (r : Fin 64) (o : Fin 200) :
    matmul DT none x w (constant S64x200 .f32 0x00000000#32) (ix2 r o) = ∑ k : Fin 16384, x (ix2 r k) * w (ix2 o k) := by
  refine (Ideal.matmul_constant_zero_apply DT none x w (ix2 r o)).trans ?_
  rw [← Equiv.sum_comp (contrEquiv1 DT 16384 rfl rfl).symm]
  refine Finset.sum_congr rfl fun k _ => ?_
  have hl : DT.lhsIdx (ix2 r o) ((contrEquiv1 DT 16384 rfl rfl).symm k) = ix2 r k := by
    funext a; apply Fin.ext
    match a with
    | ⟨0, _⟩ => rfl
    | ⟨1, _⟩ => exact (DT.lhsIdx_val_of_single (cl := ⟨1, by decide⟩) rfl (ix2 r o) _).trans (contrEquiv1_symm_val DT 16384 rfl rfl k)
  have hr : DT.rhsIdx (ix2 r o) ((contrEquiv1 DT 16384 rfl rfl).symm k) = ix2 o k := by
    funext a; apply Fin.ext
    match a with
    | ⟨0, _⟩ => rfl
    | ⟨1, _⟩ => exact (DT.rhsIdx_val_of_single (cr := ⟨1, by decide⟩) rfl (ix2 r o) _).trans (contrEquiv1_symm_val DT 16384 rfl rfl k)
  rw [hl, hr]

/-- The zero block reads 0. -/
theorem pay1_apply (i : S64x200.Idx) : k1_pay1 (F := Ideal) i = 0 := by
  unfold k1_pay1
  rw [shapeCast_self]
  show Ideal.ofBits .f32 0x00000000#32 = 0
  exact Ideal.ofBits_zero_f32

/-- One accumulate step at (r, o): the scratch entry plus the tile's product. -/
theorem pay2_apply (x : Vec Ideal S64x16384 .f32) (w : Vec Ideal S200x16384 .f32) (s : Vec Ideal S64x200 .f32) (r : Fin 64) (o : Fin 200) :
    k1_pay2 x w s (ix2 r o) = s (ix2 r o) + ∑ k : Fin 16384, x (ix2 r k) * w (ix2 o k) := by
  unfold k1_pay2
  rw [shapeCast_self, shapeCast_self]
  refine (addf_apply _ _ (ix2 r o)).trans ?_
  refine congrArg (s (ix2 r o) + ·) ?_
  refine (tile_mm _ _ r o).trans ?_
  exact Finset.sum_congr rfl fun k _ => by rw [truncf_apply, truncf_apply]

/-- The cast of the scratch to the output block reads the scratch. -/
theorem pay3_apply (s : Vec Ideal S64x200 .f32) (r : Fin 64) (o : Fin 200) :
    k1_pay3 s (ix3 (0 : Fin 1) r o) = s (ix2 r o) := by
  unfold k1_pay3
  refine (shapeCast_addUnit_apply ![64, 200] s shapeCasts_S64x200_S1x64x200 (ix3 (0 : Fin 1) r o)).trans ?_
  refine congrArg s ?_
  funext a
  match a with
  | ⟨0, _⟩ => rfl
  | ⟨1, _⟩ => rfl

/-- Column `k` of tile `n` among the 262144 columns. -/
def col (n : ℕ) (k : Fin 16384) : Fin 262144 := ⟨(n * 16384 + k.val) % 262144, Nat.mod_lt _ (by norm_num)⟩

/-- The printed index maps over the grid: the input tiles at point t are column tile t. -/
theorem idx_facts1_in : ∀ t : Fin cfg1.N,
    win1_0.index t (0 : Fin 2) = 0 ∧ win1_0.index t (1 : Fin 2) = t.val
    ∧ win1_1.index t (0 : Fin 2) = 0 ∧ win1_1.index t (1 : Fin 2) = t.val :=
  (by decide +kernel : ∀ t : Fin grid1.N, _)

variable (V : Entry Ideal) (c : Dev nD)

/-- The feature tile at point t reads the feature matrix at the tile's columns. -/
theorem blk1_0_apply (t : Fin cfg1.N) (r : Fin 64) (k : Fin 16384) :
    blk1 V c 0 t (ix2 r k) = V c main_v2 (ix2 r (col t.val k)) := by
  obtain ⟨e0, e1, e2, e3⟩ := idx_facts1_in t
  have ht : t.val < 16 := lt_of_lt_of_eq t.isLt (show cfg1.N = 16 from N_1)
  show V c main_v2 (((cfg1.win 0).blk t).view.emb (ix2 r k)) = V c main_v2 (ix2 r (col t.val k))
  refine congrArg (V c main_v2) ?_
  funext a; apply Fin.ext
  have hk : k.val < 16384 := k.isLt
  match a with
  | ⟨0, _⟩ => show win1_0.index t (0 : Fin 2) * 64 + 1 * r.val = r.val; omega
  | ⟨1, _⟩ => show win1_0.index t (1 : Fin 2) * 16384 + 1 * k.val = (t.val * 16384 + k.val) % 262144; omega

/-- The weight tile at point t reads the weight matrix at the tile's columns. -/
theorem blk1_1_apply (t : Fin cfg1.N) (o : Fin 200) (k : Fin 16384) :
    blk1 V c 1 t (ix2 o k) = V c main_arg1 (ix2 o (col t.val k)) := by
  obtain ⟨e0, e1, e2, e3⟩ := idx_facts1_in t
  have ht : t.val < 16 := lt_of_lt_of_eq t.isLt (show cfg1.N = 16 from N_1)
  show V c main_arg1 (((cfg1.win 1).blk t).view.emb (ix2 o k)) = V c main_arg1 (ix2 o (col t.val k))
  refine congrArg (V c main_arg1) ?_
  funext a; apply Fin.ext
  have hk : k.val < 16384 := k.isLt
  match a with
  | ⟨0, _⟩ => show win1_1.index t (0 : Fin 2) * 200 + 1 * o.val = o.val; omega
  | ⟨1, _⟩ => show win1_1.index t (1 : Fin 2) * 16384 + 1 * k.val = (t.val * 16384 + k.val) % 262144; omega

/-- The feature matrix and the weight matrix as the projection kernel finds them. -/
def feat : S64x262144.Idx → EReal := V c main_v2
def wgt : S200x262144.Idx → EReal := V c main_arg1

/-- Tile `n`'s addend to the scratch entry (r, o): the sum over the tile's columns of feature · weight. -/
def addend (n : ℕ) (r : Fin 64) (o : Fin 200) : EReal :=
  ∑ k : Fin 16384, feat V c (ix2 r (col n k)) * wgt V c (ix2 o (col n k))

/-- One step of the scratch at a point: what it held plus the point's addend. -/
theorem step_apply (t : Fin cfg1.N) (s : Vec Ideal S64x200 .f32) (r : Fin 64) (o : Fin 200) :
    k1_pay2 (blk1 V c 0 t) (blk1 V c 1 t) s (ix2 r o) = s (ix2 r o) + addend V c t.val r o := by
  refine (pay2_apply (blk1 V c 0 t) (blk1 V c 1 t) s r o).trans ?_
  refine congrArg (s (ix2 r o) + ·) ?_
  unfold addend feat wgt
  exact Finset.sum_congr rfl fun k _ => by rw [blk1_0_apply V c t r k, blk1_1_apply V c t o k]

/-- THE SCRATCH after the last point of grid row q: zero plus the addends of the row's eight tiles. -/
theorem accS_row (q : ℕ) (hq : q < 2) (h : 8 * q + 7 < cfg1.N) (r : Fin 64) (o : Fin 200) :
    accS V c (8 * q + 7) h (ix2 r o) = 0 + ∑ s ∈ Finset.range 8, addend V c (8 * q + s) r o := by
  have hN : cfg1.N = 16 := N_1
  -- the recursion is the fold over the row: it resets at the multiples of 8 and steps elsewhere
  have hfold := Pipeline.eq_accAt_of_mod (N := cfg1.N) (fun n hn => accS V c n hn) 8
    (fun n hn => k1_pay2 (blk1 V c 0 ⟨n, hn⟩) (blk1 V c 1 ⟨n, hn⟩) (k1_pay1 (F := Ideal)))
    (fun n hn acc => k1_pay2 (blk1 V c 0 ⟨n, hn⟩) (blk1 V c 1 ⟨n, hn⟩) acc)
    (fun n hn h0 => by
      cases n with
      | zero => rfl
      | succ n => exact (show accS V c (n + 1) hn = _ from by rw [accS]; exact if_pos h0))
    (fun n hn hne => by rw [accS]; exact if_neg hne)
    (by norm_num) (8 * q + 7) h (by omega)
  rw [hfold]
  have e1 : 8 * ((8 * q + 7) / 8) = 8 * q := by omega
  have e2 : (8 * q + 7) % 8 = 7 := by omega
  have key := Pipeline.accAt_add_apply (N := cfg1.N)
    (fun n hn => k1_pay2 (blk1 V c 0 ⟨n, hn⟩) (blk1 V c 1 ⟨n, hn⟩) (k1_pay1 (F := Ideal)))
    (fun n hn acc => k1_pay2 (blk1 V c 0 ⟨n, hn⟩) (blk1 V c 1 ⟨n, hn⟩) acc)
    (fun _ => (0 : EReal)) (fun n (i : S64x200.Idx) => addend V c n (i 0) (i 1)) (8 * q) 7
    (fun hb i => by
      obtain ⟨r', o', rfl⟩ : ∃ (r' : Fin 64) (o' : Fin 200), i = ix2 r' o' := ⟨i 0, i 1, eq_ix2 i⟩
      show k1_pay2 (blk1 V c 0 ⟨8 * q, hb⟩) (blk1 V c 1 ⟨8 * q, hb⟩) (k1_pay1 (F := Ideal)) (ix2 r' o') = 0 + addend V c (8 * q) r' o'
      rw [step_apply V c ⟨8 * q, hb⟩ (k1_pay1 (F := Ideal)) r' o', pay1_apply])
    (fun n hn acc i _ _ => by
      obtain ⟨r', o', rfl⟩ : ∃ (r' : Fin 64) (o' : Fin 200), i = ix2 r' o' := ⟨i 0, i 1, eq_ix2 i⟩
      exact step_apply V c ⟨n, hn⟩ acc r' o')
    7 (le_refl 7) (by omega) (ix2 r o)
  have same : ∀ (b j : ℕ) (hb : b + j < cfg1.N) (hb' : 8 * q + 7 < cfg1.N), b = 8 * q → j = 7 →
      Pipeline.accAt (fun n hn => k1_pay2 (blk1 V c 0 ⟨n, hn⟩) (blk1 V c 1 ⟨n, hn⟩) (k1_pay1 (F := Ideal)))
        (fun n hn acc => k1_pay2 (blk1 V c 0 ⟨n, hn⟩) (blk1 V c 1 ⟨n, hn⟩) acc) b j hb
      = Pipeline.accAt (fun n hn => k1_pay2 (blk1 V c 0 ⟨n, hn⟩) (blk1 V c 1 ⟨n, hn⟩) (k1_pay1 (F := Ideal)))
        (fun n hn acc => k1_pay2 (blk1 V c 0 ⟨n, hn⟩) (blk1 V c 1 ⟨n, hn⟩) acc) (8 * q) 7 hb' := by
    intro b j hb hb' eb ej; subst eb; subst ej; rfl
  rw [same _ _ _ (by omega) e1 e2]
  exact key

end Cert.KernelIdeal.Val

end
-- ==== Proof.KIOut.lean ====
/-
  The idealized kernel program's result, entry by entry, at the extended reals.

  Entry (r, o) of the returned [64, 200] array is the projection's two partial sums — rows 0 and 1 of its output, each
  zero plus the sum over the row's eight column tiles of the tile's products feature(r, K) · weight(o, K) — added, plus
  the bias at o. The feature matrix the projection finds is the first kernel's output regrouped as [64, 262144]: at
  (r, K) it is the first kernel's result for batch r's block of the regrouped input, at (0, K / 512, K % 512).
-/
import proofs.«120891_j70282844831999_2_alg».proof.Proof.KIFrame
import proofs.«120891_j70282844831999_2_alg».proof.Proof.KIVal0
import proofs.«120891_j70282844831999_2_alg».proof.Proof.KIVal1I
import proofs.«120891_j70282844831999_2_alg».proof.Proof.KITail

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open scoped BigOperators

/-- The closing host lines at (r, o): the two rows of the projection's output added, plus the bias. -/
theorem tail_apply (v3 : FVec Ideal S2x64x200 .f32) (b : FVec Ideal S200 .f32) (r : Fin 64) (o : Fin 200) :
    tail (F := Ideal) v3 b (ix2 r o) = (v3 (ix3 (0 : Fin 2) r o) + v3 (ix3 (1 : Fin 2) r o)) + b (ix1 o) := by
  unfold tail
  refine (addf_apply _ _ (ix2 r o)).trans ?_
  refine congrArg₂ (· + ·) ?_ ?_
  · refine (addf_apply _ _ (ix2 r o)).trans ?_
    refine congrArg₂ (· + ·) ?_ ?_
    · refine (shapeCast_dropUnit_apply ![64, 200] _ shapeCasts_S1x64x200_S64x200 (ix2 r o)).trans ?_
      refine extractStridedSlice_apply _ v3 _ _ (ix3 (0 : Fin 2) r o) ?_
      intro a
      match a with
      | ⟨0, _⟩ => rfl
      | ⟨1, _⟩ => show r.val = 0 + r.val; omega
      | ⟨2, _⟩ => show o.val = 0 + o.val; omega
    · refine (shapeCast_dropUnit_apply ![64, 200] _ shapeCasts_S1x64x200_S64x200 (ix2 r o)).trans ?_
      refine extractStridedSlice_apply _ v3 _ _ (ix3 (1 : Fin 2) r o) ?_
      intro a
      match a with
      | ⟨0, _⟩ => rfl
      | ⟨1, _⟩ => show r.val = 0 + r.val; omega
      | ⟨2, _⟩ => show o.val = 0 + o.val; omega
  · refine (broadcastInDim_apply _ bcast_S1x200_S64x200_0_1 _ (ix2 r o) (ix2 (0 : Fin 1) o) ?_).trans ?_
    · intro a
      match a with
      | ⟨0, _⟩ => rfl
      | ⟨1, _⟩ => rfl
    · refine broadcastInDim_apply _ bcast_S200_S1x200_1 b (ix2 (0 : Fin 1) o) (ix1 o) ?_
      intro a
      match a with
      | ⟨0, _⟩ => rfl

variable (m : (ℓ : Loc nD τ sig) → Buf (Elt Ideal) ℓ) (ρ : Dev nD → PrngReg)

/-- The two kernels' proof data. -/
abbrev D0 : Entry Ideal → (c : Dev nD) → Pipeline.Dat τ (Elt Ideal) Unit ℕ (UR sig nD τ) ℕ cfg0 c := fun V c => dat0 V c
abbrev D1 : Entry Ideal → (c : Dev nD) → Pipeline.Dat τ (Elt Ideal) Unit ℕ (UR sig nD τ) ℕ cfg1 c := fun V c => dat1 V c

/-- The regrouped input the first kernel finds. -/
def input3 (c : Dev nD) : S64x512x784.Idx → EReal :=
  shapeCast S64x512x784 (m ((c : Thread nD τ).loc main_arg0)) shapeCasts_S64x512x28x28_S64x512x784

/-- The feature matrix the projection finds: the first kernel's output regrouped. -/
theorem feat_eq (c : Dev nD) :
    feat (V3 m ρ D0) c = shapeCast S64x262144 (G0 (body0 (F := Ideal)) (input3 m c)) shapeCasts_S64x512x512_S64x262144 := by
  unfold feat
  show W3 m ρ D0 c (Proc.devRef .tc main_v2) = _
  rw [W3_v2]
  refine congrArg (fun x => shapeCast S64x262144 x shapeCasts_S64x512x512_S64x262144) ?_
  refine (W2_arr m ρ D0 c 1).trans ?_
  refine (final0 (V1 m ρ) c (body0 (F := Ideal)) (dat0 (V1 m ρ) c) (fun t => after0_1 (V1 m ρ) c t)).trans ?_
  refine congrArg (G0 (body0 (F := Ideal))) ?_
  show W1 m ρ c (Proc.devRef .tc main_v0) = _
  exact W1_v0 m ρ c

/-- The weight matrix the projection finds is the weight argument. -/
theorem wgt_eq (c : Dev nD) : wgt (V3 m ρ D0) c = m ((c : Thread nD τ).loc main_arg1) := by
  unfold wgt
  show W3 m ρ D0 c (Proc.devRef .tc main_arg1) = _
  rw [W3_arg1, W2_arg1, W1_arg1]

/-- The scratch recursion stated with the proof data is the one the value lemmas are stated over. -/
theorem acc1_eq_accS {F : FTy → Type} [FloatOps F] (V : Entry F) (c : Dev nD) (n : ℕ) : ∀ h : n < cfg1.N, acc1 V c n h = accS V c n h := by
  induction n with
  | zero => intro h; rfl
  | succ n ih =>
    intro h
    rw [acc1, accS]
    by_cases h0 : (n + 1) % 8 = 0
    · rw [if_pos h0, if_pos h0]; rfl
    · rw [if_neg h0, if_neg h0, ih]; rfl

/-- THE RESULT at (r, o). -/
theorem result_apply (c : Dev nD) (r : Fin 64) (o : Fin 200) :
    (W5 m ρ D0 D1 c (Proc.devRef .tc main_v11) : S64x200.Idx → EReal) (ix2 r o)
      = ((0 + ∑ s ∈ Finset.range 8, addend (V3 m ρ D0) c (8 * 0 + s) r o) + (0 + ∑ s ∈ Finset.range 8, addend (V3 m ρ D0) c (8 * 1 + s) r o))
        + (m ((c : Thread nD τ).loc main_arg2) : S200.Idx → EReal) (ix1 o) := by
  rw [W5_result]
  refine (tail_apply _ _ r o).trans ?_
  have hv3 : W4 m ρ D0 D1 c (Proc.devRef .tc main_v3) = G1 (V3 m ρ D0) c :=
    (W4_arr m ρ D0 D1 c 2).trans (final1 (V3 m ρ D0) c (dat1 (V3 m ρ D0) c) (fun t => (after1_2 (V3 m ρ D0) c t).trans (congrArg k1_pay3 (acc1_eq_accS (V3 m ρ D0) c t.val t.isLt))))
  have hb : W4 m ρ D0 D1 c (Proc.devRef .tc main_arg2) = m ((c : Thread nD τ).loc main_arg2) := by
    rw [W4_arg2, W3_arg2, W2_arg2, W1_arg2]
  rw [hv3, hb]
  have hN : cfg1.N = 16 := N_1
  have row : ∀ (q : Fin 2), G1 (V3 m ρ D0) c (ix3 q r o) = 0 + ∑ s ∈ Finset.range 8, addend (V3 m ρ D0) c (8 * q.val + s) r o := by
    intro q
    have hq : q.val < 2 := q.isLt
    show k1_pay3 (accS (V3 m ρ D0) c (8 * q.val + 7) _) (ix3 (0 : Fin 1) r o) = _
    rw [pay3_apply]
    exact accS_row (V3 m ρ D0) c q.val hq _ r o
  rw [row 0, row 1]
  rfl

end Cert.KernelIdeal.Val

end
-- ==== Proof.RefProj.lean ====
import proofs.«120891_j70282844831999_2_alg».proof.Proof.Gen.ReferenceIdeal.Run
import Idealize.ShloMosaic.Lib.ValueIdx
import Idealize.ShloMosaic.Lib.Pipeline.Value
import Idealize.ShloMosaic.PureOps.Ideal.Laws

/-! The reference's closing projection at the extended reals, read at an index: the contraction of the feature matrix
with the weight matrix over all 262144 columns, plus the bias; and the regrouping of that contraction's sum into sixteen
tiles of 16384 consecutive columns, eight tiles to each half. -/

set_option maxRecDepth 16384

noncomputable section

namespace Cert.RefProj

open Idealize.ShloMosaic Idealize.ShloMosaic.ValueIdx Cert.ReferenceIdeal
open Cert.ReferenceIdeal.Facts₀
open scoped BigOperators

/-- The projection's dimension numbers: rows × columns against columns × outputs. -/
abbrev DP := dot_S64x262144_S262144x200_S64x200_1_0_0_1_n_n

/-- the reference's closing lines as one function -/
def proj (N : FVec Ideal S64x262144 .f32) (W : FVec Ideal S200x262144 .f32) (B : FVec Ideal S200 .f32) : FVec Ideal S64x200 .f32 :=
  addf (Host.dotGeneral dot_S64x262144_S262144x200_S64x200_1_0_0_1_n_n none N (transpose S262144x200 [1, 0] W transposes_S200x262144_S262144x200_1_0)) (broadcastInDim S64x200 ![0, 1] bcast_S1x200_S64x200_0_1 (broadcastInDim S1x200 ![1] bcast_S200_S1x200_1 B))

/-- At (r, o): the sum over every column K of feature (r, K) times weight (o, K), plus the bias at o. The contraction's
    index is its one coordinate; the transposed weight at (K, o) is the weight at (o, K); the bias broadcast along the
    rows reads the bias at the column. -/
theorem proj_apply (N : FVec Ideal S64x262144 .f32) (W : FVec Ideal S200x262144 .f32) (B : FVec Ideal S200 .f32) (r : Fin 64) (o : Fin 200) :
    proj N W B (ix2 r o) = (∑ K : Fin 262144, N (ix2 r K) * W (ix2 o K)) + B (ix1 o) := by
  unfold proj
  refine (addf_apply _ _ (ix2 r o)).trans ?_
  refine congrArg₂ (· + ·) ?_ ?_
  · simp only [Host.dotGeneral]
    refine (Ideal.dotGeneral_apply DP none _ N _ (ix2 r o)).trans ?_
    rw [← Equiv.sum_comp (contrEquiv1 DP 262144 rfl rfl).symm]
    refine Finset.sum_congr rfl fun K _ => ?_
    have hl : DP.lhsIdx (ix2 r o) ((contrEquiv1 DP 262144 rfl rfl).symm K) = ix2 r K := by
      funext a; apply Fin.ext
      match a with
      | ⟨0, _⟩ => rfl
      | ⟨1, _⟩ => exact (DP.lhsIdx_val_of_single (cl := ⟨1, by decide⟩) rfl (ix2 r o) _).trans (contrEquiv1_symm_val DP 262144 rfl rfl K)
    have hr : DP.rhsIdx (ix2 r o) ((contrEquiv1 DP 262144 rfl rfl).symm K) = ix2 K o := by
      funext a; apply Fin.ext
      match a with
      | ⟨0, _⟩ => exact (DP.rhsIdx_val_of_single (cr := ⟨0, by decide⟩) rfl (ix2 r o) _).trans (contrEquiv1_symm_val DP 262144 rfl rfl K)
      | ⟨1, _⟩ => rfl
    rw [hl, hr]
    refine congrArg (N (ix2 r K) * ·) ?_
    exact transpose_apply [1, 0] W transposes_S200x262144_S262144x200_1_0 (ix2 K o) (ix2 o K)
      (fun b => by match b with | ⟨0, _⟩ => rfl | ⟨1, _⟩ => rfl)
  · refine (broadcastInDim_apply ![0, 1] bcast_S1x200_S64x200_0_1 _ (ix2 r o) (ix2 (0 : Fin 1) o)
      (fun a => by match a with | ⟨0, _⟩ => rfl | ⟨1, _⟩ => rfl)).trans ?_
    exact broadcastInDim_apply ![1] bcast_S200_S1x200_1 B (ix2 (0 : Fin 1) o) (ix1 o)
      (fun a => by match a with | ⟨0, _⟩ => rfl)

/-- column k of tile n among the 262144 columns -/
def col (n : ℕ) (k : Fin 16384) : Fin 262144 := ⟨(n * 16384 + k.val) % 262144, Nat.mod_lt _ (by norm_num)⟩

/-- The 262144 columns are sixteen tiles of 16384: a column is its tile and its place in the tile. -/
def tileEquiv : Fin 16 × Fin 16384 ≃ Fin 262144 := finProdFinEquiv.trans (finCongr (by norm_num))

theorem tileEquiv_apply (n : Fin 16) (k : Fin 16384) : tileEquiv (n, k) = col n.val k := by
  apply Fin.ext
  show k.val + 16384 * n.val = (n.val * 16384 + k.val) % 262144
  have := n.isLt; have := k.isLt; omega

/-- the sum over all 262144 columns is the sum over the first eight tiles plus the sum over the last eight, each started at 0 -/
theorem sum_tiles {β : Type*} [AddCommMonoid β] (f : Fin 262144 → β) :
    (∑ K : Fin 262144, f K) = (0 + ∑ s ∈ Finset.range 8, ∑ k : Fin 16384, f (col (8 * 0 + s) k)) + (0 + ∑ s ∈ Finset.range 8, ∑ k : Fin 16384, f (col (8 * 1 + s) k)) := by
  rw [← Equiv.sum_comp tileEquiv f, Fintype.sum_prod_type]
  simp only [tileEquiv_apply]
  rw [Fin.sum_univ_eq_sum_range (fun n => ∑ k : Fin 16384, f (col n k)) 16]
  refine (Finset.sum_range_add (fun n => ∑ k : Fin 16384, f (col n k)) 8 8).trans ?_
  simp only [zero_add, Nat.mul_zero, Nat.mul_one]

end Cert.RefProj

end
-- ==== Proof.BridgeNS1.lean ====
/-
  The products of the bilinear-pooling kernel read at an index, at the ideal values, over abstract extents:
  a matrix times the transpose of a matrix (contracting the last axis of both operands), the same product taken
  member by member over a stack, and the plain product accumulated into zero. Each is the sum over the contracted
  coordinate of the products of the entries. Also: a sum over a rank-3 index set is the triple sum over its coordinates.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.Bridge

open Idealize.ShloMosaic Idealize.ShloMosaic.ValueIdx Idealize.ShloMosaic.StackMember

/-! ## A rank-3 index set is the product of its coordinate ranges -/

/-- A rank-3 index is the triple of its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The products at an index -/

section Products
variable {G m n k : Nat} {φ₁ φ₂ : FTy}

/-- A matrix times the transpose of a matrix, on the host: X · Yᵀ at (a, b) is the sum over the shared last
    coordinate. -/
theorem dotGeneral_transposedRhs_apply (prec : Option ContractPrecision)
    (A : FVec Ideal ⟨2, ![m, k]⟩ φ₁) (B : FVec Ideal ⟨2, ![n, k]⟩ φ₂) (a : Fin m) (b : Fin n) :
    Host.dotGeneral (DotDims.transposedRhs m k n) prec A B (ix2 a b) = ∑ c : Fin k, A (ix2 a c) * B (ix2 b c) := by
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The same product as the matrix unit takes it, accumulated into zero. -/
theorem matmul_transposedRhs_apply (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  rw [matmul_zero_eq_dotGeneral]; exact dotGeneral_transposedRhs_apply prec A B a b

/-- The plain product as the matrix unit takes it, accumulated into zero. -/
theorem matmul_plain_apply (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]; exact dotGeneral_plain_apply prec A B a b

/-- A stack of matrices times the transposes of a stack of matrices, member by member — `dot_general` over [G, m, k]
    and [G, n, k] with batch axes 0 and 0 and contracting axes 2 and 2 — at (g, a, b): the sum over the shared last
    coordinate of the two members' entries. -/
theorem dotGeneral_gramStack_apply
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

end Products

end Cert.Bridge

end
-- ==== Proof.BridgeNS2.lean ====
/-
  Sums read at an index, at the ideal values, over abstract extents. On the host: the sum of each member of a stack of
  matrices over both of the member's axes, and the sum of each row of a matrix. In a kernel: the sum of a matrix taken
  as lane sums, then the sum of those down the rows, each kept as a unit axis. And a sum over a flattened pair index
  K = i·n + j is the double sum over (i, j).
-/
import Idealize.ShloMosaic.Lib.KernelVsHost
import Idealize.ShloMosaic.Lib.IdealHost
import Idealize.ShloMosaic.Lib.ValueLayout
import proofs.«120891_j70282844831999_2_alg».proof.Proof.BridgeNS1

noncomputable section

open scoped BigOperators

namespace Cert.Bridge

open Idealize.ShloMosaic Idealize.ShloMosaic.ValueIdx

/-! ## A flattened pair index -/

theorem flat_lt {m n : Nat} (i : Fin m) (j : Fin n) : i.val * n + j.val < m * n := by
  have hi := i.isLt; have hj := j.isLt
  calc i.val * n + j.val < i.val * n + n := by omega
    _ = (i.val + 1) * n := by ring
    _ ≤ m * n := Nat.mul_le_mul_right n hi

/-- A sum over the flattened index K = i·n + j of an m × n grid is the double sum over (i, j). -/
theorem sum_flat {M : Type*} [AddCommMonoid M] {m n N : Nat} (hN : m * n = N) (f : Fin N → M) :
    ∑ K : Fin N, f K = ∑ i : Fin m, ∑ j : Fin n, f ⟨i.val * n + j.val, hN ▸ flat_lt i j⟩ := by
  subst hN
  rw [← Equiv.sum_comp finProdFinEquiv f, Fintype.sum_prod_type]
  refine Finset.sum_congr rfl fun i _ => Finset.sum_congr rfl fun j _ => congrArg f (Fin.ext ?_)
  show j.val + n * i.val = i.val * n + j.val
  rw [Nat.mul_comm, Nat.add_comm]

/-! ## The host's sums -/

section Host
variable {G m n : Nat} {φ : FTy} {u : Shape}

/-- Each row's sum (a `stablehlo.reduce` with add over axis 1 of [G, n]) at g: the initial value plus the sum of row g. -/
theorem hostReduceAdd_rows_apply (X : FVec Ideal ⟨2, ![G, n]⟩ φ) (init : u.Idx → Ideal φ)
    (h' : (⟨2, ![G, n]⟩ : Shape).ReducesTo [1] ⟨1, ![G]⟩) (hu : 0 < u.numel) (g : Fin G) :
    Host.reduceAdd X init h' hu (ix1 g) = init (Shape.Idx.first hu) + ∑ c : Fin n, X (ix2 g c) := by
  have h : (⟨2, ![G, n]⟩ : Shape).Reduces [1] ⟨1, ![G]⟩ := ⟨h'.1, Nat.one_pos, h'.2⟩
  show Ideal.hostReduceAdd h' X _ (ix1 g) = _
  rw [Ideal.hostReduceAdd_single h' h]
  refine congrArg (_ + ·) (Finset.sum_congr rfl fun c _ => ?_)
  show X (h.lift (ix1 g) c) = X (ix2 g c)
  refine congrArg X (funext fun a => Fin.ext ?_)
  match a with
  | ⟨0, _⟩ => rfl
  | ⟨1, _⟩ => rfl

/-- Dropping axes 1 and 2 of a stack index (g, a, c) leaves g. -/
theorem drop12_ix3 (h' : (⟨3, ![G, m, n]⟩ : Shape).ReducesTo [1, 2] ⟨1, ![G]⟩) (g : Fin G) (a : Fin m) (c : Fin n) :
    h'.drop (ix3 g a c) = ix1 g := by
  funext d
  match d with
  | ⟨0, _⟩ => exact Fin.ext rfl

/-- Each member's total (a `stablehlo.reduce` with add over axes 1 and 2 of [G, m, n]) at g: the initial value plus
    the sum of member g over both of its axes. -/
theorem hostReduceAdd_members_apply (X : FVec Ideal ⟨3, ![G, m, n]⟩ φ) (init : u.Idx → Ideal φ)
    (h' : (⟨3, ![G, m, n]⟩ : Shape).ReducesTo [1, 2] ⟨1, ![G]⟩) (hu : 0 < u.numel) (g : Fin G) :
    Host.reduceAdd X init h' hu (ix1 g) = init (Shape.Idx.first hu) + ∑ a : Fin m, ∑ c : Fin n, X (ix3 g a c) := by
  show Ideal.hostReduceAdd h' X _ (ix1 g) = _
  unfold Ideal.hostReduceAdd
  refine congrArg (_ + ·) ?_
  rw [Finset.sum_filter, sum_idx3, Finset.sum_eq_single g]
  · refine Finset.sum_congr rfl fun a _ => Finset.sum_congr rfl fun c _ => ?_
    rw [drop12_ix3, if_pos rfl]
  · intro g' _ hne
    refine Finset.sum_eq_zero fun a _ => Finset.sum_eq_zero fun c _ => ?_
    rw [drop12_ix3, if_neg]
    intro he
    exact hne (by have := congrFun he 0; exact this)
  · intro hg; exact absurd (Finset.mem_univ g) hg

end Host

/-! ## The kernel's sum of a matrix: lane sums, then the sum down the rows -/

/-- A vector cast to a one-column matrix reads, at (r, v), the vector at r. -/
theorem shapeCast_a_a1_apply {α : Type} {a : Nat} (x : (⟨1, ![a]⟩ : Shape).Idx → α)
    (h : (⟨1, ![a]⟩ : Shape).ShapeCasts ⟨2, ![a, 1]⟩) (r : Fin a) (v : Fin 1) :
    shapeCast ⟨2, ![a, 1]⟩ x h (ix2 r v) = x (ix1 r) :=
  shapeCast_apply x h _ _ (by
    have hv : v.val = 0 := by omega
    rw [Shape.rowMajor_val_two, Shape.rowMajor_val_one]
    show r.val = r.val * 1 + v.val
    rw [hv, Nat.mul_one, Nat.add_zero])

/-- The sum of an m × n matrix as a kernel takes it — `vector.multi_reduction <add>` along the lanes, the row sums kept
    as a column, then along the rows, the total kept as a 1 × 1 matrix — is the double sum of its entries. -/
theorem sumLanesThenRows_apply {m n : Nat} (M : FVec Ideal ⟨2, ![m, n]⟩ .f32)
    (h1 : (⟨2, ![m, n]⟩ : Shape).Reduces [1] ⟨1, ![m]⟩) (hc1 : (⟨1, ![m]⟩ : Shape).ShapeCasts ⟨2, ![m, 1]⟩)
    (h0 : (⟨2, ![m, 1]⟩ : Shape).Reduces [0] ⟨1, ![1]⟩) (hc0 : (⟨1, ![1]⟩ : Shape).ShapeCasts ⟨2, ![1, 1]⟩)
    (hφ : FKind.Formats .f32) (hacc : (0x00000000#32 : BitVec 32) = FKind.add.neutral .f32 hφ) (p q : Fin 1) :
    shapeCast ⟨2, ![1, 1]⟩ (multiReduction .add [0] ⟨1, ![1]⟩
        (shapeCast ⟨2, ![m, 1]⟩ (multiReduction .add [1] ⟨1, ![m]⟩ M 0x00000000#32 h1 hφ hacc) hc1)
        0x00000000#32 h0 hφ hacc) hc0 (ix2 p q)
      = ∑ r : Fin m, ∑ c : Fin n, M (ix2 r c) := by
  refine (shapeCast_a_1a_apply _ hc0 p q).trans ?_
  refine (Ideal.multiReduction_add_single _ 0x00000000#32 h0 hφ hacc (ix1 q)).trans ?_
  refine Finset.sum_congr rfl fun r _ => ?_
  have e0 : h0.lift (ix1 q) r = ix2 r q := by
    funext a; apply Fin.ext
    match a with
    | ⟨0, _⟩ => rfl
    | ⟨1, _⟩ => rfl
  rw [e0]
  refine (shapeCast_a_a1_apply _ hc1 r q).trans ?_
  refine (Ideal.multiReduction_add_single M 0x00000000#32 h1 hφ hacc (ix1 r)).trans ?_
  refine Finset.sum_congr rfl fun c _ => ?_
  refine congrArg M (funext fun a => Fin.ext ?_)
  match a with
  | ⟨0, _⟩ => rfl
  | ⟨1, _⟩ => rfl

end Cert.Bridge

end
-- ==== Proof.BridgeNS3.lean ====
/-
  Broadcasts read at an index, over abstract extents: a 1 × 1 matrix laid over a matrix; one scalar per member of a
  stack laid over the member (through a [G, 1, 1] stack); one scalar per row laid along the row (through a column); a
  matrix copied into every member of a stack. Each reads the operand at the evident index.
-/
import Idealize.ShloMosaic.Lib.StackMember
import Idealize.ShloMosaic.Lib.Pipeline.Value
import Idealize.ShloMosaic.Lib.ValueIdx

noncomputable section

namespace Cert.Bridge

open Idealize.ShloMosaic Idealize.ShloMosaic.ValueIdx Idealize.ShloMosaic.StackMember

variable {α : Type} {G m n : Nat}

/-- A 1 × 1 matrix broadcast over an m × n matrix reads its one entry everywhere. -/
theorem broadcastTo_11_mn_apply (v : (⟨2, ![1, 1]⟩ : Shape).Idx → α) (h : (⟨2, ![1, 1]⟩ : Shape).Broadcasts ⟨2, ![m, n]⟩)
    (a : Fin m) (c : Fin n) (p q : Fin 1) : broadcastTo ⟨2, ![m, n]⟩ v h (ix2 a c) = v (ix2 p q) := by
  refine broadcastTo_apply v h (ix2 a c) (ix2 p q) fun ax => ?_
  match ax with
  | ⟨0, _⟩ =>
    have hp : p.val = 0 := by omega
    show p.val = if (1 : ℕ) = 1 then 0 else a.val
    rw [if_pos rfl, hp]
  | ⟨1, _⟩ =>
    have hq : q.val = 0 := by omega
    show q.val = if (1 : ℕ) = 1 then 0 else c.val
    rw [if_pos rfl, hq]

/-- One scalar per member of a stack, broadcast over each member through a [G, 1, 1] stack, reads at (g, a, c) the
    scalar of member g. -/
theorem broadcastInDim_memberScalar_apply (x : (⟨1, ![G]⟩ : Shape).Idx → α)
    (h1 : (⟨1, ![G]⟩ : Shape).BroadcastsInDim ⟨3, ![G, 1, 1]⟩ ![0])
    (h2 : (⟨3, ![G, 1, 1]⟩ : Shape).BroadcastsInDim ⟨3, ![G, m, n]⟩ ![0, 1, 2]) (g : Fin G) (a : Fin m) (c : Fin n) :
    broadcastInDim ⟨3, ![G, m, n]⟩ ![0, 1, 2] h2 (broadcastInDim ⟨3, ![G, 1, 1]⟩ ![0] h1 x) (ix3 g a c) = x (ix1 g) := by
  have hg : g.val < G := g.isLt
  refine (broadcastInDim_apply ![0, 1, 2] h2 _ (ix3 g a c) (ix3 g (0 : Fin 1) (0 : Fin 1)) ?_).trans ?_
  · intro ax
    match ax with
    | ⟨0, _⟩ =>
      show g.val = if G = 1 then 0 else g.val
      split
      · omega
      · rfl
    | ⟨1, _⟩ => rfl
    | ⟨2, _⟩ => rfl
  · refine broadcastInDim_apply ![0] h1 x (ix3 g (0 : Fin 1) (0 : Fin 1)) (ix1 g) ?_
    intro ax
    match ax with
    | ⟨0, _⟩ =>
      show g.val = if G = 1 then 0 else g.val
      split
      · omega
      · rfl

/-- One scalar per row as a column reads, at (g, q), the scalar of row g. -/
theorem broadcastInDim_column_apply (x : (⟨1, ![G]⟩ : Shape).Idx → α)
    (h : (⟨1, ![G]⟩ : Shape).BroadcastsInDim ⟨2, ![G, 1]⟩ ![0]) (g : Fin G) (q : Fin 1) :
    broadcastInDim ⟨2, ![G, 1]⟩ ![0] h x (ix2 g q) = x (ix1 g) := by
  have hg : g.val < G := g.isLt
  refine broadcastInDim_apply ![0] h x (ix2 g q) (ix1 g) ?_
  intro ax
  match ax with
  | ⟨0, _⟩ =>
    show g.val = if G = 1 then 0 else g.val
    split
    · omega
    · rfl

/-- A column broadcast along the rows reads, at (g, c), the column's entry of row g. -/
theorem broadcastInDim_alongRows_apply (x : (⟨2, ![G, 1]⟩ : Shape).Idx → α)
    (h : (⟨2, ![G, 1]⟩ : Shape).BroadcastsInDim ⟨2, ![G, n]⟩ ![0, 1]) (g : Fin G) (c : Fin n) :
    broadcastInDim ⟨2, ![G, n]⟩ ![0, 1] h x (ix2 g c) = x (ix2 g (0 : Fin 1)) := by
  have hg : g.val < G := g.isLt
  refine broadcastInDim_apply ![0, 1] h x (ix2 g c) (ix2 g (0 : Fin 1)) ?_
  intro ax
  match ax with
  | ⟨0, _⟩ =>
    show g.val = if G = 1 then 0 else g.val
    split
    · omega
    · rfl
  | ⟨1, _⟩ => rfl

/-- A matrix copied into every member of a stack (a `broadcast_in_dim` of [m, n] to [G, m, n] along axes 1 and 2) is,
    member by member, the matrix. -/
theorem memberAt_broadcastInDim_everyMember (E : (⟨2, ![m, n]⟩ : Shape).Idx → α)
    (h : (⟨2, ![m, n]⟩ : Shape).BroadcastsInDim ⟨3, ![G, m, n]⟩ ![1, 2]) (g : Fin G) :
    memberAt (d := ![m, n]) (broadcastInDim ⟨3, ![G, m, n]⟩ ![1, 2] h E) g = E := by
  funext i
  obtain ⟨a, c, rfl⟩ : ∃ (a : Fin m) (c : Fin n), i = ix2 a c := ⟨i 0, i 1, eq_ix2 i⟩
  have ha : a.val < m := a.isLt
  have hc : c.val < n := c.isLt
  rw [memberAt_apply, cons_ix2]
  refine broadcastInDim_apply ![1, 2] h E (ix3 g a c) (ix2 a c) ?_
  intro ax
  match ax with
  | ⟨0, _⟩ =>
    show a.val = if m = 1 then 0 else a.val
    split
    · omega
    · rfl
  | ⟨1, _⟩ =>
    show c.val = if n = 1 then 0 else c.val
    split
    · omega
    · rfl

end Cert.Bridge

end
-- ==== Proof.BridgeNS4.lean ====
/-
  The bilinear-pooling kernel against its reference, batch by batch, up to the start of the Newton–Schulz iteration:
  the block of a batch, the kernel's stored value and the reference's normalised features as functions; then, for each
  batch b, the Gram matrix x·xᵀ/784, its Frobenius norm, the scaled start Y₀ = A/‖A‖ and the identity Z₀ are the same
  on both sides.
-/
import proofs.«120891_j70282844831999_2_alg».proof.Proof.Gen.KernelIdeal.Skeleton
import proofs.«120891_j70282844831999_2_alg».proof.Proof.Gen.ReferenceIdeal.Run
import proofs.«120891_j70282844831999_2_alg».proof.Proof.BridgeNS1
import proofs.«120891_j70282844831999_2_alg».proof.Proof.BridgeNS2
import proofs.«120891_j70282844831999_2_alg».proof.Proof.BridgeNS3

noncomputable section

open scoped BigOperators

namespace Cert.Bridge

open Idealize.ShloMosaic Idealize.ShloMosaic.ValueIdx Idealize.ShloMosaic.StackMember Idealize.ShloMosaic.StableHlo
open Cert.KernelIdeal.Gen (k0_pay1 k0_pay2 k0_pay3 k0_pay4 k0_pay5 k0_pay6 k0_pay7 k0_pay8 k0_pay9 k0_pay10 k0_pay11 k0_pay12)

/-! ## The two sides as functions -/

/-- the block of batch b of a batched input -/
def blockOf (X : FVec Ideal Cert.ReferenceIdeal.S64x512x784 .f32) (b : Fin 64) : Vec Ideal Cert.KernelIdeal.S1x512x784 .f32 :=
  fun y => X (ix3 b (y 1) (y 2))

/-- the ten trips as a fold (the spelling the body's run leaves) -/
def trips (x : Vec Ideal Cert.KernelIdeal.S1x512x784 .f32) :=
  Scf.fold (n := Cert.KernelIdeal.k0_t1_loop.trips)
    (fun _ (acc : FVec Ideal Cert.KernelIdeal.S512x512 .f32 × FVec Ideal Cert.KernelIdeal.S512x512 .f32) =>
      (Cert.KernelIdeal.Gen.k0_pay9 acc.1 acc.2, Cert.KernelIdeal.Gen.k0_pay10 acc.1 acc.2))
    (Cert.KernelIdeal.Gen.k0_pay5 x, Cert.KernelIdeal.Gen.k0_pay3)

/-- what the kernel stores for a block -/
def kval (x : Vec Ideal Cert.KernelIdeal.S1x512x784 .f32) : FVec Ideal Cert.KernelIdeal.S1x512x512 .f32 :=
  Cert.KernelIdeal.Gen.k0_pay1 (Cert.KernelIdeal.Gen.k0_pay11 x (trips x).1) (Cert.KernelIdeal.Gen.k0_pay12 x (trips x).1)
    (Scalar.ofBits .f32 0x2B8CBCCC#32)

section
open Cert.ReferenceIdeal Cert.ReferenceIdeal.Gen Cert.ReferenceIdeal.Value
/-- the reference's normalised feature matrix [64, 262144] as a function of its launch contents: the first operand of
    the closing dot_general of the reference's run -/
def refN (V0 : Valuation Cert.ReferenceIdeal.τ Cert.ReferenceIdeal.sig (Elt Ideal)) : FVec Ideal Cert.ReferenceIdeal.S64x262144 .f32 :=
  Host.divf (res_main_v107 V0) (broadcastInDim S64x262144 ![0, 1] bcast_S64x1_S64x262144_0_1 (maximumf (Host.sqrt (broadcastInDim S64x1 ![0] bcast_S64_S64x1_0 (Host.reduceAdd (mulf (res_main_v107 V0) (res_main_v107 V0)) (constant S_ .f32 0x00000000#32) reducesTo_S64x262144_S64_d1 h_S_))) (broadcastInDim S64x1 ![] bcast_S_S64x1 (constant S_ .f32 0x2B8CBCCC#32))))
end

open Cert.ReferenceIdeal.Value (res_main_v0 res_main_v3 res_main_v6 res_main_v9 res_main_v16)

/-- The launch contents of the reference's arrays. -/
abbrev Launch := Valuation Cert.ReferenceIdeal.τ Cert.ReferenceIdeal.sig (Elt Ideal)

theorem blockOf_apply (X : FVec Ideal Cert.ReferenceIdeal.S64x512x784 .f32) (b : Fin 64) (u : Fin 1) (i : Fin 512) (p : Fin 784) :
    blockOf X b (ix3 u i p) = X (ix3 b i p) := rfl

/-- The loop runs ten trips. -/
theorem trips_count : Cert.KernelIdeal.k0_t1_loop.trips = 10 := by decide

/-! ## The reference's stages as functions of typed arrays

Each named intermediate of the reference's run is one of these applied to earlier ones (by unfolding: the links below
are `rfl`), so that every lemma is stated over a variable whose type is its shape. -/

abbrev Inp := FVec Ideal (⟨3, ![64, 512, 784]⟩ : Shape) .f32
abbrev Stk := FVec Ideal (⟨3, ![64, 512, 512]⟩ : Shape) .f32
abbrev Mat := FVec Ideal (⟨2, ![512, 512]⟩ : Shape) .f32
abbrev Per := FVec Ideal (⟨1, ![64]⟩ : Shape) .f32

section Stages
open Cert.ReferenceIdeal Cert.ReferenceIdeal.Gen

/-- A = x·xᵀ/784, batched -/
def rA (X : Inp) : Stk :=
  Host.divf (F := Ideal) (Host.dotGeneral (F := Ideal) dot_S64x512x784_S64x512x784_S64x512x512_2_2_1_1_0_0 none X X)
    (broadcastInDim S64x512x512 ![] bcast_S_S64x512x512 (constant (F := Ideal) S_ .f32 0x44440000#32))
/-- the Frobenius norm of each batch -/
def rNorm (A : Stk) : Per :=
  Host.sqrt (F := Ideal) (Host.reduceAdd (F := Ideal) (mulf A A) (constant (F := Ideal) S_ .f32 0x00000000#32) reducesTo_S64x512x512_S64_d1_2 h_S_)
/-- a per-batch scalar laid over each batch's matrix -/
def rOver (v : Per) : Stk :=
  broadcastInDim S64x512x512 ![0, 1, 2] bcast_S64x1x1_S64x512x512_0_1_2 (broadcastInDim S64x1x1 ![0] bcast_S64_S64x1x1_0 v)
/-- Y₀ = A/‖A‖ -/
def rY0 (A : Stk) (nrm : Per) : Stk := Host.divf (F := Ideal) A (rOver nrm)
/-- the identity in every batch -/
def rI : Stk :=
  broadcastInDim S64x512x512 ![1, 2] bcast_S512x512_S64x512x512_1_2
    (uitofp (F := Ideal) .f32 (cmpi .eq (addi (iotaInDim S512x512 32 0) (broadcastInDim S512x512 ![] bcast_S_S512x512 (constantI S_ 32 0#32))) (iotaInDim S512x512 32 1)))
/-- the batched product -/
def rDot (L R : Stk) : Stk := Host.dotGeneral (F := Ideal) dot_S64x512x512_S64x512x512_S64x512x512_2_1_1_2_0_0 none L R
/-- T = ½(3·I − Z·Y) -/
def rT (I Y Z : Stk) : Stk :=
  mulf (broadcastInDim S64x512x512 ![] bcast_S_S64x512x512 (constant (F := Ideal) S_ .f32 0x3F000000#32))
    (subf (mulf (broadcastInDim S64x512x512 ![] bcast_S_S64x512x512 (constant (F := Ideal) S_ .f32 0x40400000#32)) I) (rDot Z Y))

end Stages

open Cert.ReferenceIdeal.Value in
theorem v3_eq (V0 : Launch) : res_main_v3 V0 = rA (res_main_v0 V0) := rfl
open Cert.ReferenceIdeal.Value in
theorem v6_eq (V0 : Launch) : res_main_v6 V0 = rNorm (res_main_v3 V0) := rfl
open Cert.ReferenceIdeal.Value in
theorem v9_eq (V0 : Launch) : res_main_v9 V0 = rY0 (res_main_v3 V0) (res_main_v6 V0) := rfl
open Cert.ReferenceIdeal.Value in
theorem v16_eq (V0 : Launch) : res_main_v16 V0 = rI := rfl

/-! ## The Gram matrix -/

/-- The kernel's A = x·xᵀ/784 at (i, j). -/
theorem pay2_apply (x : Vec Ideal Cert.KernelIdeal.S1x512x784 .f32) (i j : Fin 512) :
    k0_pay2 x (ix2 i j)
      = Ideal.div (∑ p : Fin 784, x (ix3 (0 : Fin 1) i p) * x (ix3 (0 : Fin 1) j p)) (Ideal.ofBits .f32 0x44440000#32) := by
  show Ideal.div (matmul (F := Ideal) (DotDims.transposedRhs 512 784 512) none
      (truncf .bf16 (shapeCast ⟨2, ![512, 784]⟩ x Cert.KernelIdeal.Gen.shapeCasts_S1x512x784_S512x784) Cert.KernelIdeal.Gen.bitsLt_bf16_f32)
      (truncf .bf16 (shapeCast ⟨2, ![512, 784]⟩ x Cert.KernelIdeal.Gen.shapeCasts_S1x512x784_S512x784) Cert.KernelIdeal.Gen.bitsLt_bf16_f32)
      (constant ⟨2, ![512, 512]⟩ .f32 0x00000000#32) (ix2 i j)) (Ideal.ofBits .f32 0x44440000#32) = _
  rw [matmul_transposedRhs_apply]
  refine congrArg (Ideal.div · _) (Finset.sum_congr rfl fun p _ => ?_)
  show shapeCast ⟨2, ![512, 784]⟩ x _ (ix2 i p) * shapeCast ⟨2, ![512, 784]⟩ x _ (ix2 j p) = _
  rw [shapeCast_1ab_ab_apply, shapeCast_1ab_ab_apply]

/-- The reference's A at (b, i, j). -/
theorem rA_apply (X : Inp) (b : Fin 64) (i j : Fin 512) :
    rA X (ix3 b i j) = Ideal.div (∑ p : Fin 784, X (ix3 b i p) * X (ix3 b j p)) (Ideal.ofBits .f32 0x44440000#32) := by
  show Ideal.div (Host.dotGeneral (F := Ideal) (⟨[2], [2], [1], [1], [0], [0],
        Cert.ReferenceIdeal.Gen.dot_S64x512x784_S64x512x784_S64x512x512_2_2_1_1_0_0_wf⟩ :
          DotDims ⟨3, ![64, 512, 784]⟩ ⟨3, ![64, 512, 784]⟩ ⟨3, ![64, 512, 512]⟩) none X X (ix3 b i j))
      (Ideal.ofBits .f32 0x44440000#32) = _
  rw [dotGeneral_gramStack_apply]

/-- Batch b of the reference's A is the kernel's A of block b. -/
theorem gram_member (X : Inp) (b : Fin 64) : memberAt (d := ![512, 512]) (rA X) b = k0_pay2 (blockOf X b) := by
  funext y
  obtain ⟨i, j, rfl⟩ : ∃ (i : Fin 512) (j : Fin 512), y = ix2 i j := ⟨y 0, y 1, eq_ix2 y⟩
  rw [memberAt_apply, cons_ix2, rA_apply, pay2_apply]
  rfl

/-! ## The Frobenius norm, and Y₀ -/

/-- The root of the sum of the squares of a 512 × 512 matrix as the kernel's body takes it (twice: of A, and of the
    signed root), at its one index. -/
theorem knorm_apply (M : Mat) (p q : Fin 1) :
    sqrt (F := Ideal) (shapeCast ⟨2, ![1, 1]⟩ (multiReduction (F := Ideal) .add [0] ⟨1, ![1]⟩
        (shapeCast ⟨2, ![512, 1]⟩ (multiReduction (F := Ideal) .add [1] ⟨1, ![512]⟩ (mulf M M) 0x00000000#32
          Cert.KernelIdeal.Gen.reduces_S512x512_S512 (.inl rfl) rfl) Cert.KernelIdeal.Gen.shapeCasts_S512_S512x1)
        0x00000000#32 Cert.KernelIdeal.Gen.reduces_S512x1_S1 (.inl rfl) rfl) Cert.KernelIdeal.Gen.shapeCasts_S1_S1x1) (ix2 p q)
      = Ideal.sqrt (∑ r : Fin 512, ∑ c : Fin 512, M (ix2 r c) * M (ix2 r c)) :=
  congrArg Ideal.sqrt (sumLanesThenRows_apply (mulf M M) _ _ _ _ (.inl rfl) rfl p q)

/-- The kernel's ‖A‖. -/
theorem pay4_apply (x : Vec Ideal Cert.KernelIdeal.S1x512x784 .f32) (p q : Fin 1) :
    k0_pay4 x (ix2 p q) = Ideal.sqrt (∑ r : Fin 512, ∑ c : Fin 512, k0_pay2 x (ix2 r c) * k0_pay2 x (ix2 r c)) :=
  knorm_apply (k0_pay2 x) p q

/-- The reference's ‖A‖ of batch b. -/
theorem rNorm_apply (A : Stk) (b : Fin 64) :
    rNorm A (ix1 b) = Ideal.sqrt (∑ r : Fin 512, ∑ c : Fin 512, A (ix3 b r c) * A (ix3 b r c)) := by
  show Ideal.sqrt (Host.reduceAdd (F := Ideal) (mulf A A) (constant (F := Ideal) (⟨0, ![]⟩ : Shape) .f32 0x00000000#32)
      Cert.ReferenceIdeal.Gen.reducesTo_S64x512x512_S64_d1_2 Cert.ReferenceIdeal.Gen.h_S_ (ix1 b)) = _
  rw [hostReduceAdd_members_apply]
  show Ideal.sqrt (Ideal.ofBits .f32 0x00000000#32 + _) = _
  rw [Ideal.ofBits_zero_f32, zero_add]
  rfl

/-- A stack's entries, batch b, are its member's. -/
theorem member_entry (A : Stk) (b : Fin 64) (r c : Fin 512) : A (ix3 b r c) = memberAt (d := ![512, 512]) A b (ix2 r c) := by
  rw [memberAt_apply, cons_ix2]

/-- The two norms agree when batch b of the reference's matrix is the kernel's. -/
theorem norm_member (A : Stk) (M : Mat) (b : Fin 64) (h : memberAt (d := ![512, 512]) A b = M) :
    rNorm A (ix1 b) = Ideal.sqrt (∑ r : Fin 512, ∑ c : Fin 512, M (ix2 r c) * M (ix2 r c)) := by
  rw [rNorm_apply]
  simp only [member_entry, h]

/-- A per-batch scalar laid over the batch, member b: the scalar everywhere. -/
theorem rOver_apply (v : Per) (b : Fin 64) (i j : Fin 512) : rOver v (ix3 b i j) = v (ix1 b) :=
  broadcastInDim_memberScalar_apply v _ _ b i j

/-- Batch b of the reference's Y₀ is the kernel's Y₀ of block b. -/
theorem y0_member (X : Inp) (b : Fin 64) :
    memberAt (d := ![512, 512]) (rY0 (rA X) (rNorm (rA X))) b = k0_pay5 (blockOf X b) := by
  funext y
  obtain ⟨i, j, rfl⟩ : ∃ (i : Fin 512) (j : Fin 512), y = ix2 i j := ⟨y 0, y 1, eq_ix2 y⟩
  rw [memberAt_apply, cons_ix2]
  show Ideal.div (rA X (ix3 b i j)) (rOver (rNorm (rA X)) (ix3 b i j))
    = Ideal.div (k0_pay2 (blockOf X b) (ix2 i j))
        (broadcastTo ⟨2, ![512, 512]⟩ (k0_pay4 (blockOf X b)) Cert.KernelIdeal.Gen.broadcasts_S1x1_S512x512 (ix2 i j))
  rw [rOver_apply, broadcastTo_11_mn_apply _ _ i j (0 : Fin 1) (0 : Fin 1), pay4_apply,
    norm_member (rA X) _ b (gram_member X b), member_entry (rA X) b i j, gram_member]

/-! ## The identity -/

/-- Batch b of the reference's identity is the kernel's. -/
theorem eye_member (b : Fin 64) : memberAt (d := ![512, 512]) rI b = (k0_pay3 : Mat) := by
  show memberAt (d := ![512, 512]) (broadcastInDim ⟨3, ![64, 512, 512]⟩ ![1, 2] Cert.ReferenceIdeal.Gen.bcast_S512x512_S64x512x512_1_2
      (uitofp (F := Ideal) .f32 (cmpi .eq (addi (iotaInDim ⟨2, ![512, 512]⟩ 32 0)
        (broadcastInDim ⟨2, ![512, 512]⟩ ![] Cert.ReferenceIdeal.Gen.bcast_S_S512x512 (constantI ⟨0, ![]⟩ 32 0#32)))
        (iotaInDim ⟨2, ![512, 512]⟩ 32 1)))) b
    = sitofp (F := Ideal) .f32 (extui 32 (cmpi .eq (iota .tc ⟨2, ![512, 512]⟩ 32 [0] Cert.KernelIdeal.Gen.iota_S512x512_d0_w32)
        (iota .tc ⟨2, ![512, 512]⟩ 32 [1] Cert.KernelIdeal.Gen.iota_S512x512_d1_w32)) Cert.KernelIdeal.Gen.natLt_1_32)
  rw [memberAt_broadcastInDim_everyMember, sitofp_extui_eq_uitofp]
  refine congrArg (uitofp (F := Ideal) .f32) (funext fun y => ?_)
  show IntOp.cmpi .eq (BitVec.ofNat 32 (y 0).val + 0#32) (BitVec.ofNat 32 (y 1).val)
    = IntOp.cmpi .eq (BitVec.ofNat 32 (0 * 512 + (y 0).val)) (BitVec.ofNat 32 (0 * 512 + (y 1).val))
  rw [BitVec.add_zero, Nat.zero_mul, Nat.zero_add, Nat.zero_add]

end Cert.Bridge

end
-- ==== Proof.Connect.lean ====
/-
  The two results are one function of the arguments.

  The reference's result at (r, o) is Σ_K N(r, K) · W(o, K) + B(o) over all 262144 columns, N its normalised feature
  matrix. The kernel program's is the two halves of that sum — eight column tiles each, every half started at zero —
  added, plus B(o), over the feature matrix the projection kernel finds: the first kernel's output regrouped, whose
  entry (r, K) is the first kernel's result for batch r at (K / 512, K % 512). Given that this per-batch result is
  the reference's normalised feature entry (the hypothesis `hB`), the feature matrices agree, and the two sums are
  the same terms regrouped.
-/
import proofs.«120891_j70282844831999_2_alg».proof.Proof.KIOut
import proofs.«120891_j70282844831999_2_alg».proof.Proof.RefProj
import proofs.«120891_j70282844831999_2_alg».proof.Proof.BridgeNS4

set_option maxRecDepth 16384

noncomputable section

namespace Cert.Connect

open Idealize.ShloMosaic Idealize.ShloMosaic.TcCoe Idealize.ShloMosaic.ValueIdx
open Idealize.SL Idealize.SL.Sem
open Cert.KernelIdeal.Hand Cert.KernelIdeal.Val
open scoped BigOperators

/-- The per-batch bridge: the first kernel's result for batch b's block is the reference's normalised feature entry. -/
def BatchBridge : Prop :=
  ∀ (V0 : Cert.Bridge.Launch) (b : Fin 64) (i j : Fin 512),
    Cert.Bridge.kval (Cert.Bridge.blockOf (Cert.ReferenceIdeal.Value.res_main_v0 V0) b) (ix3 (0 : Fin 1) i j)
      = Cert.Bridge.refN V0 (ix2 b ⟨i.val * 512 + j.val, by omega⟩)

/-- The first kernel's output array at (b, i, j): the body's result for batch b's block at (0, i, j). -/
theorem G0_apply (body : Vec Ideal Cert.KernelIdeal.S1x512x784 .f32 → Vec Ideal Cert.KernelIdeal.S1x512x512 .f32)
    (X : Cert.KernelIdeal.S64x512x784.Idx → EReal) (b : Fin 64) (i j : Fin 512) :
    G0 body X (ix3 b i j) = body (batchBlock X b) (ix3 (0 : Fin 1) i j) := rfl

variable (m : (ℓ : Loc Cert.KernelIdeal.nD Cert.KernelIdeal.τ Cert.KernelIdeal.sig) → Buf (Elt Ideal) ℓ) (ρ : Dev Cert.KernelIdeal.nD → PrngReg)
variable (V0 : Cert.Bridge.Launch) (c : Dev Cert.KernelIdeal.nD)

/-- The feature matrix the projection kernel finds is the reference's normalised feature matrix. -/
theorem feat_is_refN (hB : BatchBridge)
    (h0 : V0 (Proc.devRef .tc Cert.ReferenceIdeal.main_arg0) = m ((c : Thread Cert.KernelIdeal.nD Cert.KernelIdeal.τ).loc Cert.KernelIdeal.main_arg0)) :
    feat (V3 m ρ (D0)) c = Cert.Bridge.refN V0 := by
  rw [feat_eq]
  funext idx
  obtain ⟨r, K, rfl⟩ : ∃ (r : Fin 64) (K : Fin 262144), idx = ix2 r K := ⟨idx 0, idx 1, eq_ix2 idx⟩
  have hK : K.val < 262144 := K.isLt
  have hr : r.val < 64 := r.isLt
  have hi : K.val / 512 < 512 := by omega
  have hj : K.val % 512 < 512 := by omega
  refine (shapeCast_apply _ _ (ix2 r K) (ix3 r (⟨K.val / 512, hi⟩ : Fin 512) (⟨K.val % 512, hj⟩ : Fin 512)) ?_).trans ?_
  · rw [Shape.rowMajor_val_three, Shape.rowMajor_val_two]
    show (r.val * 512 + K.val / 512) * 512 + K.val % 512 = r.val * 262144 + K.val
    omega
  · refine (G0_apply _ _ r ⟨K.val / 512, hi⟩ ⟨K.val % 512, hj⟩).trans ?_
    have hX : input3 m c = Cert.ReferenceIdeal.Value.res_main_v0 V0 := by
      unfold input3 Cert.ReferenceIdeal.Value.res_main_v0
      rw [h0]
      rfl
    rw [hX]
    refine (hB V0 r ⟨K.val / 512, hi⟩ ⟨K.val % 512, hj⟩).trans ?_
    refine congrArg (Cert.Bridge.refN V0) ?_
    refine congrArg (ix2 r) (Fin.ext ?_)
    show K.val / 512 * 512 + K.val % 512 = K.val
    omega

/-- THE TWO RESULTS AGREE: the reference's closing projection of its launch contents is the kernel program's result
    buffer at the return, when the launch contents agree on the arguments. -/
theorem result_eq (hB : BatchBridge)
    (h0 : V0 (Proc.devRef .tc Cert.ReferenceIdeal.main_arg0) = m ((c : Thread Cert.KernelIdeal.nD Cert.KernelIdeal.τ).loc Cert.KernelIdeal.main_arg0))
    (h1 : V0 (Proc.devRef .tc Cert.ReferenceIdeal.main_arg1) = m ((c : Thread Cert.KernelIdeal.nD Cert.KernelIdeal.τ).loc Cert.KernelIdeal.main_arg1))
    (h2 : V0 (Proc.devRef .tc Cert.ReferenceIdeal.main_arg2) = m ((c : Thread Cert.KernelIdeal.nD Cert.KernelIdeal.τ).loc Cert.KernelIdeal.main_arg2)) :
    Cert.RefProj.proj (Cert.Bridge.refN V0) (V0 (Proc.devRef .tc Cert.ReferenceIdeal.main_arg1)) (V0 (Proc.devRef .tc Cert.ReferenceIdeal.main_arg2))
      = W5 m ρ D0 D1 c (Proc.devRef .tc Cert.KernelIdeal.main_v11) := by
  funext idx
  obtain ⟨r, o, rfl⟩ : ∃ (r : Fin 64) (o : Fin 200), idx = ix2 r o := ⟨idx 0, idx 1, eq_ix2 idx⟩
  rw [Cert.RefProj.proj_apply, Cert.RefProj.sum_tiles]
  refine Eq.trans ?_ (result_apply m ρ c r o).symm
  rw [h2]
  refine congrArg (· + (m ((c : Thread Cert.KernelIdeal.nD Cert.KernelIdeal.τ).loc Cert.KernelIdeal.main_arg2) : Cert.KernelIdeal.S200.Idx → EReal) (ix1 o)) ?_
  have hterm : ∀ n : ℕ, (∑ k : Fin 16384, Cert.Bridge.refN V0 (ix2 r (Cert.RefProj.col n k)) * (V0 (Proc.devRef .tc Cert.ReferenceIdeal.main_arg1) : Cert.ReferenceIdeal.S200x262144.Idx → EReal) (ix2 o (Cert.RefProj.col n k)))
      = addend (V3 m ρ D0) c n r o := by
    intro n
    unfold addend
    rw [feat_is_refN m ρ V0 c hB h0, wgt_eq, h1]
    rfl
  simp only [hterm]

end Cert.Connect

end
-- ==== Proof.Claims.lean ====
/-
  The certificate's claims.

  The kernel program and its idealization each run as five segments whose boundary contents are a fold from the launch
  memory; their frames are read off the run that names every unscoped buffer. The reference's frame is its generated
  run with the result dropped. The one rewrite of the ideal pass — "1.0 with the sign bit of x" printed as a select on
  x < 0 — is the rule's own statement. The algebraic claim pairs the idealized kernel program's named run with the
  reference's run: both results are one function of the arguments, the reference's closing projection regrouped into
  the kernel's sixteen column tiles over feature matrices that agree batch by batch.
-/
import proofs.«120891_j70282844831999_2_alg».proof.Defs
import proofs.«120891_j70282844831999_2_alg».proof.Proof.Gen.Kernel
import proofs.«120891_j70282844831999_2_alg».proof.Proof.Gen.KernelIdeal
import proofs.«120891_j70282844831999_2_alg».proof.Proof.Gen.ReferenceIdeal
import proofs.«120891_j70282844831999_2_alg».proof.Proof.Gen.Pre_finite_inputs
import proofs.«120891_j70282844831999_2_alg».proof.Proof.Gen.ReferenceIdeal.Run
import proofs.«120891_j70282844831999_2_alg».proof.Proof.KArgs
import proofs.«120891_j70282844831999_2_alg».proof.Proof.KIArgs
import proofs.«120891_j70282844831999_2_alg».proof.Proof.Connect

set_option maxRecDepth 16384

noncomputable section

namespace Cert.Proof.Claims

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The ledger's one entry: one with the sign bit of x is −1 where x < 0 and 1 elsewhere. -/
theorem preserves : Cert.preserves_Kernel_KernelIdeal := IdealRules.sign_bit.statement Cert.KernelIdeal.S512x512 .f32

/-- Both programs end with the same result array, the idealized kernel program's result buffer at the return. -/
theorem algebraic (hB : Cert.Connect.BatchBridge) : Cert.algebraic_KernelIdeal_ReferenceIdeal := by
  intro m ρ m' ρ' _ hagree
  refine ⟨fun c => Cert.KernelIdeal.Hand.W5 m ρ Cert.KernelIdeal.Val.D0 Cert.KernelIdeal.Val.D1 c (Proc.devRef .tc Cert.KernelIdeal.main_v11), ?_, ?_⟩
  · exact (θ_run Cert.KernelIdeal.defs _ _).mono (fun r h c =>
      ⟨h c _ (Cert.KernelIdeal.Hand.mem_uc Cert.KernelIdeal.main_v11 (by decide)),
       (h c _ (Cert.KernelIdeal.Hand.mem_uc Cert.KernelIdeal.main_arg0 (by decide))).trans (Cert.KernelIdeal.Hand.kept0 m ρ c),
       (h c _ (Cert.KernelIdeal.Hand.mem_uc Cert.KernelIdeal.main_arg1 (by decide))).trans (Cert.KernelIdeal.Hand.kept1 m ρ c),
       (h c _ (Cert.KernelIdeal.Hand.mem_uc Cert.KernelIdeal.main_arg2 (by decide))).trans (Cert.KernelIdeal.Hand.kept2 m ρ c)⟩)
      (Cert.KernelIdeal.Hand.run_named (F := Ideal) m ρ)
  · refine (θ_run Cert.ReferenceIdeal.defs _ _).mono (fun r h c => ⟨(h c).1.trans ?_, (h c).2⟩)
      (Cert.ReferenceIdeal.Value.run (F := Ideal) m' ρ')
    exact Cert.Connect.result_eq m ρ (StableHlo.launchContents m' c) c hB (hagree c).1 (hagree c).2.1 (hagree c).2.2

end Cert.Proof.Claims

end
-- ==== Proof.BridgeNS5.lean ====
/-
  The Newton–Schulz iteration of the bilinear-pooling kernel against its reference, batch by batch: one step
  T = ½(3·I − Z·Y), Y ← Y·T, Z ← T·Z takes agreeing (Y, Z) to agreeing (Y, Z); the reference unrolls ten steps by name,
  the kernel folds its trip ten times, so after the ten the reference's Y, batch b, is the kernel's.
-/
import proofs.«120891_j70282844831999_2_alg».proof.Proof.BridgeNS4

noncomputable section

open scoped BigOperators

namespace Cert.Bridge

open Idealize.ShloMosaic Idealize.ShloMosaic.ValueIdx Idealize.ShloMosaic.StackMember Idealize.ShloMosaic.StableHlo
open Cert.KernelIdeal.Gen (k0_pay3 k0_pay5 k0_pay6 k0_pay7 k0_pay8 k0_pay9 k0_pay10)

/-! ## The products at an index -/

/-- The reference's batched product at (b, i, j). -/
theorem rDot_apply (L R : Stk) (b : Fin 64) (i j : Fin 512) :
    rDot L R (ix3 b i j) = ∑ c : Fin 512, L (ix3 b i c) * R (ix3 b c j) :=
  dotGeneral_stack_apply Cert.ReferenceIdeal.Gen.dot_S64x512x512_S64x512x512_S64x512x512_2_1_1_2_0_0_wf none L R b i j

/-- The kernel's product into zero at (i, j). -/
theorem kdot_apply {φ₁ φ₂ : FTy} (L : FVec Ideal ⟨2, ![512, 512]⟩ φ₁) (R : FVec Ideal ⟨2, ![512, 512]⟩ φ₂) (i j : Fin 512) :
    matmul (F := Ideal) Cert.KernelIdeal.dot_S512x512_S512x512_S512x512_1_0_0_1_n_n none L R
        (constant ⟨2, ![512, 512]⟩ .f32 0x00000000#32) (ix2 i j)
      = ∑ c : Fin 512, L (ix2 i c) * R (ix2 c j) :=
  matmul_plain_apply none L R i j

/-! ## T = ½(3·I − Z·Y) -/

/-- T of a pair of matrices, entry by entry (the literals ½ and 3 kept as their words). -/
def tEntry (Yk Zk : Mat) (i j : Fin 512) : EReal :=
  Ideal.ofBits .f32 0x3F000000#32
    * (Ideal.ofBits .f32 0x40400000#32 * (k0_pay3 : Mat) (ix2 i j) - ∑ c : Fin 512, Zk (ix2 i c) * Yk (ix2 c j))

/-- The kernel's T. -/
theorem pay8_apply (Yk Zk : Mat) (i j : Fin 512) : k0_pay8 Yk Zk (ix2 i j) = tEntry Yk Zk i j := by
  show Ideal.ofBits .f32 0x3F000000#32 * (Ideal.ofBits .f32 0x40400000#32 * (k0_pay3 : Mat) (ix2 i j)
      - matmul (F := Ideal) Cert.KernelIdeal.dot_S512x512_S512x512_S512x512_1_0_0_1_n_n none (k0_pay7 Zk) (k0_pay6 Yk)
          (constant ⟨2, ![512, 512]⟩ .f32 0x00000000#32) (ix2 i j)) = _
  rw [kdot_apply]
  rfl

/-- The reference's T at (b, i, j). -/
theorem rT_apply (I Y Z : Stk) (b : Fin 64) (i j : Fin 512) :
    rT I Y Z (ix3 b i j)
      = Ideal.ofBits .f32 0x3F000000#32
          * (Ideal.ofBits .f32 0x40400000#32 * I (ix3 b i j) - ∑ c : Fin 512, Z (ix3 b i c) * Y (ix3 b c j)) := by
  show Ideal.ofBits .f32 0x3F000000#32 * (Ideal.ofBits .f32 0x40400000#32 * I (ix3 b i j) - rDot Z Y (ix3 b i j)) = _
  rw [rDot_apply]

/-- Where batch b of (I, Y, Z) is (I, Yk, Zk), batch b of the reference's T is T of (Yk, Zk). -/
theorem rT_member (I Y Z : Stk) (Yk Zk : Mat) (b : Fin 64)
    (hI : memberAt (d := ![512, 512]) I b = (k0_pay3 : Mat)) (hY : memberAt (d := ![512, 512]) Y b = Yk)
    (hZ : memberAt (d := ![512, 512]) Z b = Zk) (i j : Fin 512) : rT I Y Z (ix3 b i j) = tEntry Yk Zk i j := by
  rw [rT_apply, member_entry I b i j, hI]
  unfold tEntry
  refine congrArg (fun s => Ideal.ofBits .f32 0x3F000000#32
    * (Ideal.ofBits .f32 0x40400000#32 * (k0_pay3 : Mat) (ix2 i j) - s)) (Finset.sum_congr rfl fun c _ => ?_)
  rw [member_entry Z b i c, member_entry Y b c j, hY, hZ]

/-! ## One step -/

/-- One trip of the kernel's loop on the carried pair (Y, Z). -/
def kStep (acc : Mat × Mat) : Mat × Mat := (k0_pay9 acc.1 acc.2, k0_pay10 acc.1 acc.2)

/-- Batch b of the reference's pair (Y, Z) is the kernel's pair. -/
def Agree (b : Fin 64) (Y Z : Stk) (acc : Mat × Mat) : Prop :=
  memberAt (d := ![512, 512]) Y b = acc.1 ∧ memberAt (d := ![512, 512]) Z b = acc.2

/-- One step keeps the two sides in agreement. -/
theorem Agree.step {b : Fin 64} {I Y Z : Stk} {acc : Mat × Mat}
    (hI : memberAt (d := ![512, 512]) I b = (k0_pay3 : Mat)) (h : Agree b Y Z acc) :
    Agree b (rDot Y (rT I Y Z)) (rDot (rT I Y Z) Z) (kStep acc) := by
  obtain ⟨hY, hZ⟩ := h
  constructor
  · funext y
    obtain ⟨i, j, rfl⟩ : ∃ (i : Fin 512) (j : Fin 512), y = ix2 i j := ⟨y 0, y 1, eq_ix2 y⟩
    rw [memberAt_apply, cons_ix2, rDot_apply]
    show _ = matmul (F := Ideal) Cert.KernelIdeal.dot_S512x512_S512x512_S512x512_1_0_0_1_n_n none (k0_pay6 acc.1)
        (k0_pay8 acc.1 acc.2) (constant ⟨2, ![512, 512]⟩ .f32 0x00000000#32) (ix2 i j)
    rw [kdot_apply]
    refine Finset.sum_congr rfl fun c _ => ?_
    rw [rT_member I Y Z acc.1 acc.2 b hI hY hZ c j, pay8_apply, member_entry Y b i c, hY]
    rfl
  · funext y
    obtain ⟨i, j, rfl⟩ : ∃ (i : Fin 512) (j : Fin 512), y = ix2 i j := ⟨y 0, y 1, eq_ix2 y⟩
    rw [memberAt_apply, cons_ix2, rDot_apply]
    show _ = matmul (F := Ideal) Cert.KernelIdeal.dot_S512x512_S512x512_S512x512_1_0_0_1_n_n none (k0_pay8 acc.1 acc.2)
        (k0_pay7 acc.2) (constant ⟨2, ![512, 512]⟩ .f32 0x00000000#32) (ix2 i j)
    rw [kdot_apply]
    refine Finset.sum_congr rfl fun c _ => ?_
    rw [rT_member I Y Z acc.1 acc.2 b hI hY hZ i c, pay8_apply, member_entry Z b c j, hZ]
    rfl

/-! ## Ten steps -/

/-- The kernel's fold is its trip iterated ten times. -/
theorem trips_eq (x : Vec Ideal Cert.KernelIdeal.S1x512x784 .f32) :
    trips x = kStep^[10] (k0_pay5 x, (k0_pay3 : Mat)) := by
  unfold trips
  rw [Scf.fold_eq]
  show List.foldl (fun acc _ => kStep acc) _ _ = _
  rw [List.foldl_const, List.length_finRange, trips_count]

open Cert.ReferenceIdeal.Value in
/-- After the ten steps the reference's Y, batch b, is the kernel's. -/
theorem ns_member (V0 : Launch) (b : Fin 64) :
    memberAt (d := ![512, 512]) (rDot (res_main_v87 V0) (res_main_v94 V0)) b = (trips (blockOf (res_main_v0 V0) b)).1 := by
  have hI : memberAt (d := ![512, 512]) (res_main_v16 V0 : Stk) b = (k0_pay3 : Mat) := eye_member b
  have h0 : Agree b (res_main_v9 V0) (res_main_v16 V0) (k0_pay5 (blockOf (res_main_v0 V0) b), (k0_pay3 : Mat)) :=
    ⟨y0_member (res_main_v0 V0) b, hI⟩
  have h1 : Agree b (res_main_v23 V0) (res_main_v24 V0) _ := h0.step hI
  have h2 : Agree b (res_main_v31 V0) (res_main_v32 V0) _ := h1.step hI
  have h3 : Agree b (res_main_v39 V0) (res_main_v40 V0) _ := h2.step hI
  have h4 : Agree b (res_main_v47 V0) (res_main_v48 V0) _ := h3.step hI
  have h5 : Agree b (res_main_v55 V0) (res_main_v56 V0) _ := h4.step hI
  have h6 : Agree b (res_main_v63 V0) (res_main_v64 V0) _ := h5.step hI
  have h7 : Agree b (res_main_v71 V0) (res_main_v72 V0) _ := h6.step hI
  have h8 : Agree b (res_main_v79 V0) (res_main_v80 V0) _ := h7.step hI
  have h9 : Agree b (res_main_v87 V0) (res_main_v88 V0) _ := h8.step hI
  have h10 : Agree b (rDot (res_main_v87 V0) (res_main_v94 V0)) (rDot (res_main_v94 V0) (res_main_v88 V0)) _ := h9.step hI
  rw [trips_eq]
  exact h10.1

end Cert.Bridge

end
-- ==== Proof.BridgeNS.lean ====
/-
  What the iteration hands to the closing normalisation, batch by batch: after the ten Newton–Schulz steps the
  reference's Y at (b, i, j) is the kernel's Y of block b at (i, j), and the reference's Frobenius norm of batch b is
  the kernel's norm of block b.
-/
import proofs.«120891_j70282844831999_2_alg».proof.Proof.BridgeNS5

noncomputable section

open scoped BigOperators

namespace Cert.Bridge

open Idealize.ShloMosaic Idealize.ShloMosaic.ValueIdx Idealize.ShloMosaic.StackMember Idealize.ShloMosaic.StableHlo

section
open Cert.ReferenceIdeal Cert.ReferenceIdeal.Gen Cert.ReferenceIdeal.Value

/-- After the ten steps: the reference's Y at (b, i, j) is the kernel's Y of block b at (i, j). -/
theorem ns_Y (V0 : Valuation Cert.ReferenceIdeal.τ Cert.ReferenceIdeal.sig (Elt Ideal)) (b : Fin 64) : ∀ i j : Fin 512,
    (Host.dotGeneral (F := Ideal) (φ₁ := .f32) (φ₂ := .f32) dot_S64x512x512_S64x512x512_S64x512x512_2_1_1_2_0_0 none (res_main_v87 V0) (res_main_v94 V0)) (ix3 b i j)
      = (trips (blockOf (res_main_v0 V0) b)).1 (ix2 i j) := by
  intro i j
  have h := congrFun (ns_member V0 b) (ix2 i j)
  rw [memberAt_apply, cons_ix2] at h
  exact h

/-- The reference's Frobenius norm of batch b is the kernel's norm of block b. -/
theorem ns_norm (V0 : Valuation Cert.ReferenceIdeal.τ Cert.ReferenceIdeal.sig (Elt Ideal)) (b : Fin 64) :
    res_main_v6 V0 (ix1 b) = Cert.KernelIdeal.Gen.k0_pay4 (blockOf (res_main_v0 V0) b) (ix2 (0 : Fin 1) (0 : Fin 1)) := by
  show rNorm (rA (res_main_v0 V0)) (ix1 b) = _
  rw [norm_member (rA (res_main_v0 V0)) _ b (gram_member (res_main_v0 V0) b), pay4_apply]

end

end Cert.Bridge

end
-- ==== Proof.BridgeSign.lean ====
/-
  The signed root of the bilinear-pooling kernel against its reference, batch by batch: v = s(w)·sqrt(|w| + 1e-5) with
  w = Y·sqrt‖A‖, where s is the sign. The reference takes it on the array flattened to [64, 262144] (row-major:
  position K = i·512 + j of row b is entry (b, i, j)); the kernel takes it on the 512 × 512 block, its sign written as
  two selects. Where Y and ‖A‖ agree, so does v.
-/
import proofs.«120891_j70282844831999_2_alg».proof.Proof.BridgeNS

noncomputable section

open scoped BigOperators

namespace Cert.Bridge

open Idealize.ShloMosaic Idealize.ShloMosaic.ValueIdx Idealize.ShloMosaic.StackMember Idealize.ShloMosaic.StableHlo
open Cert.KernelIdeal.Gen (k0_pay4 k0_pay11)

/-- The signed root of one value: s(w)·sqrt(|w| + 1e-5), the literal kept as its word. -/
def signedRoot (w : EReal) : EReal := Ideal.sign w * Ideal.sqrt (max w (-w) + Ideal.ofBits .f32 0x3727C5AC#32)

/-! ## The host's pointwise operations at an index -/

theorem hostSqrt_at {s : Shape} {φ : FTy} (a : FVec Ideal s φ) (i : s.Idx) : Host.sqrt a i = Ideal.sqrt (a i) := rfl
theorem hostSign_at {s : Shape} {φ : FTy} (a : FVec Ideal s φ) (i : s.Idx) : Host.sign a i = Ideal.sign (a i) := rfl
theorem hostAbsf_at {s : Shape} {φ : FTy} (a : FVec Ideal s φ) (i : s.Idx) : Host.absf a i = max (a i) (-(a i)) := rfl

/-! ## The reference's two stages -/

section Stage
open Cert.ReferenceIdeal Cert.ReferenceIdeal.Gen
/-- w = Y·sqrt‖A‖, flattened to [64, 262144] -/
def rScaled (P : Stk) (nrm : Per) : FVec Ideal S64x262144 .f32 :=
  shapeCast S64x262144 (mulf P (rOver (Host.sqrt (F := Ideal) nrm))) shapeCasts_S64x512x512_S64x262144
/-- the signed root of every entry -/
def rSigned (W : FVec Ideal S64x262144 .f32) : FVec Ideal S64x262144 .f32 :=
  mulf (Host.sign (F := Ideal) W) (Host.sqrt (F := Ideal) (addf (Host.absf (F := Ideal) W)
    (broadcastInDim S64x262144 ![] bcast_S_S64x262144 (constant (F := Ideal) S_ .f32 0x3727C5AC#32))))
end Stage

open Cert.ReferenceIdeal.Value in
theorem v101_link (V0 : Launch) :
    res_main_v101 V0 = rScaled (rDot (res_main_v87 V0) (res_main_v94 V0)) (res_main_v6 V0) := rfl
open Cert.ReferenceIdeal.Value in
theorem v107_link (V0 : Launch) : res_main_v107 V0 = rSigned (res_main_v101 V0) := rfl

/-- The flattened w at row b, position i·512 + j: entry (b, i, j) of the product times the root of batch b's norm. -/
theorem rScaled_apply (P : Stk) (nrm : Per) (b : Fin 64) (i j : Fin 512) :
    rScaled P nrm (ix2 b ⟨i.val * 512 + j.val, by omega⟩) = P (ix3 b i j) * Ideal.sqrt (nrm (ix1 b)) := by
  unfold rScaled
  refine (shapeCast_apply _ _ (ix2 b ⟨i.val * 512 + j.val, by omega⟩) (ix3 b i j) ?_).trans ?_
  · rw [Shape.rowMajor_val_three, Shape.rowMajor_val_two]
    show (b.val * 512 + i.val) * 512 + j.val = b.val * 262144 + (i.val * 512 + j.val)
    omega
  · rw [mulf_apply, rOver_apply, hostSqrt_at]

/-- The reference's signed root at an index. -/
theorem rSigned_apply (W : FVec Ideal (⟨2, ![64, 262144]⟩ : Shape) .f32) (y : (⟨2, ![64, 262144]⟩ : Shape).Idx) :
    rSigned W y = signedRoot (W y) := by
  unfold rSigned signedRoot
  rw [mulf_apply, hostSign_at, hostSqrt_at, addf_apply, hostAbsf_at, broadcastInDim_scalar_apply, constant_apply]

/-! ## The kernel's signed root -/

/-- The kernel's signed root of a matrix — the sign as the select of ±1 by "below zero", selected where |w| > 0,
    else w — at an index. -/
theorem ksigned_apply (w : Mat) (y : (⟨2, ![512, 512]⟩ : Shape).Idx) :
    mulf (select (cmpf .ogt (absf w) (broadcast ⟨2, ![512, 512]⟩ (Scalar.ofBits (F := Ideal) .f32 0x00000000#32)))
          (select (cmpf .olt w (constant (F := Ideal) ⟨2, ![512, 512]⟩ .f32 0x00000000#32))
            (constant (F := Ideal) ⟨2, ![512, 512]⟩ .f32 0xBF800000#32) (constant (F := Ideal) ⟨2, ![512, 512]⟩ .f32 0x3F800000#32)) w)
        (sqrt (F := Ideal) (addf (absf w) (broadcast ⟨2, ![512, 512]⟩ (Scalar.ofBits (F := Ideal) .f32 0x3727C5AC#32)))) y
      = signedRoot (w y) := by
  show Scalar.select (FloatOps.cmpf .ogt (FloatOps.absf (w y)) (Scalar.ofBits (F := Ideal) .f32 0x00000000#32))
        (Scalar.select (FloatOps.cmpf .olt (w y) (Scalar.ofBits (F := Ideal) .f32 0x00000000#32))
          (Scalar.ofBits (F := Ideal) .f32 0xBF800000#32) (Scalar.ofBits (F := Ideal) .f32 0x3F800000#32)) (w y)
      * Ideal.sqrt (max (w y) (-(w y)) + Ideal.ofBits .f32 0x3727C5AC#32) = _
  rw [Ideal.jnp_sign_eq_sign_f32]
  rfl

/-- The kernel's signed root at (i, j): of w = Y(i, j)·sqrt‖A‖. -/
theorem pay11_apply (x : Vec Ideal Cert.KernelIdeal.S1x512x784 .f32) (Y : Mat) (i j : Fin 512) :
    k0_pay11 x Y (ix2 i j) = signedRoot (Y (ix2 i j) * Ideal.sqrt (k0_pay4 x (ix2 (0 : Fin 1) (0 : Fin 1)))) := by
  have hw : (mulf Y (broadcastTo ⟨2, ![512, 512]⟩ (sqrt (F := Ideal) (k0_pay4 x)) Cert.KernelIdeal.Gen.broadcasts_S1x1_S512x512) : Mat) (ix2 i j)
      = Y (ix2 i j) * Ideal.sqrt (k0_pay4 x (ix2 (0 : Fin 1) (0 : Fin 1))) := by
    rw [mulf_apply, broadcastTo_11_mn_apply _ _ i j (0 : Fin 1) (0 : Fin 1)]
    rfl
  exact (ksigned_apply _ (ix2 i j)).trans (congrArg signedRoot hw)

/-! ## The two agree -/

section
open Cert.ReferenceIdeal Cert.ReferenceIdeal.Gen Cert.ReferenceIdeal.Value

/-- Where Y after the ten steps and the Frobenius norm agree, the signed roots agree. -/
theorem v107_eq (V0 : Valuation Cert.ReferenceIdeal.τ Cert.ReferenceIdeal.sig (Elt Ideal)) (b : Fin 64)
    (x : Vec Ideal Cert.KernelIdeal.S1x512x784 .f32) (Y : FVec Ideal Cert.KernelIdeal.S512x512 .f32)
    (hY : ∀ i j : Fin 512, (Host.dotGeneral (F := Ideal) (φ₁ := .f32) (φ₂ := .f32) dot_S64x512x512_S64x512x512_S64x512x512_2_1_1_2_0_0 none
        (res_main_v87 V0) (res_main_v94 V0)) (ix3 b i j) = Y (ix2 i j))
    (hn : res_main_v6 V0 (ix1 b) = Cert.KernelIdeal.Gen.k0_pay4 x (ix2 (0 : Fin 1) (0 : Fin 1))) (i j : Fin 512) :
    res_main_v107 V0 (ix2 b ⟨i.val * 512 + j.val, by omega⟩) = Cert.KernelIdeal.Gen.k0_pay11 x Y (ix2 i j) := by
  have hY' : rDot (res_main_v87 V0) (res_main_v94 V0) (ix3 b i j) = Y (ix2 i j) := hY i j
  have hn' : (res_main_v6 V0 : Per) (ix1 b) = k0_pay4 x (ix2 (0 : Fin 1) (0 : Fin 1)) := hn
  rw [v107_link, rSigned_apply, v101_link, rScaled_apply, pay11_apply, hY', hn']

end

end Cert.Bridge

end
-- ==== Proof.BridgeFin.lean ====
/-
  The closing normalisation of the bilinear-pooling kernel against its reference, batch by batch: where the signed
  root v agrees (the reference's flattened row b at K = i·512 + j is the kernel's v at (i, j)), the norms
  n = sqrt(Σ v²) agree — the reference sums row b over K, the kernel sums lanes then rows — and so do
  v / max(n, 1e-12), the kernel's read through its cast to [1, 512, 512].
-/
import proofs.«120891_j70282844831999_2_alg».proof.Proof.BridgeNS
import proofs.«120891_j70282844831999_2_alg».proof.Proof.BridgeSign

noncomputable section

open scoped BigOperators

namespace Cert.Bridge

open Idealize.ShloMosaic Idealize.ShloMosaic.ValueIdx Idealize.ShloMosaic.StackMember Idealize.ShloMosaic.StableHlo
open Cert.KernelIdeal.Gen (k0_pay1 k0_pay11 k0_pay12)

/-- The reference's flattened feature matrix [64, 262144]. -/
abbrev Flat := FVec Ideal (⟨2, ![64, 262144]⟩ : Shape) .f32

/-- The flattened position K = i·512 + j of entry (i, j). -/
abbrev flatIdx (i j : Fin 512) : Fin 262144 := ⟨i.val * 512 + j.val, by omega⟩

section Stage
open Cert.ReferenceIdeal Cert.ReferenceIdeal.Gen
/-- The reference's closing normalisation v / max(sqrt(Σ_K v²), 1e-12), row by row, as a function of the signed root. -/
def rFin (W : Flat) : Flat :=
  Host.divf (F := Ideal) W (broadcastInDim S64x262144 ![0, 1] bcast_S64x1_S64x262144_0_1 (maximumf (F := Ideal) (Host.sqrt (F := Ideal) (broadcastInDim S64x1 ![0] bcast_S64_S64x1_0 (Host.reduceAdd (F := Ideal) (mulf W W) (constant (F := Ideal) S_ .f32 0x00000000#32) reducesTo_S64x262144_S64_d1 h_S_))) (broadcastInDim S64x1 ![] bcast_S_S64x1 (constant (F := Ideal) S_ .f32 0x2B8CBCCC#32))))
end Stage

open Cert.ReferenceIdeal.Value in
theorem refN_eq (V0 : Launch) : refN V0 = rFin (res_main_v107 V0) := rfl

/-- The host's square root at an index is the square root of the element. -/
theorem hostSqrt_apply {s : Shape} {φ : FTy} (a : FVec Ideal s φ) (i : s.Idx) : Host.sqrt a i = Ideal.sqrt (a i) := rfl

/-- The reference's normalisation at (b, K): the entry over the larger of the row's root-sum-of-squares, summed over
    the flattened positions as a double sum, and the 1e-12 word. -/
theorem rFin_apply (W : Flat) (b : Fin 64) (K : Fin 262144) :
    rFin W (ix2 b K)
      = Ideal.div (W (ix2 b K))
          (max (Ideal.sqrt (∑ i : Fin 512, ∑ j : Fin 512, W (ix2 b (flatIdx i j)) * W (ix2 b (flatIdx i j))))
            (Ideal.ofBits .f32 0x2B8CBCCC#32)) := by
  unfold rFin
  rw [hostDivf_apply, broadcastInDim_alongRows_apply, maximumf_apply, broadcastInDim_scalar_apply, constant_apply,
    hostSqrt_apply, broadcastInDim_column_apply, hostReduceAdd_rows_apply, constant_apply, Ideal.ofBits_zero_f32, zero_add,
    sum_flat (m := 512) (n := 512) (N := 262144) rfl]
  rfl

/-- The kernel's stored value at (0, i, j): the signed root's entry over the larger of its root-sum-of-squares and
    the 1e-12 word. -/
theorem pay1_apply (v : Mat) (i j : Fin 512) :
    k0_pay1 v (sqrt (F := Ideal) (shapeCast ⟨2, ![1, 1]⟩ (multiReduction (F := Ideal) .add [0] ⟨1, ![1]⟩
        (shapeCast ⟨2, ![512, 1]⟩ (multiReduction (F := Ideal) .add [1] ⟨1, ![512]⟩ (mulf v v) 0x00000000#32
          Cert.KernelIdeal.Gen.reduces_S512x512_S512 (.inl rfl) rfl) Cert.KernelIdeal.Gen.shapeCasts_S512_S512x1)
        0x00000000#32 Cert.KernelIdeal.Gen.reduces_S512x1_S1 (.inl rfl) rfl) Cert.KernelIdeal.Gen.shapeCasts_S1_S1x1))
      (Scalar.ofBits .f32 0x2B8CBCCC#32) (ix3 (0 : Fin 1) i j)
      = Ideal.div (v (ix2 i j))
          (max (Ideal.sqrt (∑ r : Fin 512, ∑ c : Fin 512, v (ix2 r c) * v (ix2 r c))) (Ideal.ofBits .f32 0x2B8CBCCC#32)) := by
  unfold k0_pay1
  refine (shapeCast_ab_1ab_apply _ _ (0 : Fin 1) i j).trans ?_
  refine congrArg (Ideal.div (v (ix2 i j))) ?_
  refine (broadcastTo_11_mn_apply _ _ i j (0 : Fin 1) (0 : Fin 1)).trans ?_
  refine congrArg (max · (Ideal.ofBits .f32 0x2B8CBCCC#32)) ?_
  exact knorm_apply v 0 0

open Cert.ReferenceIdeal.Value in
/-- Where the signed roots agree, so do the normalised values. -/
theorem post_from_v107 (V0 : Launch) (b : Fin 64) (x : Vec Ideal Cert.KernelIdeal.S1x512x784 .f32)
    (Y : FVec Ideal Cert.KernelIdeal.S512x512 .f32)
    (hv : ∀ i j : Fin 512, res_main_v107 V0 (ix2 b ⟨i.val * 512 + j.val, by omega⟩) = k0_pay11 x Y (ix2 i j)) (i j : Fin 512) :
    k0_pay1 (k0_pay11 x Y) (k0_pay12 x Y) (Scalar.ofBits .f32 0x2B8CBCCC#32) (ix3 (0 : Fin 1) i j)
      = refN V0 (ix2 b ⟨i.val * 512 + j.val, by omega⟩) := by
  rw [refN_eq, rFin_apply]
  refine (pay1_apply (k0_pay11 x Y) i j).trans ?_
  have hv' : ∀ i j : Fin 512, (res_main_v107 V0 : Flat) (ix2 b (flatIdx i j)) = k0_pay11 x Y (ix2 i j) := hv
  rw [hv' i j]
  refine congrArg (fun s => Ideal.div (k0_pay11 x Y (ix2 i j)) (max (Ideal.sqrt s) (Ideal.ofBits .f32 0x2B8CBCCC#32))) ?_
  refine Finset.sum_congr rfl fun r _ => Finset.sum_congr rfl fun c _ => ?_
  rw [hv' r c]

open Cert.ReferenceIdeal.Value in
/-- The kernel's stored value for block b is row b of the reference's normalised features: entry (0, i, j) against
    position i·512 + j. -/
theorem ns_bridge (V0 : Launch) (b : Fin 64) (i j : Fin 512) :
    kval (blockOf (res_main_v0 V0) b) (ix3 (0 : Fin 1) i j) = refN V0 (ix2 b ⟨i.val * 512 + j.val, by omega⟩) :=
  post_from_v107 V0 b (blockOf (res_main_v0 V0) b) (trips (blockOf (res_main_v0 V0) b)).1
    (fun i j => v107_eq V0 b (blockOf (res_main_v0 V0) b) (trips (blockOf (res_main_v0 V0) b)).1 (ns_Y V0 b) (ns_norm V0 b) i j) i j

end Cert.Bridge

end
-- ==== Proof.lean ====
/-
  The proof of the certificate's claim: a bilinear-pooling kernel with a ten-step Newton–Schulz matrix square root,
  a signed square root and an L2 normalisation per batch, followed by a projection kernel that sums its 262144-column
  contraction in two halves of eight column tiles, against the plain reference.

  Both kernel programs run to the end, fault nowhere and leave their arguments unchanged (their two kernels' proof
  data under the library's several-region launch); the reference runs as its list of host operations; the ideal
  pass's one rewrite is the sign-bit rule's statement; and at the extended reals the two results are one function of
  the arguments: per batch the kernel's pooled matrix, its norm, the ten iterations, the signed root and the
  normalisation are the reference's batched operations read at that batch, and the projection's two partial sums are
  the reference's one contraction regrouped — sums of extended reals regroup freely, so no finiteness is used.
-/
import proofs.«120891_j70282844831999_2_alg».proof.Defs
import proofs.«120891_j70282844831999_2_alg».proof.Proof.Gen.Kernel
import proofs.«120891_j70282844831999_2_alg».proof.Proof.Gen.KernelIdeal
import proofs.«120891_j70282844831999_2_alg».proof.Proof.Gen.ReferenceIdeal
import proofs.«120891_j70282844831999_2_alg».proof.Proof.Gen.Pre_finite_inputs
import proofs.«120891_j70282844831999_2_alg».proof.Proof.Claims
import proofs.«120891_j70282844831999_2_alg».proof.Proof.BridgeFin

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic Cert.Bridge.ns_bridge⟩

end Cert.Proof

end
